-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S4x8192 : Shape := ⟨2, ![4, 8192]⟩
abbrev S16x8192 : Shape := ⟨2, ![16, 8192]⟩
abbrev S4 : Shape := ⟨1, ![4]⟩
abbrev S4x4 : Shape := ⟨2, ![4, 4]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S4x8192 : S_.BroadcastsInDim S4x8192 (![] : Fin 0 → Fin S4x8192.rank)
  reducesTo_S4x8192_S_d0_1 : S4x8192.ReducesTo [0, 1] S_
  bcast_S_S16x8192 : S_.BroadcastsInDim S16x8192 (![] : Fin 0 → Fin S16x8192.rank)
  reducesTo_S16x8192_S_d0_1 : S16x8192.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  reducesTo_S_S_d : S_.ReducesTo [] S_

variable [Facts]

def fn_part2 {F : FTy → Type} [FloatOps F] (main_arg7 : FVec F S_ .f32) (main_arg8 : FVec F S_ .f32) (main_arg9 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S_ .f32 := Host.absf main_arg8
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  let main_v42 : FVec F S_ .f32 := Host.absf main_arg9
  let main_cst_16 : FVec F S_ .f32 := constant S_ .f32 0x7F800000#32
  let main_v43 : IVec S_ 1 := cmpf .olt main_v42 main_cst_16
  let main_c_17 : IVec S_ 1 := constantI S_ 1 1#1
  let main_v44 : IVec S_ 1 := (fun x v => Host.reduce IntOp.andi x v reducesTo_S_S_d h_S_) main_v43 main_c_17
  let main_v45 : IVec S_ 1 := andi main_v41 main_v44
  main_v45

def fn_part1 {F : FTy → Type} [FloatOps F] (main_arg4 : FVec F S4 .f32) (main_arg5 : FVec F S4 .f32) (main_arg6 : FVec F S4x4 .f32) (main_arg7 : FVec F S_ .f32) (main_arg8 : FVec F S_ .f32) (main_arg9 : FVec F S_ .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x4 .f32 := Host.absf main_arg6
  let main_cst_10 : FVec F S_ .f32 := constant S_ .f32 0x7F800000#32
  let main_v30 : FVec F S4x4 .f32 := broadcastInDim S4x4 ![] bcast_S_S4x4 main_cst_10
  let main_v31 : IVec S4x4 1 := cmpf .olt main_v29 main_v30
  let main_c_11 : IVec S_ 1 := constantI S_ 1 1#1
  let main_v32 : IVec S_ 1 := (fun x v => Host.reduce IntOp.andi x v reducesTo_S4x4_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x8192x2048 .f32) (main_arg1 : FVec F S4x8192 .f32) (main_arg2 : FVec F S4x8192 .f32) (main_arg3 : FVec F S16x8192 .f32) (main_arg4 : FVec F S4 .f32) (main_arg5 : FVec F S4 .f32) (main_arg6 : FVec F S4x4 .f32) (main_arg7 : FVec F S_ .f32) (main_arg8 : FVec F S_ .f32) (main_arg9 : FVec F S_ .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S4x8192 .f32 := Host.absf main_arg1
  let main_cst_0 : FVec F S_ .f32 := constant S_ .f32 0x7F800000#32
  let main_v5 : FVec F S4x8192 .f32 := broadcastInDim S4x8192 ![] bcast_S_S4x8192 main_cst_0
  let main_v6 : IVec S4x8192 1 := cmpf .olt main_v4 main_v5
  let main_c_1 : IVec S_ 1 := constantI S_ 1 1#1
  let main_v7 : IVec S_ 1 := (fun x v => Host.reduce IntOp.andi x v reducesTo_S4x8192_S_d0_1 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_arg5 main_arg6 main_arg7 main_arg8 main_arg9 main_v13 main_v16
-- ==== Kernel.lean ====
abbrev S4x8192x2048 : Shape := ⟨3, ![4, 8192, 2048]⟩
abbrev S4x8192 : Shape := ⟨2, ![4, 8192]⟩
abbrev S16x8192 : Shape := ⟨2, ![16, 8192]⟩
abbrev S4 : Shape := ⟨1, ![4]⟩
abbrev S4x4 : Shape := ⟨2, ![4, 4]⟩
abbrev S_ : Shape := ⟨0, ![]⟩
abbrev S4x4x2048 : Shape := ⟨3, ![4, 4, 2048]⟩
abbrev S4x2048x4 : Shape := ⟨3, ![4, 2048, 4]⟩
abbrev S16x4x2048 : Shape := ⟨3, ![16, 4, 2048]⟩
abbrev S4x2048x16 : Shape := ⟨3, ![4, 2048, 16]⟩
abbrev S4x2048x24 : Shape := ⟨3, ![4, 2048, 24]⟩
abbrev S16 : Shape := ⟨1, ![16]⟩
abbrev S24 : Shape := ⟨1, ![24]⟩
abbrev S1x24 : Shape := ⟨2, ![1, 24]⟩
abbrev S4x4x8192 : Shape := ⟨3, ![4, 4, 8192]⟩
abbrev S4x256x2048 : Shape := ⟨3, ![4, 256, 2048]⟩
abbrev S4x4x256 : Shape := ⟨3, ![4, 4, 256]⟩
abbrev S4x256 : Shape := ⟨2, ![4, 256]⟩
abbrev S256x1 : Shape := ⟨2, ![256, 1]⟩
abbrev S256x24 : Shape := ⟨2, ![256, 24]⟩
abbrev S1x256x2048 : Shape := ⟨3, ![1, 256, 2048]⟩
abbrev S256x2048 : Shape := ⟨2, ![256, 2048]⟩
abbrev S256 : Shape := ⟨1, ![256]⟩
abbrev S1x2048x24 : Shape := ⟨3, ![1, 2048, 24]⟩
abbrev S2048x24 : Shape := ⟨2, ![2048, 24]⟩
abbrev S24x256 : Shape := ⟨2, ![24, 256]⟩
abbrev S16x256 : Shape := ⟨2, ![16, 256]⟩
abbrev S4x1x256 : Shape := ⟨3, ![4, 1, 256]⟩
abbrev S1x4x256 : Shape := ⟨3, ![1, 4, 256]⟩
abbrev S8192x4x4 : Shape := ⟨3, ![8192, 4, 4]⟩
abbrev S8192x4 : Shape := ⟨2, ![8192, 4]⟩

abbrev nBuf : Space → Nat
  | .hbm => 33
  | .vmem => 10
  | .smem => 0
  | _ => 0

abbrev bufTy : (tb : Table) → Fin (tcTables nBuf tb) → BufTy
  | .hbm, ⟨0, _⟩ => ⟨S4x8192x2048, .f32⟩
  | .hbm, ⟨1, _⟩ => ⟨S4x8192, .f32⟩
  | .hbm, ⟨2, _⟩ => ⟨S4x8192, .f32⟩
  | .hbm, ⟨3, _⟩ => ⟨S16x8192, .f32⟩
  | .hbm, ⟨4, _⟩ => ⟨S4, .f32⟩
  | .hbm, ⟨5, _⟩ => ⟨S4, .f32⟩
  | .hbm, ⟨6, _⟩ => ⟨S4x4, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4x2048, .f32⟩
  | .hbm, ⟨11, _⟩ => ⟨S4x2048x4, .f32⟩
  | .hbm, ⟨12, _⟩ => ⟨S4x2048x4, .f32⟩
  | .hbm, ⟨13, _⟩ => ⟨S4x2048x4, .f32⟩
  | .hbm, ⟨14, _⟩ => ⟨S4x4x2048, .f32⟩
  | .hbm, ⟨15, _⟩ => ⟨S4x2048x4, .f32⟩
  | .hbm, ⟨16, _⟩ => ⟨S4x2048x4, .f32⟩
  | .hbm, ⟨17, _⟩ => ⟨S4x2048x4, .f32⟩
  | .hbm, ⟨18, _⟩ => ⟨S16x4x2048, .f32⟩
  | .hbm, ⟨19, _⟩ => ⟨S4x2048x16, .f32⟩
  | .hbm, ⟨20, _⟩ => ⟨S4x2048x16, .f32⟩
  | .hbm, ⟨21, _⟩ => ⟨S4x2048x16, .f32⟩
  | .hbm, ⟨22, _⟩ => ⟨S4x2048x24, .f32⟩
  | .hbm, ⟨23, _⟩ => ⟨S16, .f32⟩
  | .hbm, ⟨24, _⟩ => ⟨S24, .f32⟩
  | .hbm, ⟨25, _⟩ => ⟨S4x2048x24, .bf16⟩
  | .hbm, ⟨26, _⟩ => ⟨S1x24, .f32⟩
  | .hbm, ⟨27, _⟩ => ⟨S4x4x8192, .f32⟩
  | .hbm, ⟨28, _⟩ => ⟨S4x8192, .f32⟩
  | .hbm, ⟨29, _⟩ => ⟨S4x8192, .f32⟩
  | .hbm, ⟨30, _⟩ => ⟨S8192x4x4, .f32⟩
  | .hbm, ⟨31, _⟩ => ⟨S8192x4, .f32⟩
  | .hbm, ⟨32, _⟩ => ⟨S8192x4, .f32⟩
  | .local _ .vmem, ⟨0, _⟩ => ⟨S4x256x2048, .f32⟩
  | .local _ .vmem, ⟨1, _⟩ => ⟨S4x256x2048, .f32⟩
  | .local _ .vmem, ⟨2, _⟩ => ⟨S4x2048x24, .bf16⟩
  | .local _ .vmem, ⟨3, _⟩ => ⟨S1x24, .f32⟩
  | .local _ .vmem, ⟨4, _⟩ => ⟨S4x4x256, .f32⟩
  | .local _ .vmem, ⟨5, _⟩ => ⟨S4x4x256, .f32⟩
  | .local _ .vmem, ⟨6, _⟩ => ⟨S4x256, .f32⟩
  | .local _ .vmem, ⟨7, _⟩ => ⟨S4x256, .f32⟩
  | .local _ .vmem, ⟨8, _⟩ => ⟨S4x256, .f32⟩
  | .local _ .vmem, ⟨9, _⟩ => ⟨S4x256, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x8192_S4x4x2048 : S4x8192.ShapeCasts S4x4x2048
  transposes_S4x4x2048_S4x2048x4_1_2_0 : S4x4x2048.Transposes [1, 2, 0] S4x2048x4
  bcast_S_S4x2048x4 : S_.BroadcastsInDim S4x2048x4 (![] : Fin 0 → Fin S4x2048x4.rank)
  shapeCasts_S16x8192_S16x4x2048 : S16x8192.ShapeCasts S16x4x2048
  transposes_S16x4x2048_S4x2048x16_1_2_0 : S16x4x2048.Transposes [1, 2, 0] S4x2048x16
  bcast_S_S4x2048x16 : S_.BroadcastsInDim S4x2048x16 (![] : Fin 0 → Fin S4x2048x16.rank)
  concatenates_S4x2048x4_S4x2048x4_S4x2048x16_S4x2048x24_d2 : Shape.Concatenates [S4x2048x4, S4x2048x4, S4x2048x16] S4x2048x24 2
  shapeCasts_S4x4_S16 : S4x4.ShapeCasts S16
  concatenates_S4_S4_S16_S24_d0 : Shape.Concatenates [S4, S4, S16] S24 0
  bitsLt_bf16_f32 : FTy.bits .bf16 < FTy.bits .f32
  shapeCasts_S24_S1x24 : S24.ShapeCasts S1x24
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  inb_S4x2048x24_S1x2048x24_0_0_0 : ∀ a, (![0, 0, 0] : Fin 3 → Nat) a + S1x2048x24.size a ≤ S4x2048x24.size a
  h_S1x2048x24 : 0 < S1x2048x24.numel
  shapeCasts_S1x2048x24_S2048x24 : S1x2048x24.ShapeCasts S2048x24
  inb_S4x256x2048_S1x256x2048_1_0_0 : ∀ a, (![1, 0, 0] : Fin 3 → Nat) a + S1x256x2048.size a ≤ S4x256x2048.size a
  inb_S4x2048x24_S1x2048x24_1_0_0 : ∀ a, (![1, 0, 0] : Fin 3 → Nat) a + S1x2048x24.size a ≤ S4x2048x24.size a
  inb_S4x256x2048_S1x256x2048_2_0_0 : ∀ a, (![2, 0, 0] : Fin 3 → Nat) a + S1x256x2048.size a ≤ S4x256x2048.size a
  inb_S4x2048x24_S1x2048x24_2_0_0 : ∀ a, (![2, 0, 0] : Fin 3 → Nat) a + S1x2048x24.size a ≤ S4x2048x24.size a
  inb_S4x256x2048_S1x256x2048_3_0_0 : ∀ a, (![3, 0, 0] : Fin 3 → Nat) a + S1x256x2048.size a ≤ S4x256x2048.size a
  inb_S4x2048x24_S1x2048x24_3_0_0 : ∀ a, (![3, 0, 0] : Fin 3 → Nat) a + S1x2048x24.size a ≤ S4x2048x24.size a
  broadcasts_S256x1_S256x24 : S256x1.Broadcasts S256x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S256x24 : S1x24.Broadcasts S256x24
  transposes_S256x24_p1_0_S24x256 : S256x24.Transposes [1, 0] S24x256
  slices_S24x256_o0_0_S4x256 : S24x256.Slices ![0, 0] S4x256
  slices_S24x256_o4_0_S4x256 : S24x256.Slices ![4, 0] S4x256
  slices_S24x256_o8_0_S16x256 : S24x256.Slices ![8, 0] S16x256
  shapeCasts_S16x256_S4x4x256 : S16x256.ShapeCasts S4x4x256
  inb_S4x256_S4x256_0_0 : ∀ a, (![0, 0] : Fin 2 → Nat) a + S4x256.size a ≤ S4x256.size a
  h_S4x256 : 0 < S4x256.numel
  reduces_S4x4x256_S4x256 : S4x4x256.Reduces [1] S4x256
  shapeCasts_S4x256_S4x1x256 : S4x256.ShapeCasts S4x1x256
  broadcasts_S4x1x256_S4x4x256 : S4x1x256.Broadcasts S4x4x256
  reduces_S4x4x256_S4x256_2 : S4x4x256.Reduces [0] S4x256
  shapeCasts_S4x256_S1x4x256 : S4x256.ShapeCasts S1x4x256
  broadcasts_S1x4x256_S4x4x256 : S1x4x256.Broadcasts S4x4x256
  inb_S4x4x256_S4x4x256_0_0_0 : ∀ a, (![0, 0, 0] : Fin 3 → Nat) a + S4x4x256.size a ≤ S4x4x256.size a
  h_S4x4x256 : 0 < S4x4x256.numel
  transposes_S4x4x8192_S8192x4x4_2_0_1 : S4x4x8192.Transposes [2, 0, 1] S8192x4x4
  transposes_S4x8192_S8192x4_1_0 : S4x8192.Transposes [1, 0] S8192x4
  dot_S256x2048_S2048x24_S256x24_1_0_0_1_n_n_wf : DotDims.WF S256x2048 S2048x24 S256x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x8192x2048.size a
  hwx0_0 : ∀ i : grid0.Coords, EltTy.bits .f32 = 32 ∨ (Rect.block (s := S4x8192x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048x24.size a ≤ S4x2048x24.size a
  hwx0_1 : ∀ i : grid0.Coords, EltTy.bits .bf16 = 32 ∨ (Rect.block (s := S4x2048x24) S4x2048x24.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x24.size a ≤ S1x24.size a
  hwx0_2 : ∀ i : grid0.Coords, EltTy.bits .f32 = 32 ∨ (Rect.block (s := S1x24) S1x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x4x256.size a ≤ S4x4x8192.size a
  hwx0_3 : ∀ i : grid0.Coords, EltTy.bits .f32 = 32 ∨ (Rect.block (s := S4x4x8192) S4x4x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x8192.size a
  hwx0_4 : ∀ i : grid0.Coords, EltTy.bits .f32 = 32 ∨ (Rect.block (s := S4x8192) S4x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x8192.size a
  hwx0_5 : ∀ i : grid0.Coords, EltTy.bits .f32 = 32 ∨ (Rect.block (s := S4x8192) S4x256.size (cc0_transform_5 i) (hinb0_5 i)).WholeWords (EltTy.packing .f32)

variable [Facts₀]

def dot_S256x2048_S2048x24_S256x24_1_0_0_1_n_n : DotDims S256x2048 S2048x24 S256x24 where
  lhsContracting := [1]
  rhsContracting := [0]
  lhsNonContracting := [0]
  rhsNonContracting := [1]
  lhsBatch := []
  rhsBatch := []
  wf := dot_S256x2048_S2048x24_S256x24_1_0_0_1_n_n_wf

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4x2048x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S4x4x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S4x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_2) S4x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S4x8192 : Shape := ⟨2, ![4, 8192]⟩
abbrev S16x8192 : Shape := ⟨2, ![16, 8192]⟩
abbrev S4 : Shape := ⟨1, ![4]⟩
abbrev S4x4 : Shape := ⟨2, ![4, 4]⟩
abbrev S_ : Shape := ⟨0, ![]⟩
abbrev S8192x4x2048 : Shape := ⟨3, ![8192, 4, 2048]⟩
abbrev S8192x8192 : Shape := ⟨2, ![8192, 8192]⟩
abbrev S8192 : Shape := ⟨1, ![8192]⟩
abbrev S8192x1 : Shape := ⟨2, ![8192, 1]⟩
abbrev S8192x4 : Shape := ⟨2, ![8192, 4]⟩
abbrev S1x4 : Shape := ⟨2, ![1, 4]⟩
abbrev S8192x16 : Shape := ⟨2, ![8192, 16]⟩
abbrev S8192x4x4 : Shape := ⟨3, ![8192, 4, 4]⟩
abbrev S1x4x4 : Shape := ⟨3, ![1, 4, 4]⟩
abbrev S8192x4x1 : Shape := ⟨3, ![8192, 4, 1]⟩
abbrev S8192x1x4 : Shape := ⟨3, ![8192, 1, 4]⟩

abbrev nBuf : Space → Nat
  | .hbm => 267
  | .vmem => 0
  | .smem => 0
  | _ => 0

abbrev hbmTy0_0 (i : Nat) : BufTy := match i % 128 with
  | 0 => ⟨S4x8192x2048, .f32⟩
  | 1 => ⟨S4x8192, .f32⟩
  | 2 => ⟨S4x8192, .f32⟩
  | 3 => ⟨S16x8192, .f32⟩
  | 4 => ⟨S4, .f32⟩
  | 5 => ⟨S4, .f32⟩
  | 6 => ⟨S4x4, .f32⟩
  | 7 => ⟨S_, .f32⟩
  | 8 => ⟨S_, .f32⟩
  | 9 => ⟨S_, .f32⟩
  | 10 => ⟨S8192x4x2048, .f32⟩
  | 11 => ⟨S8192x8192, .f32⟩
  | 12 => ⟨S8192x8192, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x8192, .f32⟩
  | 24 => ⟨S8192x8192, .f32⟩
  | 25 => ⟨S8192x4, .f32⟩
  | 26 => ⟨S8192x4, .f32⟩
  | 27 => ⟨S8192x4, .f32⟩
  | 28 => ⟨S8192x4, .f32⟩
  | 29 => ⟨S1x4, .f32⟩
  | 30 => ⟨S8192x4, .f32⟩
  | 31 => ⟨S8192x4, .f32⟩
  | 32 => ⟨S8192x4, .f32⟩
  | 33 => ⟨S8192x4, .f32⟩
  | 34 => ⟨S_, .f32⟩
  | 35 => ⟨S8192x4, .f32⟩
  | 36 => ⟨S8192x4, .f32⟩
  | 37 => ⟨S_, .f32⟩
  | 38 => ⟨S8192x4, .f32⟩
  | 39 => ⟨S8192x4, .f32⟩
  | 40 => ⟨S8192x4, .f32⟩
  | 41 => ⟨S8192x4, .f32⟩
  | 42 => ⟨S8192x4, .f32⟩
  | 43 => ⟨S8192x4, .f32⟩
  | 44 => ⟨S1x4, .f32⟩
  | 45 => ⟨S8192x4, .f32⟩
  | 46 => ⟨S8192x4, .f32⟩
  | 47 => ⟨S8192x4, .f32⟩
  | 48 => ⟨S8192x4, .f32⟩
  | 49 => ⟨S_, .f32⟩
  | 50 => ⟨S8192x4, .f32⟩
  | 51 => ⟨S8192x4, .f32⟩
  | 52 => ⟨S_, .f32⟩
  | 53 => ⟨S8192x4, .f32⟩
  | 54 => ⟨S8192x4, .f32⟩
  | 55 => ⟨S_, .f32⟩
  | 56 => ⟨S8192x4, .f32⟩
  | 57 => ⟨S8192x4, .f32⟩
  | 58 => ⟨S8192x16, .f32⟩
  | 59 => ⟨S8192x16, .f32⟩
  | 60 => ⟨S8192x4x4, .f32⟩
  | 61 => ⟨S8192x4x4, .f32⟩
  | 62 => ⟨S8192x4x4, .f32⟩
  | 63 => ⟨S1x4x4, .f32⟩
  | 64 => ⟨S8192x4x4, .f32⟩
  | 65 => ⟨S8192x4x4, .f32⟩
  | 66 => ⟨S8192x4x4, .f32⟩
  | 67 => ⟨S_, .f32⟩
  | 68 => ⟨S8192x4, .f32⟩
  | 69 => ⟨S8192x4x1, .f32⟩
  | 70 => ⟨S8192x4x4, .f32⟩
  | 71 => ⟨S8192x4x4, .f32⟩
  | 72 => ⟨S_, .f32⟩
  | 73 => ⟨S8192x4, .f32⟩
  | 74 => ⟨S8192x1x4, .f32⟩
  | 75 => ⟨S8192x4x4, .f32⟩
  | 76 => ⟨S8192x4x4, .f32⟩
  | 77 => ⟨S_, .f32⟩
  | 78 => ⟨S8192x4, .f32⟩
  | 79 => ⟨S8192x4x1, .f32⟩
  | 80 => ⟨S8192x4x4, .f32⟩
  | 81 => ⟨S8192x4x4, .f32⟩
  | 82 => ⟨S_, .f32⟩
  | 83 => ⟨S8192x4, .f32⟩
  | 84 => ⟨S8192x1x4, .f32⟩
  | 85 => ⟨S8192x4x4, .f32⟩
  | 86 => ⟨S8192x4x4, .f32⟩
  | 87 => ⟨S_, .f32⟩
  | 88 => ⟨S8192x4, .f32⟩
  | 89 => ⟨S8192x4x1, .f32⟩
  | 90 => ⟨S8192x4x4, .f32⟩
  | 91 => ⟨S8192x4x4, .f32⟩
  | 92 => ⟨S_, .f32⟩
  | 93 => ⟨S8192x4, .f32⟩
  | 94 => ⟨S8192x1x4, .f32⟩
  | 95 => ⟨S8192x4x4, .f32⟩
  | 96 => ⟨S8192x4x4, .f32⟩
  | 97 => ⟨S_, .f32⟩
  | 98 => ⟨S8192x4, .f32⟩
  | 99 => ⟨S8192x4x1, .f32⟩
  | 100 => ⟨S8192x4x4, .f32⟩
  | 101 => ⟨S8192x4x4, .f32⟩
  | 102 => ⟨S_, .f32⟩
  | 103 => ⟨S8192x4, .f32⟩
  | 104 => ⟨S8192x1x4, .f32⟩
  | 105 => ⟨S8192x4x4, .f32⟩
  | 106 => ⟨S8192x4x4, .f32⟩
  | 107 => ⟨S_, .f32⟩
  | 108 => ⟨S8192x4, .f32⟩
  | 109 => ⟨S8192x4x1, .f32⟩
  | 110 => ⟨S8192x4x4, .f32⟩
  | 111 => ⟨S8192x4x4, .f32⟩
  | 112 => ⟨S_, .f32⟩
  | 113 => ⟨S8192x4, .f32⟩
  | 114 => ⟨S8192x1x4, .f32⟩
  | 115 => ⟨S8192x4x4, .f32⟩
  | 116 => ⟨S8192x4x4, .f32⟩
  | 117 => ⟨S_, .f32⟩
  | 118 => ⟨S8192x4, .f32⟩
  | 119 => ⟨S8192x4x1, .f32⟩
  | 120 => ⟨S8192x4x4, .f32⟩
  | 121 => ⟨S8192x4x4, .f32⟩
  | 122 => ⟨S_, .f32⟩
  | 123 => ⟨S8192x4, .f32⟩
  | 124 => ⟨S8192x1x4, .f32⟩
  | 125 => ⟨S8192x4x4, .f32⟩
  | 126 => ⟨S8192x4x4, .f32⟩
  | 127 => ⟨S_, .f32⟩
  | _ => ⟨S4x8192x2048, .f32⟩

abbrev hbmTy0_1 (i : Nat) : BufTy := match i % 128 with
  | 0 => ⟨S8192x4, .f32⟩
  | 1 => ⟨S8192x4x1, .f32⟩
  | 2 => ⟨S8192x4x4, .f32⟩
  | 3 => ⟨S8192x4x4, .f32⟩
  | 4 => ⟨S_, .f32⟩
  | 5 => ⟨S8192x4, .f32⟩
  | 6 => ⟨S8192x1x4, .f32⟩
  | 7 => ⟨S8192x4x4, .f32⟩
  | 8 => ⟨S8192x4x4, .f32⟩
  | 9 => ⟨S_, .f32⟩
  | 10 => ⟨S8192x4, .f32⟩
  | 11 => ⟨S8192x4x1, .f32⟩
  | 12 => ⟨S8192x4x4, .f32⟩
  | 13 => ⟨S8192x4x4, .f32⟩
  | 14 => ⟨S_, .f32⟩
  | 15 => ⟨S8192x4, .f32⟩
  | 16 => ⟨S8192x1x4, .f32⟩
  | 17 => ⟨S8192x4x4, .f32⟩
  | 18 => ⟨S8192x4x4, .f32⟩
  | 19 => ⟨S_, .f32⟩
  | 20 => ⟨S8192x4, .f32⟩
  | 21 => ⟨S8192x4x1, .f32⟩
  | 22 => ⟨S8192x4x4, .f32⟩
  | 23 => ⟨S8192x4x4, .f32⟩
  | 24 => ⟨S_, .f32⟩
  | 25 => ⟨S8192x4, .f32⟩
  | 26 => ⟨S8192x1x4, .f32⟩
  | 27 => ⟨S8192x4x4, .f32⟩
  | 28 => ⟨S8192x4x4, .f32⟩
  | 29 => ⟨S_, .f32⟩
  | 30 => ⟨S8192x4, .f32⟩
  | 31 => ⟨S8192x4x1, .f32⟩
  | 32 => ⟨S8192x4x4, .f32⟩
  | 33 => ⟨S8192x4x4, .f32⟩
  | 34 => ⟨S_, .f32⟩
  | 35 => ⟨S8192x4, .f32⟩
  | 36 => ⟨S8192x1x4, .f32⟩
  | 37 => ⟨S8192x4x4, .f32⟩
  | 38 => ⟨S8192x4x4, .f32⟩
  | 39 => ⟨S_, .f32⟩
  | 40 => ⟨S8192x4, .f32⟩
  | 41 => ⟨S8192x4x1, .f32⟩
  | 42 => ⟨S8192x4x4, .f32⟩
  | 43 => ⟨S8192x4x4, .f32⟩
  | 44 => ⟨S_, .f32⟩
  | 45 => ⟨S8192x4, .f32⟩
  | 46 => ⟨S8192x1x4, .f32⟩
  | 47 => ⟨S8192x4x4, .f32⟩
  | 48 => ⟨S8192x4x4, .f32⟩
  | 49 => ⟨S_, .f32⟩
  | 50 => ⟨S8192x4, .f32⟩
  | 51 => ⟨S8192x4x1, .f32⟩
  | 52 => ⟨S8192x4x4, .f32⟩
  | 53 => ⟨S8192x4x4, .f32⟩
  | 54 => ⟨S_, .f32⟩
  | 55 => ⟨S8192x4, .f32⟩
  | 56 => ⟨S8192x1x4, .f32⟩
  | 57 => ⟨S8192x4x4, .f32⟩
  | 58 => ⟨S8192x4x4, .f32⟩
  | 59 => ⟨S_, .f32⟩
  | 60 => ⟨S8192x4, .f32⟩
  | 61 => ⟨S8192x4x1, .f32⟩
  | 62 => ⟨S8192x4x4, .f32⟩
  | 63 => ⟨S8192x4x4, .f32⟩
  | 64 => ⟨S_, .f32⟩
  | 65 => ⟨S8192x4, .f32⟩
  | 66 => ⟨S8192x1x4, .f32⟩
  | 67 => ⟨S8192x4x4, .f32⟩
  | 68 => ⟨S8192x4x4, .f32⟩
  | 69 => ⟨S_, .f32⟩
  | 70 => ⟨S8192x4, .f32⟩
  | 71 => ⟨S8192x4x1, .f32⟩
  | 72 => ⟨S8192x4x4, .f32⟩
  | 73 => ⟨S8192x4x4, .f32⟩
  | 74 => ⟨S_, .f32⟩
  | 75 => ⟨S8192x4, .f32⟩
  | 76 => ⟨S8192x1x4, .f32⟩
  | 77 => ⟨S8192x4x4, .f32⟩
  | 78 => ⟨S8192x4x4, .f32⟩
  | 79 => ⟨S_, .f32⟩
  | 80 => ⟨S8192x4, .f32⟩
  | 81 => ⟨S8192x4x1, .f32⟩
  | 82 => ⟨S8192x4x4, .f32⟩
  | 83 => ⟨S8192x4x4, .f32⟩
  | 84 => ⟨S_, .f32⟩
  | 85 => ⟨S8192x4, .f32⟩
  | 86 => ⟨S8192x1x4, .f32⟩
  | 87 => ⟨S8192x4x4, .f32⟩
  | 88 => ⟨S8192x4x4, .f32⟩
  | 89 => ⟨S_, .f32⟩
  | 90 => ⟨S8192x4, .f32⟩
  | 91 => ⟨S8192x4x1, .f32⟩
  | 92 => ⟨S8192x4x4, .f32⟩
  | 93 => ⟨S8192x4x4, .f32⟩
  | 94 => ⟨S_, .f32⟩
  | 95 => ⟨S8192x4, .f32⟩
  | 96 => ⟨S8192x1x4, .f32⟩
  | 97 => ⟨S8192x4x4, .f32⟩
  | 98 => ⟨S8192x4x4, .f32⟩
  | 99 => ⟨S_, .f32⟩
  | 100 => ⟨S8192x4, .f32⟩
  | 101 => ⟨S8192x4x1, .f32⟩
  | 102 => ⟨S8192x4x4, .f32⟩
  | 103 => ⟨S8192x4x4, .f32⟩
  | 104 => ⟨S_, .f32⟩
  | 105 => ⟨S8192x4, .f32⟩
  | 106 => ⟨S8192x1x4, .f32⟩
  | 107 => ⟨S8192x4x4, .f32⟩
  | 108 => ⟨S8192x4x4, .f32⟩
  | 109 => ⟨S_, .f32⟩
  | 110 => ⟨S8192x4, .f32⟩
  | 111 => ⟨S8192x4x1, .f32⟩
  | 112 => ⟨S8192x4x4, .f32⟩
  | 113 => ⟨S8192x4x4, .f32⟩
  | 114 => ⟨S_, .f32⟩
  | 115 => ⟨S8192x4, .f32⟩
  | 116 => ⟨S8192x1x4, .f32⟩
  | 117 => ⟨S8192x4x4, .f32⟩
  | 118 => ⟨S8192x4x4, .f32⟩
  | 119 => ⟨S_, .f32⟩
  | 120 => ⟨S8192x4, .f32⟩
  | 121 => ⟨S8192x4x1, .f32⟩
  | 122 => ⟨S8192x4x4, .f32⟩
  | 123 => ⟨S8192x4x4, .f32⟩
  | 124 => ⟨S_, .f32⟩
  | 125 => ⟨S8192x4, .f32⟩
  | 126 => ⟨S8192x1x4, .f32⟩
  | 127 => ⟨S8192x4x4, .f32⟩
  | _ => ⟨S4x8192x2048, .f32⟩

abbrev hbmTy0_2 (i : Nat) : BufTy := match i % 128 with
  | 0 => ⟨S8192x4x4, .f32⟩
  | 1 => ⟨S_, .f32⟩
  | 2 => ⟨S8192x4, .f32⟩
  | 3 => ⟨S8192x4x1, .f32⟩
  | 4 => ⟨S8192x4x4, .f32⟩
  | 5 => ⟨S8192x4x4, .f32⟩
  | 6 => ⟨S_, .f32⟩
  | 7 => ⟨S8192x4, .f32⟩
  | 8 => ⟨S8192x1x4, .f32⟩
  | 9 => ⟨S8192x4x4, .f32⟩
  | 10 => ⟨S8192x4x4, .f32⟩
  | _ => ⟨S4x8192x2048, .f32⟩

abbrev hbmTy (i : Nat) : BufTy := match i / 128 with
  | 0 => hbmTy0_0 i
  | 1 => hbmTy0_1 i
  | 2 => hbmTy0_2 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_20 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_21 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_22 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_23 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_24 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_25 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_26 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_27 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_28 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_29 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_30 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_31 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_32 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_33 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_34 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_35 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_cst_36 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_37 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_38 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_39 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_cst_40 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_41 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_42 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_cst_43 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_cst_44 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_45 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_cst_46 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩

abbrev nD : Nat := 1
abbrev τ : Topo := Topo.v7x

variable {F : FTy → Type} [FloatOps F]

class Facts₀ : Prop where
  transposes_S4x8192x2048_S8192x4x2048_1_0_2 : S4x8192x2048.Transposes [1, 0, 2] S8192x4x2048
  shapeCasts_S8192x4x2048_S8192x8192 : S8192x4x2048.ShapeCasts S8192x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  transposes_S4x8192_S8192x4_1_0 : S4x8192.Transposes [1, 0] S8192x4
  bcast_S_S8192x4 : S_.BroadcastsInDim S8192x4 (![] : Fin 0 → Fin S8192x4.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  transposes_S16x8192_S8192x16_1_0 : S16x8192.Transposes [1, 0] S8192x16
  shapeCasts_S8192x16_S8192x4x4 : S8192x16.ShapeCasts S8192x4x4
  bcast_S_S8192x4x4 : S_.BroadcastsInDim S8192x4x4 (![] : Fin 0 → Fin S8192x4x4.rank)
  bcast_S4x4_S1x4x4_1_2 : S4x4.BroadcastsInDim S1x4x4 (![1, 2] : Fin 2 → Fin S1x4x4.rank)
  bcast_S1x4x4_S8192x4x4_0_1_2 : S1x4x4.BroadcastsInDim S8192x4x4 (![0, 1, 2] : Fin 3 → Fin S8192x4x4.rank)
  reducesTo_S8192x4x4_S8192x4_d2 : S8192x4x4.ReducesTo [2] S8192x4
  bcast_S8192x4_S8192x4x1_0_1 : S8192x4.BroadcastsInDim S8192x4x1 (![0, 1] : Fin 2 → Fin S8192x4x1.rank)
  bcast_S8192x4x1_S8192x4x4_0_1_2 : S8192x4x1.BroadcastsInDim S8192x4x4 (![0, 1, 2] : Fin 3 → Fin S8192x4x4.rank)
  reducesTo_S8192x4x4_S8192x4_d1 : S8192x4x4.ReducesTo [1] S8192x4
  bcast_S8192x4_S8192x1x4_0_2 : S8192x4.BroadcastsInDim S8192x1x4 (![0, 2] : Fin 2 → Fin S8192x1x4.rank)
  bcast_S8192x1x4_S8192x4x4_0_1_2 : S8192x1x4.BroadcastsInDim S8192x4x4 (![0, 1, 2] : Fin 3 → Fin S8192x4x4.rank)
  dot_S8192x8192_S8192x4_S8192x4_1_0_0_1_n_n_wf : DotDims.WF S8192x8192 S8192x4 S8192x4 [1] [0] [0] [1] [] []
  dot_S8192x8192_S8192x16_S8192x16_1_0_0_1_n_n_wf : DotDims.WF S8192x8192 S8192x16 S8192x16 [1] [0] [0] [1] [] []

variable [Facts₀]

def dot_S8192x8192_S8192x4_S8192x4_1_0_0_1_n_n : DotDims S8192x8192 S8192x4 S8192x4 where
  lhsContracting := [1]
  rhsContracting := [0]
  lhsNonContracting := [0]
  rhsNonContracting := [1]
  lhsBatch := []
  rhsBatch := []
  wf := dot_S8192x8192_S8192x4_S8192x4_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.KernelRun.lean ====
/-
  The run of `Kernel`'s @main, at any float instance: seventeen host lines build the combined weight tensor
  (the three weight matrices re-laid as [stream, feature, head], each scaled by its gate's α, joined along the head axis and
  narrowed) and the combined bias row; one launch over 32 grid points, each point taking 256 consecutive time steps of all
  four streams; three transposes put time back on the leading axis.  This file proves that the launch's body, at every
  point, reads its three input blocks and leaves in its three output buffers ONE store each — a pure function of the
  input blocks, named `hresBlock`, `hpreBlock`, `hpostBlock` below — and from that the whole run: it ends, faults nowhere,
  each output array holds what the library assembles from those blocks, and the ten argument arrays end as they began.
-/
import proofs.«112085_j43757126811708_2_alg».proof.Proof.Gen.Kernel.Launch
import proofs.«112085_j43757126811708_2_alg».proof.Proof.Gen.Kernel.Skeleton
import proofs.«112085_j43757126811708_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What core `c`'s buffers hold when the launch begins: the start memory after the seventeen host lines. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines, the launch, then the three transposes as the launch's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The transposes touch only unscoped buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the six arrays the launch stages (each writes its own fresh result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- None of the host lines ahead of the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 8: the launch finds it as it was at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 9: the launch finds it as it was at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the three closing transposes writes argument 1, and no window stages it: it ends as it started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- None of the three closing transposes writes argument 2, and no window stages it: it ends as it started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- None of the three closing transposes writes argument 3, and no window stages it: it ends as it started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- None of the three closing transposes writes argument 4, and no window stages it: it ends as it started. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- None of the three closing transposes writes argument 5, and no window stages it: it ends as it started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- None of the three closing transposes writes argument 6, and no window stages it: it ends as it started. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- None of the three closing transposes writes argument 7, and no window stages it: it ends as it started. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- None of the three closing transposes writes argument 8, and no window stages it: it ends as it started. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- None of the three closing transposes writes argument 9, and no window stages it: it ends as it started. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every grid point, whether that point fetched it or
    found it left from the point before (the block index has then not moved). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds the window's block at every grid point, whether that point fetched it or
    found it left from the point before (the block index has then not moved). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds the window's block at every grid point, whether that point fetched it or
    found it left from the point before (the block index has then not moved). -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From any run that ends with the staged arrays at what the library assembles and every other unscoped buffer at what the
    transposes leave: the stream array is an input window's (never written back), the other nine arguments are staged by no
    window and written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## What the body reads and what it stores -/

/-- Stream `s`'s slab of the staged stream block (256 time steps by 2048 features). -/
abbrev rx0 : Rect S4x256x2048 := Rect.unit (s := S4x256x2048) ![0, 0, 0] S1x256x2048.size inb_S4x256x2048_S1x256x2048_0_0_0
abbrev rx1 : Rect S4x256x2048 := Rect.unit (s := S4x256x2048) ![1, 0, 0] S1x256x2048.size inb_S4x256x2048_S1x256x2048_1_0_0
abbrev rx2 : Rect S4x256x2048 := Rect.unit (s := S4x256x2048) ![2, 0, 0] S1x256x2048.size inb_S4x256x2048_S1x256x2048_2_0_0
abbrev rx3 : Rect S4x256x2048 := Rect.unit (s := S4x256x2048) ![3, 0, 0] S1x256x2048.size inb_S4x256x2048_S1x256x2048_3_0_0
/-- Stream `s`'s slab of the combined weights (2048 features by 24 heads). -/
abbrev rw0 : Rect S4x2048x24 := Rect.unit (s := S4x2048x24) ![0, 0, 0] S1x2048x24.size inb_S4x2048x24_S1x2048x24_0_0_0
abbrev rw1 : Rect S4x2048x24 := Rect.unit (s := S4x2048x24) ![1, 0, 0] S1x2048x24.size inb_S4x2048x24_S1x2048x24_1_0_0
abbrev rw2 : Rect S4x2048x24 := Rect.unit (s := S4x2048x24) ![2, 0, 0] S1x2048x24.size inb_S4x2048x24_S1x2048x24_2_0_0
abbrev rw3 : Rect S4x2048x24 := Rect.unit (s := S4x2048x24) ![3, 0, 0] S1x2048x24.size inb_S4x2048x24_S1x2048x24_3_0_0
/-- The whole bias row, and the whole of each output buffer. -/
abbrev rb : Rect S1x24 := Rect.unit (s := S1x24) ![0, 0] S1x24.size inb_S1x24_S1x24_0_0
abbrev rres : Rect S4x4x256 := Rect.unit (s := S4x4x256) ![0, 0, 0] S4x4x256.size inb_S4x4x256_S4x4x256_0_0_0
abbrev rgate : Rect S4x256 := Rect.unit (s := S4x256) ![0, 0] S4x256.size inb_S4x256_S4x256_0_0

/-- The pre-gate block the body stores: the logistic of heads 0–3 of the normalized, biased, transposed projection. -/
def hpreBlock (x : Vec F S4x256x2048 .f32) (w : Vec F S4x2048x24 .bf16) (b : Vec F S1x24 .f32) : Vec F S4x256 .f32 :=
  k0_pay10 (k0_pay4 (View.ld x rx0) (View.ld w rw0) (View.ld x rx1) (View.ld w rw1)) (k0_pay6 (View.ld x rx0) (View.ld x rx1) (View.ld x rx2))
    (k0_pay7 (View.ld x rx2)) (k0_pay8 (View.ld w rw2)) (constant S256x24 .f32 0x00000000#32) (View.ld x rx3) (View.ld w rw3) (View.ld b rb)
/-- The post-gate block: twice the logistic of heads 4–7. -/
def hpostBlock (x : Vec F S4x256x2048 .f32) (w : Vec F S4x2048x24 .bf16) (b : Vec F S1x24 .f32) : Vec F S4x256 .f32 :=
  k0_pay11 (k0_pay4 (View.ld x rx0) (View.ld w rw0) (View.ld x rx1) (View.ld w rw1)) (k0_pay6 (View.ld x rx0) (View.ld x rx1) (View.ld x rx2))
    (k0_pay7 (View.ld x rx2)) (k0_pay8 (View.ld w rw2)) (constant S256x24 .f32 0x00000000#32) (View.ld x rx3) (View.ld w rw3) (View.ld b rb)
/-- The residual block: heads 8–23 as 4×4 matrices per time step, exponentiated, then twenty rounds of row and column
    normalization (the first half round in the first term, the rest in four chained terms). -/
def hresBlock (x : Vec F S4x256x2048 .f32) (w : Vec F S4x2048x24 .bf16) (b : Vec F S1x24 .f32) : Vec F S4x4x256 .f32 :=
  k0_pay1 (k0_pay15 (k0_pay14 (k0_pay13 (k0_pay12 (k0_pay4 (View.ld x rx0) (View.ld w rw0) (View.ld x rx1) (View.ld w rw1)) (k0_pay6 (View.ld x rx0) (View.ld x rx1) (View.ld x rx2))
    (k0_pay7 (View.ld x rx2)) (k0_pay8 (View.ld w rw2)) (constant S256x24 .f32 0x00000000#32) (View.ld x rx3) (View.ld w rw3) (View.ld b rb)))))

/-- Each output buffer after the body: its one store, through the whole-buffer rectangle. -/
def out3 (x : Vec F S4x256x2048 .f32) (w : Vec F S4x2048x24 .bf16) (b : Vec F S1x24 .f32) : Vec F S4x4x256 .f32 :=
  View.canon [⟨rres, hresBlock x w b⟩]
def out4 (x : Vec F S4x256x2048 .f32) (w : Vec F S4x2048x24 .bf16) (b : Vec F S1x24 .f32) : Vec F S4x256 .f32 :=
  View.canon [⟨rgate, hpreBlock x w b⟩]
def out5 (x : Vec F S4x256x2048 .f32) (w : Vec F S4x2048x24 .bf16) (b : Vec F S1x24 .f32) : Vec F S4x256 .f32 :=
  View.canon [⟨rgate, hpostBlock x w b⟩]

theorem cover_res (p0 : Vec F S4x4x256 .f32) (y : S4x4x256.Idx) :
    ∃ pc ∈ ([⟨rres, p0⟩] : List (View.Piece (Elt F) S4x4x256 .f32)), y ∈ pc.1.set :=
  View.cover_of_tiled [⟨rres, p0⟩] S4x4x256.size (by rfl) y
theorem cover_gate (p0 : Vec F S4x256 .f32) (y : S4x256.Idx) :
    ∃ pc ∈ ([⟨rgate, p0⟩] : List (View.Piece (Elt F) S4x256 .f32)), y ∈ pc.1.set :=
  View.cover_of_tiled [⟨rgate, p0⟩] S4x256.size (by rfl) y

/-! ## The body's triple -/

set_option maxHeartbeats 4000000 in
/-- The body, on whole staging buffers — the inputs' at contents reading `x`, `w`, `b`, the outputs' at anything — runs to
    its return with the inputs' as they were and each output's at its one store. -/
theorem sound_kernel (c : Dev nD) (E : Set ℕ) (i : grid0.Coords)
    (arg1 : Memref sig .tc .vmem S4x256x2048 .f32) (harg1 : arg1.IsWhole) (arg2 : Memref sig .tc .vmem S4x2048x24 .bf16) (harg2 : arg2.IsWhole)
    (arg3 : Memref sig .tc .vmem S1x24 .f32) (harg3 : arg3.IsWhole) (arg4 : Memref sig .tc .vmem S4x4x256 .f32) (harg4 : arg4.IsWhole)
    (arg5 : Memref sig .tc .vmem S4x256 .f32) (harg5 : arg5.IsWhole) (arg6 : Memref sig .tc .vmem S4x256 .f32) (harg6 : arg6.IsWhole)
    (x : Vec F S4x256x2048 .f32) (w : Vec F S4x2048x24 .bf16) (b : Vec F S1x24 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (out3 x w b) ∗ owns (c : Thread nD τ) arg5 fullShare (out4 x w b)
            ∗ owns (c : Thread nD τ) arg6 fullShare (out5 x w b)) -∗ K ⟨⟩))
      ⊢ wp frame (wpE (defs₀ (F := F)) Variants.none c none) E (cc0__mhc_kernel i arg1 harg1 arg2 harg2 arg3 harg3 arg4 harg4 arg5 harg5 arg6 harg6) K := by
  simp only [cc0__mhc_kernel_eq_skeleton]; unfold cc0__mhc_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_res _)
  isplitl [H4]
  · iexists _; isplitr
    swap; · iexact H4
    ipureintro
    exact View.read_writes_eq_canon _ _ _ (cover_gate _)
  iexists _; isplitr
  swap; · iexact H5
  ipureintro
  exact View.read_writes_eq_canon _ _ _ (cover_gate _)

/-! ## The launch's proof data -/

/-- On core `c`: the arrays as the launch finds them; after the body at point `t` each input buffer at its block and each
    output buffer at its one store over the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t) (iblk m c 2 t)
    | ⟨5, _⟩ => out5 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (iblk m c 0 t) (iblk m c 1 t) (iblk m c 2 t) := by dsimp only [dats]
theorem after4 (c : Dev nD) (t : Fin cfg0.N) : (dats m 0 c).after 4 t = out4 (iblk m c 0 t) (iblk m c 1 t) (iblk m c 2 t) := by dsimp only [dats]
theorem after5 (c : Dev nD) (t : Fin cfg0.N) : (dats m 0 c).after 5 t = out5 (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the input buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main ends, with each staged array at what the
    library assembles from the proof data and every other unscoped buffer as the transposes leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to the end, faults nowhere, and leaves the ten argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KernelIdealRun.lean ====
/-
  The run of `KernelIdeal`'s @main, at any float instance: seventeen host lines build the combined weight tensor
  (the three weight matrices re-laid as [stream, feature, head], each scaled by its gate's α, joined along the head axis and
  narrowed) and the combined bias row; one launch over 32 grid points, each point taking 256 consecutive time steps of all
  four streams; three transposes put time back on the leading axis.  This file proves that the launch's body, at every
  point, reads its three input blocks and leaves in its three output buffers ONE store each — a pure function of the
  input blocks, named `hresBlock`, `hpreBlock`, `hpostBlock` below — and from that the whole run: it ends, faults nowhere,
  each output array holds what the library assembles from those blocks, and the ten argument arrays end as they began.
-/
import proofs.«112085_j43757126811708_2_alg».proof.Proof.Gen.KernelIdeal.Launch
import proofs.«112085_j43757126811708_2_alg».proof.Proof.Gen.KernelIdeal.Skeleton
import proofs.«112085_j43757126811708_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What core `c`'s buffers hold when the launch begins: the start memory after the seventeen host lines. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines, the launch, then the three transposes as the launch's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The transposes touch only unscoped buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the six arrays the launch stages (each writes its own fresh result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- None of the host lines ahead of the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 6: the launch finds it as it was at the start. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 7: the launch finds it as it was at the start. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 8: the launch finds it as it was at the start. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the host lines ahead of the launch writes argument 9: the launch finds it as it was at the start. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- None of the three closing transposes writes argument 1, and no window stages it: it ends as it started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- None of the three closing transposes writes argument 2, and no window stages it: it ends as it started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- None of the three closing transposes writes argument 3, and no window stages it: it ends as it started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- None of the three closing transposes writes argument 4, and no window stages it: it ends as it started. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- None of the three closing transposes writes argument 5, and no window stages it: it ends as it started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- None of the three closing transposes writes argument 6, and no window stages it: it ends as it started. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- None of the three closing transposes writes argument 7, and no window stages it: it ends as it started. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- None of the three closing transposes writes argument 8, and no window stages it: it ends as it started. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- None of the three closing transposes writes argument 9, and no window stages it: it ends as it started. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every grid point, whether that point fetched it or
    found it left from the point before (the block index has then not moved). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds the window's block at every grid point, whether that point fetched it or
    found it left from the point before (the block index has then not moved). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds the window's block at every grid point, whether that point fetched it or
    found it left from the point before (the block index has then not moved). -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From any run that ends with the staged arrays at what the library assembles and every other unscoped buffer at what the
    transposes leave: the stream array is an input window's (never written back), the other nine arguments are staged by no
    window and written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## What the body reads and what it stores -/

/-- Stream `s`'s slab of the staged stream block (256 time steps by 2048 features). -/
abbrev rx0 : Rect S4x256x2048 := Rect.unit (s := S4x256x2048) ![0, 0, 0] S1x256x2048.size inb_S4x256x2048_S1x256x2048_0_0_0
abbrev rx1 : Rect S4x256x2048 := Rect.unit (s := S4x256x2048) ![1, 0, 0] S1x256x2048.size inb_S4x256x2048_S1x256x2048_1_0_0
abbrev rx2 : Rect S4x256x2048 := Rect.unit (s := S4x256x2048) ![2, 0, 0] S1x256x2048.size inb_S4x256x2048_S1x256x2048_2_0_0
abbrev rx3 : Rect S4x256x2048 := Rect.unit (s := S4x256x2048) ![3, 0, 0] S1x256x2048.size inb_S4x256x2048_S1x256x2048_3_0_0
/-- Stream `s`'s slab of the combined weights (2048 features by 24 heads). -/
abbrev rw0 : Rect S4x2048x24 := Rect.unit (s := S4x2048x24) ![0, 0, 0] S1x2048x24.size inb_S4x2048x24_S1x2048x24_0_0_0
abbrev rw1 : Rect S4x2048x24 := Rect.unit (s := S4x2048x24) ![1, 0, 0] S1x2048x24.size inb_S4x2048x24_S1x2048x24_1_0_0
abbrev rw2 : Rect S4x2048x24 := Rect.unit (s := S4x2048x24) ![2, 0, 0] S1x2048x24.size inb_S4x2048x24_S1x2048x24_2_0_0
abbrev rw3 : Rect S4x2048x24 := Rect.unit (s := S4x2048x24) ![3, 0, 0] S1x2048x24.size inb_S4x2048x24_S1x2048x24_3_0_0
/-- The whole bias row, and the whole of each output buffer. -/
abbrev rb : Rect S1x24 := Rect.unit (s := S1x24) ![0, 0] S1x24.size inb_S1x24_S1x24_0_0
abbrev rres : Rect S4x4x256 := Rect.unit (s := S4x4x256) ![0, 0, 0] S4x4x256.size inb_S4x4x256_S4x4x256_0_0_0
abbrev rgate : Rect S4x256 := Rect.unit (s := S4x256) ![0, 0] S4x256.size inb_S4x256_S4x256_0_0

/-- The pre-gate block the body stores: the logistic of heads 0–3 of the normalized, biased, transposed projection. -/
def hpreBlock (x : Vec F S4x256x2048 .f32) (w : Vec F S4x2048x24 .bf16) (b : Vec F S1x24 .f32) : Vec F S4x256 .f32 :=
  k0_pay10 (k0_pay4 (View.ld x rx0) (View.ld w rw0) (View.ld x rx1) (View.ld w rw1)) (k0_pay6 (View.ld x rx0) (View.ld x rx1) (View.ld x rx2))
    (k0_pay7 (View.ld x rx2)) (k0_pay8 (View.ld w rw2)) (constant S256x24 .f32 0x00000000#32) (View.ld x rx3) (View.ld w rw3) (View.ld b rb)
/-- The post-gate block: twice the logistic of heads 4–7. -/
def hpostBlock (x : Vec F S4x256x2048 .f32) (w : Vec F S4x2048x24 .bf16) (b : Vec F S1x24 .f32) : Vec F S4x256 .f32 :=
  k0_pay11 (k0_pay4 (View.ld x rx0) (View.ld w rw0) (View.ld x rx1) (View.ld w rw1)) (k0_pay6 (View.ld x rx0) (View.ld x rx1) (View.ld x rx2))
    (k0_pay7 (View.ld x rx2)) (k0_pay8 (View.ld w rw2)) (constant S256x24 .f32 0x00000000#32) (View.ld x rx3) (View.ld w rw3) (View.ld b rb)
/-- The residual block: heads 8–23 as 4×4 matrices per time step, exponentiated, then twenty rounds of row and column
    normalization (the first half round in the first term, the rest in four chained terms). -/
def hresBlock (x : Vec F S4x256x2048 .f32) (w : Vec F S4x2048x24 .bf16) (b : Vec F S1x24 .f32) : Vec F S4x4x256 .f32 :=
  k0_pay1 (k0_pay15 (k0_pay14 (k0_pay13 (k0_pay12 (k0_pay4 (View.ld x rx0) (View.ld w rw0) (View.ld x rx1) (View.ld w rw1)) (k0_pay6 (View.ld x rx0) (View.ld x rx1) (View.ld x rx2))
    (k0_pay7 (View.ld x rx2)) (k0_pay8 (View.ld w rw2)) (constant S256x24 .f32 0x00000000#32) (View.ld x rx3) (View.ld w rw3) (View.ld b rb)))))

/-- Each output buffer after the body: its one store, through the whole-buffer rectangle. -/
def out3 (x : Vec F S4x256x2048 .f32) (w : Vec F S4x2048x24 .bf16) (b : Vec F S1x24 .f32) : Vec F S4x4x256 .f32 :=
  View.canon [⟨rres, hresBlock x w b⟩]
def out4 (x : Vec F S4x256x2048 .f32) (w : Vec F S4x2048x24 .bf16) (b : Vec F S1x24 .f32) : Vec F S4x256 .f32 :=
  View.canon [⟨rgate, hpreBlock x w b⟩]
def out5 (x : Vec F S4x256x2048 .f32) (w : Vec F S4x2048x24 .bf16) (b : Vec F S1x24 .f32) : Vec F S4x256 .f32 :=
  View.canon [⟨rgate, hpostBlock x w b⟩]

theorem cover_res (p0 : Vec F S4x4x256 .f32) (y : S4x4x256.Idx) :
    ∃ pc ∈ ([⟨rres, p0⟩] : List (View.Piece (Elt F) S4x4x256 .f32)), y ∈ pc.1.set :=
  View.cover_of_tiled [⟨rres, p0⟩] S4x4x256.size (by rfl) y
theorem cover_gate (p0 : Vec F S4x256 .f32) (y : S4x256.Idx) :
    ∃ pc ∈ ([⟨rgate, p0⟩] : List (View.Piece (Elt F) S4x256 .f32)), y ∈ pc.1.set :=
  View.cover_of_tiled [⟨rgate, p0⟩] S4x256.size (by rfl) y

/-! ## The body's triple -/

set_option maxHeartbeats 4000000 in
/-- The body, on whole staging buffers — the inputs' at contents reading `x`, `w`, `b`, the outputs' at anything — runs to
    its return with the inputs' as they were and each output's at its one store. -/
theorem sound_kernel (c : Dev nD) (E : Set ℕ) (i : grid0.Coords)
    (arg1 : Memref sig .tc .vmem S4x256x2048 .f32) (harg1 : arg1.IsWhole) (arg2 : Memref sig .tc .vmem S4x2048x24 .bf16) (harg2 : arg2.IsWhole)
    (arg3 : Memref sig .tc .vmem S1x24 .f32) (harg3 : arg3.IsWhole) (arg4 : Memref sig .tc .vmem S4x4x256 .f32) (harg4 : arg4.IsWhole)
    (arg5 : Memref sig .tc .vmem S4x256 .f32) (harg5 : arg5.IsWhole) (arg6 : Memref sig .tc .vmem S4x256 .f32) (harg6 : arg6.IsWhole)
    (x : Vec F S4x256x2048 .f32) (w : Vec F S4x2048x24 .bf16) (b : Vec F S1x24 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (out3 x w b) ∗ owns (c : Thread nD τ) arg5 fullShare (out4 x w b)
            ∗ owns (c : Thread nD τ) arg6 fullShare (out5 x w b)) -∗ K ⟨⟩))
      ⊢ wp frame (wpE (defs₀ (F := F)) Variants.none c none) E (cc0__mhc_kernel i arg1 harg1 arg2 harg2 arg3 harg3 arg4 harg4 arg5 harg5 arg6 harg6) K := by
  simp only [cc0__mhc_kernel_eq_skeleton]; unfold cc0__mhc_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_res _)
  isplitl [H4]
  · iexists _; isplitr
    swap; · iexact H4
    ipureintro
    exact View.read_writes_eq_canon _ _ _ (cover_gate _)
  iexists _; isplitr
  swap; · iexact H5
  ipureintro
  exact View.read_writes_eq_canon _ _ _ (cover_gate _)

/-! ## The launch's proof data -/

/-- On core `c`: the arrays as the launch finds them; after the body at point `t` each input buffer at its block and each
    output buffer at its one store over the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t) (iblk m c 2 t)
    | ⟨5, _⟩ => out5 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 (iblk m c 0 t) (iblk m c 1 t) (iblk m c 2 t) := by dsimp only [dats]
theorem after4 (c : Dev nD) (t : Fin cfg0.N) : (dats m 0 c).after 4 t = out4 (iblk m c 0 t) (iblk m c 1 t) (iblk m c 2 t) := by dsimp only [dats]
theorem after5 (c : Dev nD) (t : Fin cfg0.N) : (dats m 0 c).after 5 t = out5 (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the input buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main ends, with each staged array at what the
    library assembles from the proof data and every other unscoped buffer as the transposes leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to the end, faults nowhere, and leaves the ten argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.Law.lean ====
/-
  The mathematics that joins the two programs, over the extended reals.

  One time step's row is 8192 numbers x_j, held by the kernel as four streams of 2048 (j = 2048·s + k).  With
  ss = Σ_j x_j², r = (ss/8192 + ε)^(-1/2), a weight row W_j and a gate scale α:
    the reference forms   α · Σ_j (x_j · r) · W_j + b,
    the kernel forms      (Σ_s Σ_k x_{s,k} · (W_{s,k} · α)) · (ss · 2⁻¹³ + ε)^(-1/2) + b,
  each stream's sum added to a zero start.  For finite x, W, α these are one real number: r is finite because ss/8192 + ε > 0,
  the quotient by 8192 is the product with 2⁻¹³, and a finite factor moves across a finite sum.  The bias b is added last on
  both sides and may be any extended real.
-/
import Mathlib
import Idealize.ShloMosaic.PureOps.Ideal
import Idealize.ShloMosaic.PureOps.Ideal.Laws

noncomputable section

namespace Cert.Law

open Idealize.ShloMosaic

/-- The kernel's pre-activation of one head at one time step, from the step's four stream rows `xs`, the head's four
    weight rows `ws` and its bias `bo`. -/
def zRow (xs ws : Fin 4 → Fin 2048 → EReal) (bo : EReal) : EReal :=
  ((((Ideal.ofBits .f32 0x00000000#32 + ∑ k, xs 0 k * ws 0 k) + ∑ k, xs 1 k * ws 1 k) + ∑ k, xs 2 k * ws 2 k) + ∑ k, xs 3 k * ws 3 k)
    * Ideal.rsqrt (((((Ideal.ofBits .f32 0x00000000#32 + ∑ k, xs 0 k * xs 0 k) + ∑ k, xs 1 k * xs 1 k) + ∑ k, xs 2 k * xs 2 k)
          + ∑ k, xs 3 k * xs 3 k) * Ideal.ofBits .f32 0x39000000#32 + Ideal.ofBits .f32 0x322BCC77#32)
    + bo

/-- A sum over 8192 terms, by stream. -/
theorem sum_split {M : Type*} [AddCommMonoid M] (f : Fin 8192 → M) :
    ∑ j, f j = ∑ s : Fin 4, ∑ k : Fin 2048, f ⟨s.val * 2048 + k.val, by have := s.isLt; have := k.isLt; omega⟩ := by
  have h := (Equiv.sum_comp (finProdFinEquiv (m := 4) (n := 2048)) f).symm
  rw [show (∑ j : Fin 8192, f j) = ∑ j : Fin (4 * 2048), f j from rfl, h, Fintype.sum_prod_type]
  refine Finset.sum_congr rfl fun s _ => Finset.sum_congr rfl fun k _ => congrArg f (Fin.ext ?_)
  show k.val + 2048 * s.val = s.val * 2048 + k.val
  omega

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_8192 : Ideal.ofBits .f32 0x46000000#32 = ((8192 : ℝ) : EReal) := by
  simp [Ideal.ofBits, Ideal.ieee, -EReal.coe_mul]; norm_num

theorem ofBits_inv8192 : Ideal.ofBits .f32 0x39000000#32 = ((1 / 8192 : ℝ) : EReal) := by
  simp [Ideal.ofBits, Ideal.ieee, -EReal.coe_mul]; norm_num

/-- The small positive literal added under the root is a positive real. -/
theorem eps_pos : ∃ e : ℝ, 0 < e ∧ Ideal.ofBits .f32 0x322BCC77#32 = (e : EReal) := by
  refine ⟨_, ?_, by simp [Ideal.ofBits, Ideal.ieee, -EReal.coe_mul]; rfl⟩
  norm_num

end Cert.Law

end
-- ==== Proof.KBody.lean ====
/-
  The body's arithmetic read at an index, over the extended reals.  A staged stream block is x[s, τ, k] (stream, local time
  step, feature), the staged weights w[s, k, o] (o one of 24 heads), the bias row b[0, o].  One slab of the stream block
  contributes Σ_k x[s,τ,k]² to the row's sum of squares and Σ_k x[s,τ,k]·w[s,k,o] to the raw projection.
-/
import proofs.«112085_j43757126811708_2_alg».proof.Proof.KernelIdealRun
import proofs.«112085_j43757126811708_2_alg».proof.Proof.LibPlainMatmul
import proofs.«112085_j43757126811708_2_alg».proof.Proof.Law
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.KernelIdeal.Hand
open Idealize.ShloMosaic Idealize.ShloMosaic.ValueIdx

/-! ## Loads through the slabs' rectangles -/

theorem ld_x0 (x : Vec Ideal S4x256x2048 .f32) (tt : Fin 256) (k : Fin 2048) :
    View.ld x rx0 (ix3 (0 : Fin 1) tt k) = x (ix3 (0 : Fin 4) tt k) := by
  refine congrArg x (funext fun a => Fin.ext ?_)
  match a with
  | ⟨0, _⟩ => rfl
  | ⟨1, _⟩ => show 0 + 1 * tt.val = tt.val; omega
  | ⟨2, _⟩ => show 0 + 1 * k.val = k.val; omega

theorem ld_w0 (w : Vec Ideal S4x2048x24 .bf16) (k : Fin 2048) (o : Fin 24) :
    View.ld w rw0 (ix3 (0 : Fin 1) k o) = w (ix3 (0 : Fin 4) k o) := by
  refine congrArg w (funext fun a => Fin.ext ?_)
  match a with
  | ⟨0, _⟩ => rfl
  | ⟨1, _⟩ => show 0 + 1 * k.val = k.val; omega
  | ⟨2, _⟩ => show 0 + 1 * o.val = o.val; omega

theorem ld_x1 (x : Vec Ideal S4x256x2048 .f32) (tt : Fin 256) (k : Fin 2048) :
    View.ld x rx1 (ix3 (0 : Fin 1) tt k) = x (ix3 (1 : Fin 4) tt k) := by
  refine congrArg x (funext fun a => Fin.ext ?_)
  match a with
  | ⟨0, _⟩ => rfl
  | ⟨1, _⟩ => show 0 + 1 * tt.val = tt.val; omega
  | ⟨2, _⟩ => show 0 + 1 * k.val = k.val; omega

theorem ld_w1 (w : Vec Ideal S4x2048x24 .bf16) (k : Fin 2048) (o : Fin 24) :
    View.ld w rw1 (ix3 (0 : Fin 1) k o) = w (ix3 (1 : Fin 4) k o) := by
  refine congrArg w (funext fun a => Fin.ext ?_)
  match a with
  | ⟨0, _⟩ => rfl
  | ⟨1, _⟩ => show 0 + 1 * k.val = k.val; omega
  | ⟨2, _⟩ => show 0 + 1 * o.val = o.val; omega

theorem ld_x2 (x : Vec Ideal S4x256x2048 .f32) (tt : Fin 256) (k : Fin 2048) :
    View.ld x rx2 (ix3 (0 : Fin 1) tt k) = x (ix3 (2 : Fin 4) tt k) := by
  refine congrArg x (funext fun a => Fin.ext ?_)
  match a with
  | ⟨0, _⟩ => rfl
  | ⟨1, _⟩ => show 0 + 1 * tt.val = tt.val; omega
  | ⟨2, _⟩ => show 0 + 1 * k.val = k.val; omega

theorem ld_w2 (w : Vec Ideal S4x2048x24 .bf16) (k : Fin 2048) (o : Fin 24) :
    View.ld w rw2 (ix3 (0 : Fin 1) k o) = w (ix3 (2 : Fin 4) k o) := by
  refine congrArg w (funext fun a => Fin.ext ?_)
  match a with
  | ⟨0, _⟩ => rfl
  | ⟨1, _⟩ => show 0 + 1 * k.val = k.val; omega
  | ⟨2, _⟩ => show 0 + 1 * o.val = o.val; omega

theorem ld_x3 (x : Vec Ideal S4x256x2048 .f32) (tt : Fin 256) (k : Fin 2048) :
    View.ld x rx3 (ix3 (0 : Fin 1) tt k) = x (ix3 (3 : Fin 4) tt k) := by
  refine congrArg x (funext fun a => Fin.ext ?_)
  match a with
  | ⟨0, _⟩ => rfl
  | ⟨1, _⟩ => show 0 + 1 * tt.val = tt.val; omega
  | ⟨2, _⟩ => show 0 + 1 * k.val = k.val; omega

theorem ld_w3 (w : Vec Ideal S4x2048x24 .bf16) (k : Fin 2048) (o : Fin 24) :
    View.ld w rw3 (ix3 (0 : Fin 1) k o) = w (ix3 (3 : Fin 4) k o) := by
  refine congrArg w (funext fun a => Fin.ext ?_)
  match a with
  | ⟨0, _⟩ => rfl
  | ⟨1, _⟩ => show 0 + 1 * k.val = k.val; omega
  | ⟨2, _⟩ => show 0 + 1 * o.val = o.val; omega

theorem ld_b (b : Vec Ideal S1x24 .f32) (o : Fin 24) :
    View.ld b rb (ix2 (0 : Fin 1) o) = b (ix2 (0 : Fin 1) o) := by
  refine congrArg b (funext fun a => Fin.ext ?_)
  match a with
  | ⟨0, _⟩ => rfl
  | ⟨1, _⟩ => show 0 + 1 * o.val = o.val; omega

/-! ## One slab's two sums -/

/-- The squares of one slab summed along the features, at local time step `τ`. -/
theorem slab_sq (v : Vec Ideal S1x256x2048 .f32) (tt : Fin 256) :
    (shapeCast S256x1 (multiReduction .add [1] S256
        (mulf (shapeCast S256x2048 v shapeCasts_S1x256x2048_S256x2048) (shapeCast S256x2048 v shapeCasts_S1x256x2048_S256x2048))
        0x00000000#32 reduces_S256x2048_S256 (.inl rfl) rfl) shapeCasts_S256_S256x1 : FVec Ideal S256x1 .f32) (ix2 tt (0 : Fin 1))
      = ∑ k : Fin 2048, v (ix3 (0 : Fin 1) tt k) * v (ix3 (0 : Fin 1) tt k) := by
  refine (shapeCast_apply _ shapeCasts_S256_S256x1 (ix2 tt (0 : Fin 1)) (ix1 tt) (by
    rw [Shape.rowMajor_val_one, Shape.rowMajor_val_two]; show tt.val = tt.val * 1 + 0; omega)).trans ?_
  refine (Ideal.multiReduction_add_single _ 0x00000000#32 reduces_S256x2048_S256 (.inl rfl) rfl (ix1 tt)).trans ?_
  show (∑ k : Fin 2048, (mulf (shapeCast S256x2048 v shapeCasts_S1x256x2048_S256x2048 : FVec Ideal S256x2048 .f32)
      (shapeCast S256x2048 v shapeCasts_S1x256x2048_S256x2048)) (reduces_S256x2048_S256.lift (ix1 tt) k)) = _
  refine Finset.sum_congr rfl fun k _ => ?_
  have hl : reduces_S256x2048_S256.lift (ix1 tt) k = ix2 tt k := by
    funext a; apply Fin.ext
    match a with
    | ⟨0, _⟩ => rfl
    | ⟨1, _⟩ => rfl
  rw [hl]
  show (shapeCast S256x2048 v shapeCasts_S1x256x2048_S256x2048 : FVec Ideal S256x2048 .f32) (ix2 tt k)
      * (shapeCast S256x2048 v shapeCasts_S1x256x2048_S256x2048 : FVec Ideal S256x2048 .f32) (ix2 tt k) = _
  rw [shapeCast_1ab_ab_apply v shapeCasts_S1x256x2048_S256x2048 tt k]

/-- One slab's product with its weights (both narrowed, which changes nothing here), at `(τ, o)`. -/
theorem slab_mm (v : Vec Ideal S1x256x2048 .f32) (u : Vec Ideal S1x2048x24 .bf16) (tt : Fin 256) (o : Fin 24) :
    (matmul dot_S256x2048_S2048x24_S256x24_1_0_0_1_n_n none
        (truncf .bf16 (shapeCast S256x2048 v shapeCasts_S1x256x2048_S256x2048 : FVec Ideal S256x2048 .f32) bitsLt_bf16_f32)
        (shapeCast S2048x24 u shapeCasts_S1x2048x24_S2048x24 : FVec Ideal S2048x24 .bf16) (constant S256x24 .f32 0x00000000#32) : FVec Ideal S256x24 .f32) (ix2 tt o)
      = ∑ k : Fin 2048, v (ix3 (0 : Fin 1) tt k) * u (ix3 (0 : Fin 1) k o) := by
  refine (Cert.PointConv.plainMatmul_zero_apply (R := 256) (n := 2048) (k := 24) dot_S256x2048_S2048x24_S256x24_1_0_0_1_n_n.wf none _ _ tt o).trans ?_
  refine Finset.sum_congr rfl fun k _ => ?_
  show (shapeCast S256x2048 v shapeCasts_S1x256x2048_S256x2048 : FVec Ideal S256x2048 .f32) (ix2 tt k)
      * (shapeCast S2048x24 u shapeCasts_S1x2048x24_S2048x24 : FVec Ideal S2048x24 .bf16) (ix2 k o) = _
  rw [shapeCast_1ab_ab_apply v shapeCasts_S1x256x2048_S256x2048 tt k, shapeCast_1ab_ab_apply u shapeCasts_S1x2048x24_S2048x24 k o]

/-! ## The four slabs of a staged block -/

theorem sq0 (x : Vec Ideal S4x256x2048 .f32) (tt : Fin 256) :
    (shapeCast S256x1 (multiReduction .add [1] S256
        (mulf (shapeCast S256x2048 (View.ld x rx0) shapeCasts_S1x256x2048_S256x2048) (shapeCast S256x2048 (View.ld x rx0) shapeCasts_S1x256x2048_S256x2048))
        0x00000000#32 reduces_S256x2048_S256 (.inl rfl) rfl) shapeCasts_S256_S256x1 : FVec Ideal S256x1 .f32) (ix2 tt (0 : Fin 1))
      = ∑ k : Fin 2048, x (ix3 (0 : Fin 4) tt k) * x (ix3 (0 : Fin 4) tt k) :=
  (slab_sq (View.ld x rx0) tt).trans (Finset.sum_congr rfl fun k _ => by rw [ld_x0])

theorem mm0 (x : Vec Ideal S4x256x2048 .f32) (w : Vec Ideal S4x2048x24 .bf16) (tt : Fin 256) (o : Fin 24) :
    (matmul dot_S256x2048_S2048x24_S256x24_1_0_0_1_n_n none
        (truncf .bf16 (shapeCast S256x2048 (View.ld x rx0) shapeCasts_S1x256x2048_S256x2048 : FVec Ideal S256x2048 .f32) bitsLt_bf16_f32)
        (shapeCast S2048x24 (View.ld w rw0) shapeCasts_S1x2048x24_S2048x24 : FVec Ideal S2048x24 .bf16) (constant S256x24 .f32 0x00000000#32) : FVec Ideal S256x24 .f32) (ix2 tt o)
      = ∑ k : Fin 2048, x (ix3 (0 : Fin 4) tt k) * w (ix3 (0 : Fin 4) k o) :=
  (slab_mm (View.ld x rx0) (View.ld w rw0) tt o).trans (Finset.sum_congr rfl fun k _ => by rw [ld_x0, ld_w0])

theorem sq1 (x : Vec Ideal S4x256x2048 .f32) (tt : Fin 256) :
    (shapeCast S256x1 (multiReduction .add [1] S256
        (mulf (shapeCast S256x2048 (View.ld x rx1) shapeCasts_S1x256x2048_S256x2048) (shapeCast S256x2048 (View.ld x rx1) shapeCasts_S1x256x2048_S256x2048))
        0x00000000#32 reduces_S256x2048_S256 (.inl rfl) rfl) shapeCasts_S256_S256x1 : FVec Ideal S256x1 .f32) (ix2 tt (0 : Fin 1))
      = ∑ k : Fin 2048, x (ix3 (1 : Fin 4) tt k) * x (ix3 (1 : Fin 4) tt k) :=
  (slab_sq (View.ld x rx1) tt).trans (Finset.sum_congr rfl fun k _ => by rw [ld_x1])

theorem mm1 (x : Vec Ideal S4x256x2048 .f32) (w : Vec Ideal S4x2048x24 .bf16) (tt : Fin 256) (o : Fin 24) :
    (matmul dot_S256x2048_S2048x24_S256x24_1_0_0_1_n_n none
        (truncf .bf16 (shapeCast S256x2048 (View.ld x rx1) shapeCasts_S1x256x2048_S256x2048 : FVec Ideal S256x2048 .f32) bitsLt_bf16_f32)
        (shapeCast S2048x24 (View.ld w rw1) shapeCasts_S1x2048x24_S2048x24 : FVec Ideal S2048x24 .bf16) (constant S256x24 .f32 0x00000000#32) : FVec Ideal S256x24 .f32) (ix2 tt o)
      = ∑ k : Fin 2048, x (ix3 (1 : Fin 4) tt k) * w (ix3 (1 : Fin 4) k o) :=
  (slab_mm (View.ld x rx1) (View.ld w rw1) tt o).trans (Finset.sum_congr rfl fun k _ => by rw [ld_x1, ld_w1])

theorem sq2 (x : Vec Ideal S4x256x2048 .f32) (tt : Fin 256) :
    (shapeCast S256x1 (multiReduction .add [1] S256
        (mulf (shapeCast S256x2048 (View.ld x rx2) shapeCasts_S1x256x2048_S256x2048) (shapeCast S256x2048 (View.ld x rx2) shapeCasts_S1x256x2048_S256x2048))
        0x00000000#32 reduces_S256x2048_S256 (.inl rfl) rfl) shapeCasts_S256_S256x1 : FVec Ideal S256x1 .f32) (ix2 tt (0 : Fin 1))
      = ∑ k : Fin 2048, x (ix3 (2 : Fin 4) tt k) * x (ix3 (2 : Fin 4) tt k) :=
  (slab_sq (View.ld x rx2) tt).trans (Finset.sum_congr rfl fun k _ => by rw [ld_x2])

theorem mm2 (x : Vec Ideal S4x256x2048 .f32) (w : Vec Ideal S4x2048x24 .bf16) (tt : Fin 256) (o : Fin 24) :
    (matmul dot_S256x2048_S2048x24_S256x24_1_0_0_1_n_n none
        (truncf .bf16 (shapeCast S256x2048 (View.ld x rx2) shapeCasts_S1x256x2048_S256x2048 : FVec Ideal S256x2048 .f32) bitsLt_bf16_f32)
        (shapeCast S2048x24 (View.ld w rw2) shapeCasts_S1x2048x24_S2048x24 : FVec Ideal S2048x24 .bf16) (constant S256x24 .f32 0x00000000#32) : FVec Ideal S256x24 .f32) (ix2 tt o)
      = ∑ k : Fin 2048, x (ix3 (2 : Fin 4) tt k) * w (ix3 (2 : Fin 4) k o) :=
  (slab_mm (View.ld x rx2) (View.ld w rw2) tt o).trans (Finset.sum_congr rfl fun k _ => by rw [ld_x2, ld_w2])

theorem sq3 (x : Vec Ideal S4x256x2048 .f32) (tt : Fin 256) :
    (shapeCast S256x1 (multiReduction .add [1] S256
        (mulf (shapeCast S256x2048 (View.ld x rx3) shapeCasts_S1x256x2048_S256x2048) (shapeCast S256x2048 (View.ld x rx3) shapeCasts_S1x256x2048_S256x2048))
        0x00000000#32 reduces_S256x2048_S256 (.inl rfl) rfl) shapeCasts_S256_S256x1 : FVec Ideal S256x1 .f32) (ix2 tt (0 : Fin 1))
      = ∑ k : Fin 2048, x (ix3 (3 : Fin 4) tt k) * x (ix3 (3 : Fin 4) tt k) :=
  (slab_sq (View.ld x rx3) tt).trans (Finset.sum_congr rfl fun k _ => by rw [ld_x3])

theorem mm3 (x : Vec Ideal S4x256x2048 .f32) (w : Vec Ideal S4x2048x24 .bf16) (tt : Fin 256) (o : Fin 24) :
    (matmul dot_S256x2048_S2048x24_S256x24_1_0_0_1_n_n none
        (truncf .bf16 (shapeCast S256x2048 (View.ld x rx3) shapeCasts_S1x256x2048_S256x2048 : FVec Ideal S256x2048 .f32) bitsLt_bf16_f32)
        (shapeCast S2048x24 (View.ld w rw3) shapeCasts_S1x2048x24_S2048x24 : FVec Ideal S2048x24 .bf16) (constant S256x24 .f32 0x00000000#32) : FVec Ideal S256x24 .f32) (ix2 tt o)
      = ∑ k : Fin 2048, x (ix3 (3 : Fin 4) tt k) * w (ix3 (3 : Fin 4) k o) :=
  (slab_mm (View.ld x rx3) (View.ld w rw3) tt o).trans (Finset.sum_congr rfl fun k _ => by rw [ld_x3, ld_w3])

/-- A column of 256 values spread over the 24 heads reads back the column. -/
theorem bcast_col (v : FVec Ideal S256x1 .f32) (tt : Fin 256) (o : Fin 24) :
    broadcastTo S256x24 v broadcasts_S256x1_S256x24 (ix2 tt o) = v (ix2 tt (0 : Fin 1)) := by
  refine broadcastTo_apply v broadcasts_S256x1_S256x24 (ix2 tt o) (ix2 tt (0 : Fin 1)) fun ax => ?_
  match ax with
  | ⟨0, _⟩ => rfl
  | ⟨1, _⟩ => rfl

/-! ## The normalized, biased projection, transposed: head `o`, local time step `τ` -/

theorem scaled_apply (x : Vec Ideal S4x256x2048 .f32) (w : Vec Ideal S4x2048x24 .bf16) (b : Vec Ideal S1x24 .f32) (o : Fin 24) (tt : Fin 256) :
    k0_pay9 (k0_pay4 (View.ld x rx0) (View.ld w rw0) (View.ld x rx1) (View.ld w rw1)) (k0_pay6 (View.ld x rx0) (View.ld x rx1) (View.ld x rx2))
      (k0_pay7 (View.ld x rx2)) (k0_pay8 (View.ld w rw2)) (constant S256x24 .f32 0x00000000#32) (View.ld x rx3) (View.ld w rw3) (View.ld b rb) (ix2 o tt)
    = Cert.Law.zRow (fun s k => x (ix3 s tt k)) (fun s k => w (ix3 s k o)) (b (ix2 (0 : Fin 1) o)) := by
  unfold k0_pay9
  refine (transpose_ix2_apply _ transposes_S256x24_p1_0_S24x256 o tt).trans ?_
  unfold Cert.Law.zRow k0_pay4 k0_pay6 k0_pay7 k0_pay8 k0_pay5 k0_pay3 k0_pay2
  refine congrArg₂ (· + ·) (congrArg₂ (· * ·)
      (congrArg₂ (· + ·) (congrArg₂ (· + ·) (congrArg₂ (· + ·) (congrArg₂ (· + ·) rfl (mm0 x w tt o)) (mm1 x w tt o)) (mm2 x w tt o)) (mm3 x w tt o))
      ?r) ?bias
  case r =>
    refine (bcast_col _ tt o).trans ?_
    refine congrArg Ideal.rsqrt (congrArg₂ (· + ·) (congrArg₂ (· * ·)
      (congrArg₂ (· + ·) (congrArg₂ (· + ·) (congrArg₂ (· + ·) (congrArg₂ (· + ·) rfl (sq0 x tt)) (sq1 x tt)) (sq2 x tt)) (sq3 x tt)) rfl) rfl)
  case bias =>
    refine (broadcastTo_1b_ab_apply _ broadcasts_S1x24_S256x24 tt o).trans ?_
    rw [shapeCast_self]
    exact ld_b b o

end Cert.KernelIdeal.Body

end
-- ==== Proof.Sinkhorn.lean ====
import proofs.«112085_j43757126811708_2_alg».proof.Proof.Gen.KernelIdeal.Skeleton
import proofs.«112085_j43757126811708_2_alg».proof.Proof.Gen.ReferenceIdeal.Run
import Idealize.ShloMosaic.PureOps.Ideal.Laws
import Idealize.ShloMosaic.Lib.ValueIdx
import Idealize.ShloMosaic.Lib.IdealHost
import Idealize.ShloMosaic.Lib.Pipeline.Value

noncomputable section

open scoped BigOperators

/-! # Twenty rounds of row-then-column normalization of a 4 × 4 matrix

A round divides every row of the matrix by its sum and then every column of the result by its sum. Both
programs run twenty rounds on each time step's matrix; they differ only in where the matrix sits in
their arrays. The first part defines the round on a bare matrix; the two later parts read each program's
steps as that round on the matrix of one time step. -/

namespace Cert.Sinkhorn

open Idealize.ShloMosaic

/-- Every row divided by its sum. -/
def row (M : Fin 4 → Fin 4 → EReal) : Fin 4 → Fin 4 → EReal :=
  fun i j => Ideal.div (M i j) (∑ j' : Fin 4, M i j')

/-- Every column divided by its sum. -/
def col (M : Fin 4 → Fin 4 → EReal) : Fin 4 → Fin 4 → EReal :=
  fun i j => Ideal.div (M i j) (∑ i' : Fin 4, M i' j)

/-- One round: the rows, then the columns. -/
def step (M : Fin 4 → Fin 4 → EReal) : Fin 4 → Fin 4 → EReal := col (row M)

/-- Twenty rounds. -/
def sink (M : Fin 4 → Fin 4 → EReal) : Fin 4 → Fin 4 → EReal := step^[20] M

/-- Twenty rounds written out: row, column, row, column, … forty steps. -/
theorem sink_eq (M : Fin 4 → Fin 4 → EReal) :
    sink M = col (row (col (row (col (row (col (row (col (row (col (row (col (row (col (row (col (row (col (row (col (row (col (row (col (row (col (row (col (row (col (row (col (row (col (row (col (row (col (row (M)))))))))))))))))))))))))))))))))))))))) := by
  simp only [sink, step, Function.iterate_succ, Function.iterate_zero, Function.comp_apply, id_eq]

end Cert.Sinkhorn

/-! ## The kernel's layout: the matrix of time step `tt` is `V (i, j, tt)` -/

namespace Cert.KernelIdeal.Sink

open Idealize.ShloMosaic Idealize.SL.Sem Idealize.ShloMosaic.ValueIdx Cert.KernelIdeal Cert.KernelIdeal.Gen Cert.Sinkhorn

/-- The kernel's row step: the sum over the middle axis, put back as a unit axis, broadcast and divided into. -/
def rowK (E : FVec Ideal S4x4x256 .f32) : FVec Ideal S4x4x256 .f32 :=
  divf E (broadcastTo S4x4x256 (shapeCast S4x1x256 (multiReduction .add [1] S4x256 E 0x00000000#32 reduces_S4x4x256_S4x256 (.inl rfl) rfl) shapeCasts_S4x256_S4x1x256) broadcasts_S4x1x256_S4x4x256)

/-- The kernel's column step: the sum over the leading axis, put back as a unit axis, broadcast and divided into. -/
def colK (E : FVec Ideal S4x4x256 .f32) : FVec Ideal S4x4x256 .f32 :=
  divf E (broadcastTo S4x4x256 (shapeCast S1x4x256 (multiReduction .add [0] S4x256 E 0x00000000#32 reduces_S4x4x256_S4x256_2 (.inl rfl) rfl) shapeCasts_S4x256_S1x4x256) broadcasts_S1x4x256_S4x4x256)

/-- The matrix of one time step. -/
def slice (V : FVec Ideal S4x4x256 .f32) (tt : Fin 256) : Fin 4 → Fin 4 → EReal := fun a b => V (ix3 a b tt)

theorem rowK_apply (V : FVec Ideal S4x4x256 .f32) (i j : Fin 4) (tt : Fin 256) :
    rowK V (ix3 i j tt) = row (slice V tt) i j := by
  show Ideal.div (V (ix3 i j tt)) _ = Ideal.div (V (ix3 i j tt)) _
  congr 1
  refine (broadcastTo_apply _ broadcasts_S4x1x256_S4x4x256 (ix3 i j tt) (ix3 i (0 : Fin 1) tt) fun a => ?_).trans ?_
  · match a with
    | ⟨0, _⟩ => rfl
    | ⟨1, _⟩ => rfl
    | ⟨2, _⟩ => rfl
  refine (shapeCast_apply _ shapeCasts_S4x256_S4x1x256 (ix3 i (0 : Fin 1) tt) (ix2 i tt) ?_).trans ?_
  · rw [Shape.rowMajor_val_two, Shape.rowMajor_val_three]
    show i.val * 256 + tt.val = (i.val * 1 + 0) * 256 + tt.val
    omega
  refine (Ideal.multiReduction_add_single V 0x00000000#32 reduces_S4x4x256_S4x256 (.inl rfl) rfl (ix2 i tt)).trans ?_
  show (∑ k : Fin 4, V (reduces_S4x4x256_S4x256.lift (ix2 i tt) k)) = ∑ j' : Fin 4, V (ix3 i j' tt)
  refine Finset.sum_congr rfl fun k _ => congrArg V (funext fun a => Fin.ext ?_)
  match a with
  | ⟨0, _⟩ => rfl
  | ⟨1, _⟩ => rfl
  | ⟨2, _⟩ => rfl

theorem colK_apply (V : FVec Ideal S4x4x256 .f32) (i j : Fin 4) (tt : Fin 256) :
    colK V (ix3 i j tt) = col (slice V tt) i j := by
  show Ideal.div (V (ix3 i j tt)) _ = Ideal.div (V (ix3 i j tt)) _
  congr 1
  refine (broadcastTo_apply _ broadcasts_S1x4x256_S4x4x256 (ix3 i j tt) (ix3 (0 : Fin 1) j tt) fun a => ?_).trans ?_
  · match a with
    | ⟨0, _⟩ => rfl
    | ⟨1, _⟩ => rfl
    | ⟨2, _⟩ => rfl
  refine (shapeCast_apply _ shapeCasts_S4x256_S1x4x256 (ix3 (0 : Fin 1) j tt) (ix2 j tt) ?_).trans ?_
  · rw [Shape.rowMajor_val_two, Shape.rowMajor_val_three]
    show j.val * 256 + tt.val = (0 * 4 + j.val) * 256 + tt.val
    omega
  refine (Ideal.multiReduction_add_single V 0x00000000#32 reduces_S4x4x256_S4x256_2 (.inl rfl) rfl (ix2 j tt)).trans ?_
  show (∑ k : Fin 4, V (reduces_S4x4x256_S4x256_2.lift (ix2 j tt) k)) = ∑ i' : Fin 4, V (ix3 i' j tt)
  refine Finset.sum_congr rfl fun k _ => congrArg V (funext fun a => Fin.ext ?_)
  match a with
  | ⟨0, _⟩ => rfl
  | ⟨1, _⟩ => rfl
  | ⟨2, _⟩ => rfl

theorem rowK_slice (V : FVec Ideal S4x4x256 .f32) (tt : Fin 256) : slice (rowK V) tt = row (slice V tt) :=
  funext fun i => funext fun j => rowK_apply V i j tt

theorem colK_slice (V : FVec Ideal S4x4x256 .f32) (tt : Fin 256) : slice (colK V) tt = col (slice V tt) :=
  funext fun i => funext fun j => colK_apply V i j tt

/-- Six column-then-row pairs, as each of the three middle payloads spells them. -/
def cr6 (M : Fin 4 → Fin 4 → EReal) : Fin 4 → Fin 4 → EReal :=
  row (col (row (col (row (col (row (col (row (col (row (col (M))))))))))))

theorem pay13_slice (V : FVec Ideal S4x4x256 .f32) (tt : Fin 256) : slice (k0_pay13 V) tt = cr6 (slice V tt) := by
  show slice (rowK (colK (rowK (colK (rowK (colK (rowK (colK (rowK (colK (rowK (colK (V))))))))))))) tt = _
  simp only [rowK_slice, colK_slice, cr6]

theorem pay14_slice (V : FVec Ideal S4x4x256 .f32) (tt : Fin 256) : slice (k0_pay14 V) tt = cr6 (slice V tt) := by
  show slice (rowK (colK (rowK (colK (rowK (colK (rowK (colK (rowK (colK (rowK (colK (V))))))))))))) tt = _
  simp only [rowK_slice, colK_slice, cr6]

theorem pay15_slice (V : FVec Ideal S4x4x256 .f32) (tt : Fin 256) : slice (k0_pay15 V) tt = cr6 (slice V tt) := by
  show slice (rowK (colK (rowK (colK (rowK (colK (rowK (colK (rowK (colK (rowK (colK (V))))))))))))) tt = _
  simp only [rowK_slice, colK_slice, cr6]

theorem pay1_slice (V : FVec Ideal S4x4x256 .f32) (tt : Fin 256) : slice (k0_pay1 V) tt = col (row (col (slice V tt))) := by
  show slice (colK (rowK (colK V))) tt = _
  simp only [rowK_slice, colK_slice]

/-- The payload that opens the normalization is the row step of the exponentials. -/
theorem pay12_eq (v23 : FVec Ideal S256x24 .f32) (v29 : FVec Ideal S256x1 .f32) (v30 : FVec Ideal S256x2048 .bf16)
    (v32 : FVec Ideal S2048x24 .bf16) (cst_21 : FVec Ideal S256x24 .f32) (v35 : Vec Ideal S1x256x2048 .f32)
    (v42 : Vec Ideal S1x2048x24 .bf16) (v53 : Vec Ideal S1x24 .f32) :
    k0_pay12 v23 v29 v30 v32 cst_21 v35 v42 v53
      = rowK (exp (shapeCast S4x4x256 (extractStridedSlice S16x256 ![8, 0] (k0_pay9 v23 v29 v30 v32 cst_21 v35 v42 v53) slices_S24x256_o8_0_S16x256) shapeCasts_S16x256_S4x4x256)) := rfl

/-- The kernel's forty steps on the matrix of time step `tt` are the twenty rounds. -/
theorem kernel_sink (E : FVec Ideal S4x4x256 .f32) (i j : Fin 4) (tt : Fin 256) :
    k0_pay1 (k0_pay15 (k0_pay14 (k0_pay13 (rowK E)))) (ix3 i j tt) = sink (fun a b => E (ix3 a b tt)) i j := by
  show slice (k0_pay1 (k0_pay15 (k0_pay14 (k0_pay13 (rowK E))))) tt i j = sink (slice E tt) i j
  rw [pay1_slice, pay15_slice, pay14_slice, pay13_slice, rowK_slice, sink_eq]
  rfl

end Cert.KernelIdeal.Sink

/-! ## The reference's layout: the matrix of time step `T` is `R (T, i, j)` -/

namespace Cert.ReferenceIdeal.Sink

open Idealize.ShloMosaic Idealize.SL.Sem Idealize.ShloMosaic.ValueIdx Cert.ReferenceIdeal Cert.ReferenceIdeal.Gen Cert.ReferenceIdeal.Value Cert.Sinkhorn

/-- The reference's row step: the sum over the last axis from a zero start, put back as a unit axis, broadcast and
    divided into. -/
def rowR (X : FVec Ideal S8192x4x4 .f32) : FVec Ideal S8192x4x4 .f32 :=
  Host.divf X (broadcastInDim S8192x4x4 ![0, 1, 2] bcast_S8192x4x1_S8192x4x4_0_1_2 (broadcastInDim S8192x4x1 ![0, 1] bcast_S8192x4_S8192x4x1_0_1 (Host.reduceAdd X (constant S_ .f32 0x00000000#32) reducesTo_S8192x4x4_S8192x4_d2 h_S_)))

/-- The reference's column step: the sum over the middle axis from a zero start, put back as a unit axis, broadcast
    and divided into. -/
def colR (X : FVec Ideal S8192x4x4 .f32) : FVec Ideal S8192x4x4 .f32 :=
  Host.divf X (broadcastInDim S8192x4x4 ![0, 1, 2] bcast_S8192x1x4_S8192x4x4_0_1_2 (broadcastInDim S8192x1x4 ![0, 2] bcast_S8192x4_S8192x1x4_0_2 (Host.reduceAdd X (constant S_ .f32 0x00000000#32) reducesTo_S8192x4x4_S8192x4_d1 h_S_)))

/-- The matrix of one time step. -/
def sliceR (X : FVec Ideal S8192x4x4 .f32) (T : Fin 8192) : Fin 4 → Fin 4 → EReal := fun a b => X (ix3 T a b)

theorem reduces_d2 : S8192x4x4.Reduces [2] S8192x4 := by decide
theorem reduces_d1 : S8192x4x4.Reduces [1] S8192x4 := by decide

theorem rowR_apply (X : FVec Ideal S8192x4x4 .f32) (T : Fin 8192) (i j : Fin 4) :
    rowR X (ix3 T i j) = row (sliceR X T) i j := by
  show Ideal.div (X (ix3 T i j)) _ = Ideal.div (X (ix3 T i j)) _
  congr 1
  refine (broadcastInDim_apply ![0, 1, 2] bcast_S8192x4x1_S8192x4x4_0_1_2 _ (ix3 T i j) (ix3 T i (0 : Fin 1)) fun a => ?_).trans ?_
  · match a with
    | ⟨0, _⟩ => rfl
    | ⟨1, _⟩ => rfl
    | ⟨2, _⟩ => rfl
  refine (broadcastInDim_apply ![0, 1] bcast_S8192x4_S8192x4x1_0_1 _ (ix3 T i (0 : Fin 1)) (ix2 T i) fun a => ?_).trans ?_
  · match a with
    | ⟨0, _⟩ => rfl
    | ⟨1, _⟩ => rfl
  refine (hostReduceAdd_apply X _ reducesTo_S8192x4x4_S8192x4_d2 h_S_ (ix2 T i)).trans ?_
  refine (Ideal.hostReduceAdd_single reducesTo_S8192x4x4_S8192x4_d2 reduces_d2 X _ (ix2 T i)).trans ?_
  rw [constant_apply, Ideal.ofBits_zero_f32, zero_add]
  show (∑ k : Fin 4, X (reduces_d2.lift (ix2 T i) k)) = ∑ j' : Fin 4, X (ix3 T i j')
  refine Finset.sum_congr rfl fun k _ => congrArg X (funext fun a => Fin.ext ?_)
  match a with
  | ⟨0, _⟩ => rfl
  | ⟨1, _⟩ => rfl
  | ⟨2, _⟩ => rfl

theorem colR_apply (X : FVec Ideal S8192x4x4 .f32) (T : Fin 8192) (i j : Fin 4) :
    colR X (ix3 T i j) = col (sliceR X T) i j := by
  show Ideal.div (X (ix3 T i j)) _ = Ideal.div (X (ix3 T i j)) _
  congr 1
  refine (broadcastInDim_apply ![0, 1, 2] bcast_S8192x1x4_S8192x4x4_0_1_2 _ (ix3 T i j) (ix3 T (0 : Fin 1) j) fun a => ?_).trans ?_
  · match a with
    | ⟨0, _⟩ => rfl
    | ⟨1, _⟩ => rfl
    | ⟨2, _⟩ => rfl
  refine (broadcastInDim_apply ![0, 2] bcast_S8192x4_S8192x1x4_0_2 _ (ix3 T (0 : Fin 1) j) (ix2 T j) fun a => ?_).trans ?_
  · match a with
    | ⟨0, _⟩ => rfl
    | ⟨1, _⟩ => rfl
  refine (hostReduceAdd_apply X _ reducesTo_S8192x4x4_S8192x4_d1 h_S_ (ix2 T j)).trans ?_
  refine (Ideal.hostReduceAdd_single reducesTo_S8192x4x4_S8192x4_d1 reduces_d1 X _ (ix2 T j)).trans ?_
  rw [constant_apply, Ideal.ofBits_zero_f32, zero_add]
  show (∑ k : Fin 4, X (reduces_d1.lift (ix2 T j) k)) = ∑ i' : Fin 4, X (ix3 T i' j)
  refine Finset.sum_congr rfl fun k _ => congrArg X (funext fun a => Fin.ext ?_)
  match a with
  | ⟨0, _⟩ => rfl
  | ⟨1, _⟩ => rfl
  | ⟨2, _⟩ => rfl

theorem rowR_slice (X : FVec Ideal S8192x4x4 .f32) (T : Fin 8192) : sliceR (rowR X) T = row (sliceR X T) :=
  funext fun i => funext fun j => rowR_apply X T i j

theorem colR_slice (X : FVec Ideal S8192x4x4 .f32) (T : Fin 8192) : sliceR (colR X) T = col (sliceR X T) :=
  funext fun i => funext fun j => colR_apply X T i j

/-! Each named intermediate of the run is one step of the one before it. -/

theorem v52_slice (V0 : Valuation τ sig (Elt Ideal)) (T : Fin 8192) :
    sliceR (res_main_v52 V0) T = row (sliceR (res_main_v48 V0) T) :=
  rowR_slice (res_main_v48 V0) T

theorem v56_slice (V0 : Valuation τ sig (Elt Ideal)) (T : Fin 8192) :
    sliceR (res_main_v56 V0) T = col (sliceR (res_main_v52 V0) T) :=
  colR_slice (res_main_v52 V0) T

theorem v60_slice (V0 : Valuation τ sig (Elt Ideal)) (T : Fin 8192) :
    sliceR (res_main_v60 V0) T = row (sliceR (res_main_v56 V0) T) :=
  rowR_slice (res_main_v56 V0) T

theorem v64_slice (V0 : Valuation τ sig (Elt Ideal)) (T : Fin 8192) :
    sliceR (res_main_v64 V0) T = col (sliceR (res_main_v60 V0) T) :=
  colR_slice (res_main_v60 V0) T

theorem v68_slice (V0 : Valuation τ sig (Elt Ideal)) (T : Fin 8192) :
    sliceR (res_main_v68 V0) T = row (sliceR (res_main_v64 V0) T) :=
  rowR_slice (res_main_v64 V0) T

theorem v72_slice (V0 : Valuation τ sig (Elt Ideal)) (T : Fin 8192) :
    sliceR (res_main_v72 V0) T = col (sliceR (res_main_v68 V0) T) :=
  colR_slice (res_main_v68 V0) T

theorem v76_slice (V0 : Valuation τ sig (Elt Ideal)) (T : Fin 8192) :
    sliceR (res_main_v76 V0) T = row (sliceR (res_main_v72 V0) T) :=
  rowR_slice (res_main_v72 V0) T

theorem v80_slice (V0 : Valuation τ sig (Elt Ideal)) (T : Fin 8192) :
    sliceR (res_main_v80 V0) T = col (sliceR (res_main_v76 V0) T) :=
  colR_slice (res_main_v76 V0) T

theorem v84_slice (V0 : Valuation τ sig (Elt Ideal)) (T : Fin 8192) :
    sliceR (res_main_v84 V0) T = row (sliceR (res_main_v80 V0) T) :=
  rowR_slice (res_main_v80 V0) T

theorem v88_slice (V0 : Valuation τ sig (Elt Ideal)) (T : Fin 8192) :
    sliceR (res_main_v88 V0) T = col (sliceR (res_main_v84 V0) T) :=
  colR_slice (res_main_v84 V0) T

theorem v92_slice (V0 : Valuation τ sig (Elt Ideal)) (T : Fin 8192) :
    sliceR (res_main_v92 V0) T = row (sliceR (res_main_v88 V0) T) :=
  rowR_slice (res_main_v88 V0) T

theorem v96_slice (V0 : Valuation τ sig (Elt Ideal)) (T : Fin 8192) :
    sliceR (res_main_v96 V0) T = col (sliceR (res_main_v92 V0) T) :=
  colR_slice (res_main_v92 V0) T

theorem v100_slice (V0 : Valuation τ sig (Elt Ideal)) (T : Fin 8192) :
    sliceR (res_main_v100 V0) T = row (sliceR (res_main_v96 V0) T) :=
  rowR_slice (res_main_v96 V0) T

theorem v104_slice (V0 : Valuation τ sig (Elt Ideal)) (T : Fin 8192) :
    sliceR (res_main_v104 V0) T = col (sliceR (res_main_v100 V0) T) :=
  colR_slice (res_main_v100 V0) T

theorem v108_slice (V0 : Valuation τ sig (Elt Ideal)) (T : Fin 8192) :
    sliceR (res_main_v108 V0) T = row (sliceR (res_main_v104 V0) T) :=
  rowR_slice (res_main_v104 V0) T

theorem v112_slice (V0 : Valuation τ sig (Elt Ideal)) (T : Fin 8192) :
    sliceR (res_main_v112 V0) T = col (sliceR (res_main_v108 V0) T) :=
  colR_slice (res_main_v108 V0) T

theorem v116_slice (V0 : Valuation τ sig (Elt Ideal)) (T : Fin 8192) :
    sliceR (res_main_v116 V0) T = row (sliceR (res_main_v112 V0) T) :=
  rowR_slice (res_main_v112 V0) T

theorem v120_slice (V0 : Valuation τ sig (Elt Ideal)) (T : Fin 8192) :
    sliceR (res_main_v120 V0) T = col (sliceR (res_main_v116 V0) T) :=
  colR_slice (res_main_v116 V0) T

theorem v124_slice (V0 : Valuation τ sig (Elt Ideal)) (T : Fin 8192) :
    sliceR (res_main_v124 V0) T = row (sliceR (res_main_v120 V0) T) :=
  rowR_slice (res_main_v120 V0) T

theorem v128_slice (V0 : Valuation τ sig (Elt Ideal)) (T : Fin 8192) :
    sliceR (res_main_v128 V0) T = col (sliceR (res_main_v124 V0) T) :=
  colR_slice (res_main_v124 V0) T

theorem v132_slice (V0 : Valuation τ sig (Elt Ideal)) (T : Fin 8192) :
    sliceR (res_main_v132 V0) T = row (sliceR (res_main_v128 V0) T) :=
  rowR_slice (res_main_v128 V0) T

theorem v136_slice (V0 : Valuation τ sig (Elt Ideal)) (T : Fin 8192) :
    sliceR (res_main_v136 V0) T = col (sliceR (res_main_v132 V0) T) :=
  colR_slice (res_main_v132 V0) T

theorem v140_slice (V0 : Valuation τ sig (Elt Ideal)) (T : Fin 8192) :
    sliceR (res_main_v140 V0) T = row (sliceR (res_main_v136 V0) T) :=
  rowR_slice (res_main_v136 V0) T

theorem v144_slice (V0 : Valuation τ sig (Elt Ideal)) (T : Fin 8192) :
    sliceR (res_main_v144 V0) T = col (sliceR (res_main_v140 V0) T) :=
  colR_slice (res_main_v140 V0) T

theorem v148_slice (V0 : Valuation τ sig (Elt Ideal)) (T : Fin 8192) :
    sliceR (res_main_v148 V0) T = row (sliceR (res_main_v144 V0) T) :=
  rowR_slice (res_main_v144 V0) T

theorem v152_slice (V0 : Valuation τ sig (Elt Ideal)) (T : Fin 8192) :
    sliceR (res_main_v152 V0) T = col (sliceR (res_main_v148 V0) T) :=
  colR_slice (res_main_v148 V0) T

theorem v156_slice (V0 : Valuation τ sig (Elt Ideal)) (T : Fin 8192) :
    sliceR (res_main_v156 V0) T = row (sliceR (res_main_v152 V0) T) :=
  rowR_slice (res_main_v152 V0) T

theorem v160_slice (V0 : Valuation τ sig (Elt Ideal)) (T : Fin 8192) :
    sliceR (res_main_v160 V0) T = col (sliceR (res_main_v156 V0) T) :=
  colR_slice (res_main_v156 V0) T

theorem v164_slice (V0 : Valuation τ sig (Elt Ideal)) (T : Fin 8192) :
    sliceR (res_main_v164 V0) T = row (sliceR (res_main_v160 V0) T) :=
  rowR_slice (res_main_v160 V0) T

theorem v168_slice (V0 : Valuation τ sig (Elt Ideal)) (T : Fin 8192) :
    sliceR (res_main_v168 V0) T = col (sliceR (res_main_v164 V0) T) :=
  colR_slice (res_main_v164 V0) T

theorem v172_slice (V0 : Valuation τ sig (Elt Ideal)) (T : Fin 8192) :
    sliceR (res_main_v172 V0) T = row (sliceR (res_main_v168 V0) T) :=
  rowR_slice (res_main_v168 V0) T

theorem v176_slice (V0 : Valuation τ sig (Elt Ideal)) (T : Fin 8192) :
    sliceR (res_main_v176 V0) T = col (sliceR (res_main_v172 V0) T) :=
  colR_slice (res_main_v172 V0) T

theorem v180_slice (V0 : Valuation τ sig (Elt Ideal)) (T : Fin 8192) :
    sliceR (res_main_v180 V0) T = row (sliceR (res_main_v176 V0) T) :=
  rowR_slice (res_main_v176 V0) T

theorem v184_slice (V0 : Valuation τ sig (Elt Ideal)) (T : Fin 8192) :
    sliceR (res_main_v184 V0) T = col (sliceR (res_main_v180 V0) T) :=
  colR_slice (res_main_v180 V0) T

theorem v188_slice (V0 : Valuation τ sig (Elt Ideal)) (T : Fin 8192) :
    sliceR (res_main_v188 V0) T = row (sliceR (res_main_v184 V0) T) :=
  rowR_slice (res_main_v184 V0) T

theorem v192_slice (V0 : Valuation τ sig (Elt Ideal)) (T : Fin 8192) :
    sliceR (res_main_v192 V0) T = col (sliceR (res_main_v188 V0) T) :=
  colR_slice (res_main_v188 V0) T

theorem v196_slice (V0 : Valuation τ sig (Elt Ideal)) (T : Fin 8192) :
    sliceR (res_main_v196 V0) T = row (sliceR (res_main_v192 V0) T) :=
  rowR_slice (res_main_v192 V0) T

theorem v200_slice (V0 : Valuation τ sig (Elt Ideal)) (T : Fin 8192) :
    sliceR (res_main_v200 V0) T = col (sliceR (res_main_v196 V0) T) :=
  colR_slice (res_main_v196 V0) T

theorem v204_slice (V0 : Valuation τ sig (Elt Ideal)) (T : Fin 8192) :
    sliceR (res_main_v204 V0) T = row (sliceR (res_main_v200 V0) T) :=
  rowR_slice (res_main_v200 V0) T

/-- The reference's forty steps on the matrix of time step `T` are the twenty rounds. -/
theorem ref_sink (V0 : Valuation τ sig (Elt Ideal)) (T : Fin 8192) (i j : Fin 4) :
    (Host.divf (res_main_v204 V0) (broadcastInDim S8192x4x4 ![0, 1, 2] bcast_S8192x1x4_S8192x4x4_0_1_2 (broadcastInDim S8192x1x4 ![0, 2] bcast_S8192x4_S8192x1x4_0_2 (Host.reduceAdd (res_main_v204 V0) (constant S_ .f32 0x00000000#32) reducesTo_S8192x4x4_S8192x4_d1 h_S_)))) (ix3 T i j)
      = sink (fun a b => res_main_v48 V0 (ix3 T a b)) i j := by
  show sliceR (colR (res_main_v204 V0)) T i j = sink (sliceR (res_main_v48 V0) T) i j
  rw [colR_slice, v204_slice, v200_slice, v196_slice, v192_slice, v188_slice, v184_slice, v180_slice, v176_slice, v172_slice, v168_slice, v164_slice, v160_slice, v156_slice, v152_slice, v148_slice, v144_slice, v140_slice, v136_slice, v132_slice, v128_slice, v124_slice, v120_slice, v116_slice, v112_slice, v108_slice, v104_slice, v100_slice, v96_slice, v92_slice, v88_slice, v84_slice, v80_slice, v76_slice, v72_slice, v68_slice, v64_slice, v60_slice, v56_slice, v52_slice, sink_eq]

end Cert.ReferenceIdeal.Sink

end
-- ==== Proof.KValue.lean ====
/-
  The three output arrays of the launch, and the three results after the closing transposes, each as one function of the
  arrays the launch finds: the stream X[s, T, k], the combined weights Wc[s, k, o] and the bias row Bc[0, o].
  At time step T and head o the pre-activation is z(T, o) (Law.lean's `zRow` of the step's four stream rows, the head's four
  weight rows and its bias); the pre gate is the logistic of heads 0–3, the post gate twice the logistic of heads 4–7, and
  the residual matrix the twenty normalization rounds of exp z over heads 8–23 read as a 4×4 matrix.
  Grid point t holds time steps 256·t … 256·t + 255; its three output blocks are columns 256·t … of the output arrays.
-/
import proofs.«112085_j43757126811708_2_alg».proof.Proof.KBody
import proofs.«112085_j43757126811708_2_alg».proof.Proof.Sinkhorn

set_option maxRecDepth 16384

noncomputable section

namespace Cert.KernelIdeal.Value

open Cert.KernelIdeal Cert.KernelIdeal.Gen Cert.KernelIdeal.Hand Cert.KernelIdeal.Body
open Idealize.ShloMosaic Idealize.ShloMosaic.ValueIdx Idealize.SL.Sem

/-! ## The stored blocks at an index -/

theorem hpre_apply (x : Vec Ideal S4x256x2048 .f32) (w : Vec Ideal S4x2048x24 .bf16) (b : Vec Ideal S1x24 .f32) (o : Fin 4) (tt : Fin 256) :
    hpreBlock x w b (ix2 o tt) = Ideal.logistic (Cert.Law.zRow (fun s k => x (ix3 s tt k))
      (fun s k => w (ix3 s k ⟨o.val, by have := o.isLt; omega⟩)) (b (ix2 (0 : Fin 1) ⟨o.val, by have := o.isLt; omega⟩))) := by
  unfold hpreBlock k0_pay10
  show Ideal.logistic (extractStridedSlice (s := S24x256) S4x256 ![0, 0] _ slices_S24x256_o0_0_S4x256 (ix2 o tt)) = _
  refine congrArg Ideal.logistic ?_
  refine (slice2_axis0_apply 0 _ slices_S24x256_o0_0_S4x256 o tt ⟨o.val, by have := o.isLt; omega⟩ (Nat.zero_add _).symm).trans ?_
  exact scaled_apply x w b _ tt

theorem hpost_apply (x : Vec Ideal S4x256x2048 .f32) (w : Vec Ideal S4x2048x24 .bf16) (b : Vec Ideal S1x24 .f32) (o : Fin 4) (tt : Fin 256) :
    hpostBlock x w b (ix2 o tt) = Ideal.ofBits .f32 0x40000000#32 * Ideal.logistic (Cert.Law.zRow (fun s k => x (ix3 s tt k))
      (fun s k => w (ix3 s k ⟨4 + o.val, by have := o.isLt; omega⟩)) (b (ix2 (0 : Fin 1) ⟨4 + o.val, by have := o.isLt; omega⟩))) := by
  unfold hpostBlock k0_pay11
  show Ideal.ofBits .f32 0x40000000#32 * Ideal.logistic (extractStridedSlice (s := S24x256) S4x256 ![4, 0] _ slices_S24x256_o4_0_S4x256 (ix2 o tt)) = _
  refine congrArg (Ideal.ofBits .f32 0x40000000#32 * ·) (congrArg Ideal.logistic ?_)
  refine (slice2_axis0_apply 4 _ slices_S24x256_o4_0_S4x256 o tt ⟨4 + o.val, by have := o.isLt; omega⟩ rfl).trans ?_
  exact scaled_apply x w b _ tt

theorem hres_apply (x : Vec Ideal S4x256x2048 .f32) (w : Vec Ideal S4x2048x24 .bf16) (b : Vec Ideal S1x24 .f32) (i j : Fin 4) (tt : Fin 256) :
    hresBlock x w b (ix3 i j tt) = Cert.Sinkhorn.sink (fun a e => Ideal.exp (Cert.Law.zRow (fun s k => x (ix3 s tt k))
        (fun s k => w (ix3 s k ⟨8 + 4 * a.val + e.val, by have := a.isLt; have := e.isLt; omega⟩))
        (b (ix2 (0 : Fin 1) ⟨8 + 4 * a.val + e.val, by have := a.isLt; have := e.isLt; omega⟩)))) i j := by
  unfold hresBlock
  rw [Cert.KernelIdeal.Sink.pay12_eq, Cert.KernelIdeal.Sink.kernel_sink]
  refine congrFun (congrFun (congrArg Cert.Sinkhorn.sink (funext fun a => funext fun e => ?_)) i) j
  have ha := a.isLt; have he := e.isLt
  show Ideal.exp ((shapeCast S4x4x256 (extractStridedSlice (s := S24x256) S16x256 ![8, 0] _ slices_S24x256_o8_0_S16x256) shapeCasts_S16x256_S4x4x256 : FVec Ideal S4x4x256 .f32) (ix3 a e tt)) = _
  refine congrArg Ideal.exp ?_
  refine (shapeCast_apply _ shapeCasts_S16x256_S4x4x256 (ix3 a e tt) (ix2 (⟨4 * a.val + e.val, by omega⟩ : Fin 16) tt) (by
    rw [Shape.rowMajor_val_two, Shape.rowMajor_val_three]
    show (4 * a.val + e.val) * 256 + tt.val = (a.val * 4 + e.val) * 256 + tt.val; omega)).trans ?_
  refine (slice2_axis0_apply 8 _ slices_S24x256_o8_0_S16x256 (⟨4 * a.val + e.val, by omega⟩ : Fin 16) tt (⟨8 + 4 * a.val + e.val, by omega⟩ : Fin 24) (by
    show 8 + 4 * a.val + e.val = 8 + (4 * a.val + e.val); omega)).trans ?_
  exact scaled_apply x w b _ tt

/-! ## The arrays the launch finds, and the pre-activation -/

variable (m : (ℓ : Loc nD τ sig) → Buf (Elt Ideal) ℓ) (c : Dev nD)

/-- The stream, the combined weights and the bias row when the launch begins. -/
abbrev X : S4x8192x2048.Idx → EReal := V m c main_arg0
abbrev Wc : S4x2048x24.Idx → EReal := V m c main_v15
abbrev Bc : S1x24.Idx → EReal := V m c main_v16

/-- The pre-activation of head `o` at time step `T`. -/
def z (T : Fin 8192) (o : Fin 24) : EReal :=
  Cert.Law.zRow (fun s k => X m c (ix3 s T k)) (fun s k => Wc m c (ix3 s k o)) (Bc m c (ix2 (0 : Fin 1) o))

/-- The three output arrays, [head, time] and [row, column, time]. -/
def Gpre : S4x8192.Idx → EReal := fun i =>
  Ideal.logistic (z m c ⟨(i 1).val, (i 1).isLt⟩ ⟨(i 0).val, Nat.lt_of_lt_of_le (i 0).isLt (by decide)⟩)
def Gpost : S4x8192.Idx → EReal := fun i =>
  Ideal.ofBits .f32 0x40000000#32 * Ideal.logistic (z m c ⟨(i 1).val, (i 1).isLt⟩ ⟨4 + (i 0).val, by have : (i 0).val < 4 := (i 0).isLt; omega⟩)
def Gres : S4x4x8192.Idx → EReal := fun i =>
  Cert.Sinkhorn.sink (fun a e => Ideal.exp (z m c ⟨(i 2).val, (i 2).isLt⟩ ⟨8 + 4 * a.val + e.val, by have := a.isLt; have := e.isLt; omega⟩))
    ⟨(i 0).val, (i 0).isLt⟩ ⟨(i 1).val, (i 1).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the stream and the outputs move along time with the grid point, weights and bias stay. -/
theorem idx_in : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-! ## The input blocks, read off the arrays -/

theorem x_blk (t : Fin cfg0.N) (s : Fin 4) (tt : Fin 256) (k : Fin 2048) :
    iblk m c 0 t (ix3 s tt k) = X m c (ix3 s (⟨t.val * 256 + tt.val, by
      have := lt_of_lt_of_eq t.isLt (show cfg0.N = 32 from N_0); have := tt.isLt; omega⟩ : Fin 8192) k) := by
  show V m c main_arg0 (((cfg0.win 0).blk t).view.emb (ix3 s tt k)) = V m c main_arg0 _
  refine congrArg (V m c main_arg0) (funext fun a => Fin.ext ?_)
  obtain ⟨e0, e1, e2, -⟩ := idx_in t
  match a with
  | ⟨0, _⟩ => show win0_0.index t (0 : Fin 3) * 4 + 1 * s.val = s.val; omega
  | ⟨1, _⟩ => show win0_0.index t (1 : Fin 3) * 256 + 1 * tt.val = t.val * 256 + tt.val; omega
  | ⟨2, _⟩ => show win0_0.index t (2 : Fin 3) * 2048 + 1 * k.val = k.val; omega

theorem w_blk (t : Fin cfg0.N) (s : Fin 4) (k : Fin 2048) (o : Fin 24) :
    iblk m c 1 t (ix3 s k o) = Wc m c (ix3 s k o) := by
  show V m c main_v15 (((cfg0.win 1).blk t).view.emb (ix3 s k o)) = V m c main_v15 _
  refine congrArg (V m c main_v15) (funext fun a => Fin.ext ?_)
  obtain ⟨-, -, -, e0, e1, e2, -⟩ := idx_in t
  match a with
  | ⟨0, _⟩ => show win0_1.index t (0 : Fin 3) * 4 + 1 * s.val = s.val; omega
  | ⟨1, _⟩ => show win0_1.index t (1 : Fin 3) * 2048 + 1 * k.val = k.val; omega
  | ⟨2, _⟩ => show win0_1.index t (2 : Fin 3) * 24 + 1 * o.val = o.val; omega

theorem b_blk (t : Fin cfg0.N) (o : Fin 24) :
    iblk m c 2 t (ix2 (0 : Fin 1) o) = Bc m c (ix2 (0 : Fin 1) o) := by
  show V m c main_v16 (((cfg0.win 2).blk t).view.emb (ix2 (0 : Fin 1) o)) = V m c main_v16 _
  refine congrArg (V m c main_v16) (funext fun a => Fin.ext ?_)
  obtain ⟨-, -, -, -, -, -, e0, e1, -⟩ := idx_in t
  match a with
  | ⟨0, _⟩ => show win0_2.index t (0 : Fin 2) * 1 + 1 * 0 = 0; omega
  | ⟨1, _⟩ => show win0_2.index t (1 : Fin 2) * 24 + 1 * o.val = o.val; omega

/-! ## The two gate arrays -/

theorem flushed4_eq (t : Fin cfg0.N) :
    (dats m 0 c).flushed 4 t = ((cfg0.win 4).blk t).view.read (Elt Ideal) (Gpre m c) := by
  show (cfg0.win 4).cut (grid0.coords t) ((dats m 0 c).after 4 t) = _
  rw [after4]
  unfold out4
  rw [View.canon_unit_zero hz2]
  refine funext fun (y : S4x256.Idx) => ?_
  obtain ⟨o, tt, rfl⟩ : ∃ (o : Fin 4) (tt : Fin 256), y = ix2 o tt := ⟨y 0, y 1, eq_ix2 y⟩
  show hpreBlock (iblk m c 0 t) (iblk m c 1 t) (iblk m c 2 t) (ix2 o tt) = Gpre m c (((cfg0.win 4).blk t).view.emb (ix2 o tt))
  have hN : t.val < 32 := lt_of_lt_of_eq t.isLt (show cfg0.N = 32 from N_0)
  have hemb : ((cfg0.win 4).blk t).view.emb (ix2 o tt) = ix2 o (⟨t.val * 256 + tt.val, by have := tt.isLt; omega⟩ : Fin 8192) := by
    obtain ⟨-, -, -, -, -, -, -, -, -, -, -, e40, e41, e50, e51⟩ := idx_in t
    funext a; apply Fin.ext
    match a with
    | ⟨0, _⟩ => show win0_4.index t (0 : Fin 2) * 4 + 1 * o.val = o.val; omega
    | ⟨1, _⟩ => show win0_4.index t (1 : Fin 2) * 256 + 1 * tt.val = t.val * 256 + tt.val; omega
  rw [hemb, hpre_apply]
  unfold Gpre z
  simp only [x_blk m c t, w_blk m c t, b_blk m c t]

theorem mem_blk4 (t : Fin cfg0.N) (i : S4x8192.Idx) :
    i ∈ ((cfg0.win 4).blk t).view.set ↔ ∀ a : Fin 2, win0_4.index t a * S4x256.size a ≤ (i a).val ∧ (i a).val < win0_4.index t a * S4x256.size a + S4x256.size a := by
  show i ∈ ((View.whole main_v17_1).slice (win0_4.rect t)).set ↔ _
  rw [View.set_slice_whole, Rect.mem_set_unit]
  exact Iff.rfl

theorem cover4 (i : S4x8192.Idx) : ∃ t : Fin cfg0.N, (cfg0.win 4).flush t = true ∧ i ∈ ((cfg0.win 4).blk t).view.set := by
  have hi0 : (i 0).val < 4 := (i 0).isLt
  have hi1 : (i 1).val < 8192 := (i 1).isLt
  have hq : (i 1).val / 256 < cfg0.N := by rw [show cfg0.N = 32 from N_0]; omega
  refine ⟨⟨(i 1).val / 256, hq⟩, flush0_4 _, ?_⟩
  rw [mem_blk4]
  obtain ⟨-, -, -, -, -, -, -, -, -, -, -, e40, e41, e50, e51⟩ := idx_in ⟨(i 1).val / 256, hq⟩
  have e1 : win0_4.index ⟨(i 1).val / 256, hq⟩ (1 : Fin 2) = (i 1).val / 256 := e41
  intro a
  match a with
  | ⟨0, _⟩ => show win0_4.index ⟨(i 1).val / 256, hq⟩ (0 : Fin 2) * 4 ≤ (i 0).val ∧ (i 0).val < win0_4.index ⟨(i 1).val / 256, hq⟩ (0 : Fin 2) * 4 + 4; omega
  | ⟨1, _⟩ => show win0_4.index ⟨(i 1).val / 256, hq⟩ (1 : Fin 2) * 256 ≤ (i 1).val ∧ (i 1).val < win0_4.index ⟨(i 1).val / 256, hq⟩ (1 : Fin 2) * 256 + 256; omega

/-- The array after the launch. -/
theorem final4 : (dats m 0 c).arrAt 4 cfg0.N = Gpre m c :=
  (dats m 0 c).arrAt_eq_of_cover 4 (Gpre m c) (fun t _ => flushed4_eq m c t) (cover4)

theorem flushed5_eq (t : Fin cfg0.N) :
    (dats m 0 c).flushed 5 t = ((cfg0.win 5).blk t).view.read (Elt Ideal) (Gpost m c) := by
  show (cfg0.win 5).cut (grid0.coords t) ((dats m 0 c).after 5 t) = _
  rw [after5]
  unfold out5
  rw [View.canon_unit_zero hz2]
  refine funext fun (y : S4x256.Idx) => ?_
  obtain ⟨o, tt, rfl⟩ : ∃ (o : Fin 4) (tt : Fin 256), y = ix2 o tt := ⟨y 0, y 1, eq_ix2 y⟩
  show hpostBlock (iblk m c 0 t) (iblk m c 1 t) (iblk m c 2 t) (ix2 o tt) = Gpost m c (((cfg0.win 5).blk t).view.emb (ix2 o tt))
  have hN : t.val < 32 := lt_of_lt_of_eq t.isLt (show cfg0.N = 32 from N_0)
  have hemb : ((cfg0.win 5).blk t).view.emb (ix2 o tt) = ix2 o (⟨t.val * 256 + tt.val, by have := tt.isLt; omega⟩ : Fin 8192) := by
    obtain ⟨-, -, -, -, -, -, -, -, -, -, -, e40, e41, e50, e51⟩ := idx_in t
    funext a; apply Fin.ext
    match a with
    | ⟨0, _⟩ => show win0_5.index t (0 : Fin 2) * 4 + 1 * o.val = o.val; omega
    | ⟨1, _⟩ => show win0_5.index t (1 : Fin 2) * 256 + 1 * tt.val = t.val * 256 + tt.val; omega
  rw [hemb, hpost_apply]
  unfold Gpost z
  simp only [x_blk m c t, w_blk m c t, b_blk m c t]

theorem mem_blk5 (t : Fin cfg0.N) (i : S4x8192.Idx) :
    i ∈ ((cfg0.win 5).blk t).view.set ↔ ∀ a : Fin 2, win0_5.index t a * S4x256.size a ≤ (i a).val ∧ (i a).val < win0_5.index t a * S4x256.size a + S4x256.size a := by
  show i ∈ ((View.whole main_v17_2).slice (win0_5.rect t)).set ↔ _
  rw [View.set_slice_whole, Rect.mem_set_unit]
  exact Iff.rfl

theorem cover5 (i : S4x8192.Idx) : ∃ t : Fin cfg0.N, (cfg0.win 5).flush t = true ∧ i ∈ ((cfg0.win 5).blk t).view.set := by
  have hi0 : (i 0).val < 4 := (i 0).isLt
  have hi1 : (i 1).val < 8192 := (i 1).isLt
  have hq : (i 1).val / 256 < cfg0.N := by rw [show cfg0.N = 32 from N_0]; omega
  refine ⟨⟨(i 1).val / 256, hq⟩, flush0_5 _, ?_⟩
  rw [mem_blk5]
  obtain ⟨-, -, -, -, -, -, -, -, -, -, -, e40, e41, e50, e51⟩ := idx_in ⟨(i 1).val / 256, hq⟩
  have e1 : win0_5.index ⟨(i 1).val / 256, hq⟩ (1 : Fin 2) = (i 1).val / 256 := e51
  intro a
  match a with
  | ⟨0, _⟩ => show win0_5.index ⟨(i 1).val / 256, hq⟩ (0 : Fin 2) * 4 ≤ (i 0).val ∧ (i 0).val < win0_5.index ⟨(i 1).val / 256, hq⟩ (0 : Fin 2) * 4 + 4; omega
  | ⟨1, _⟩ => show win0_5.index ⟨(i 1).val / 256, hq⟩ (1 : Fin 2) * 256 ≤ (i 1).val ∧ (i 1).val < win0_5.index ⟨(i 1).val / 256, hq⟩ (1 : Fin 2) * 256 + 256; omega

/-- The array after the launch. -/
theorem final5 : (dats m 0 c).arrAt 5 cfg0.N = Gpost m c :=
  (dats m 0 c).arrAt_eq_of_cover 5 (Gpost m c) (fun t _ => flushed5_eq m c t) (cover5)

/-! ## The residual array -/

theorem flushed3_eq (t : Fin cfg0.N) :
    (dats m 0 c).flushed 3 t = ((cfg0.win 3).blk t).view.read (Elt Ideal) (Gres m c) := by
  show (cfg0.win 3).cut (grid0.coords t) ((dats m 0 c).after 3 t) = _
  rw [after3]
  unfold out3
  rw [View.canon_unit_zero hz3]
  refine funext fun (y : S4x4x256.Idx) => ?_
  obtain ⟨i, j, tt, rfl⟩ : ∃ (i j : Fin 4) (tt : Fin 256), y = ix3 i j tt := ⟨y 0, y 1, y 2, eq_ix3 y⟩
  show hresBlock (iblk m c 0 t) (iblk m c 1 t) (iblk m c 2 t) (ix3 i j tt) = Gres m c (((cfg0.win 3).blk t).view.emb (ix3 i j tt))
  have hN : t.val < 32 := lt_of_lt_of_eq t.isLt (show cfg0.N = 32 from N_0)
  have hemb : ((cfg0.win 3).blk t).view.emb (ix3 i j tt) = ix3 i j (⟨t.val * 256 + tt.val, by have := tt.isLt; omega⟩ : Fin 8192) := by
    obtain ⟨-, -, -, -, -, -, -, -, e30, e31, e32, -⟩ := idx_in t
    funext a; apply Fin.ext
    match a with
    | ⟨0, _⟩ => show win0_3.index t (0 : Fin 3) * 4 + 1 * i.val = i.val; omega
    | ⟨1, _⟩ => show win0_3.index t (1 : Fin 3) * 4 + 1 * j.val = j.val; omega
    | ⟨2, _⟩ => show win0_3.index t (2 : Fin 3) * 256 + 1 * tt.val = t.val * 256 + tt.val; omega
  rw [hemb, hres_apply]
  unfold Gres z
  simp only [x_blk m c t, w_blk m c t, b_blk m c t]

theorem mem_blk3 (t : Fin cfg0.N) (i : S4x4x8192.Idx) :
    i ∈ ((cfg0.win 3).blk t).view.set ↔ ∀ a : Fin 3, win0_3.index t a * S4x4x256.size a ≤ (i a).val ∧ (i a).val < win0_3.index t a * S4x4x256.size a + S4x4x256.size a := by
  show i ∈ ((View.whole main_v17_0).slice (win0_3.rect t)).set ↔ _
  rw [View.set_slice_whole, Rect.mem_set_unit]
  exact Iff.rfl

theorem cover3 (i : S4x4x8192.Idx) : ∃ t : Fin cfg0.N, (cfg0.win 3).flush t = true ∧ i ∈ ((cfg0.win 3).blk t).view.set := by
  have hi0 : (i 0).val < 4 := (i 0).isLt
  have hi1 : (i 1).val < 4 := (i 1).isLt
  have hi2 : (i 2).val < 8192 := (i 2).isLt
  have hq : (i 2).val / 256 < cfg0.N := by rw [show cfg0.N = 32 from N_0]; omega
  refine ⟨⟨(i 2).val / 256, hq⟩, flush0_3 _, ?_⟩
  rw [mem_blk3]
  obtain ⟨-, -, -, -, -, -, -, -, e30, e31, e32, -⟩ := idx_in ⟨(i 2).val / 256, hq⟩
  have e2 : win0_3.index ⟨(i 2).val / 256, hq⟩ (2 : Fin 3) = (i 2).val / 256 := e32
  intro a
  match a with
  | ⟨0, _⟩ => show win0_3.index ⟨(i 2).val / 256, hq⟩ (0 : Fin 3) * 4 ≤ (i 0).val ∧ (i 0).val < win0_3.index ⟨(i 2).val / 256, hq⟩ (0 : Fin 3) * 4 + 4; omega
  | ⟨1, _⟩ => show win0_3.index ⟨(i 2).val / 256, hq⟩ (1 : Fin 3) * 4 ≤ (i 1).val ∧ (i 1).val < win0_3.index ⟨(i 2).val / 256, hq⟩ (1 : Fin 3) * 4 + 4; omega
  | ⟨2, _⟩ => show win0_3.index ⟨(i 2).val / 256, hq⟩ (2 : Fin 3) * 256 ≤ (i 2).val ∧ (i 2).val < win0_3.index ⟨(i 2).val / 256, hq⟩ (2 : Fin 3) * 256 + 256; omega

theorem final3 : (dats m 0 c).arrAt 3 cfg0.N = Gres m c :=
  (dats m 0 c).arrAt_eq_of_cover 3 (Gres m c) (fun t _ => flushed3_eq m c t) (cover3)

end Cert.KernelIdeal.Value

end
-- ==== Proof.KTail.lean ====
import proofs.«112085_j43757126811708_2_alg».proof.Proof.KernelIdealRun
import Idealize.ShloMosaic.Lib.StableHlo.Run
import Idealize.ShloMosaic.Lib.Pipeline.FrameSuffix
import Idealize.ShloMosaic.Lib.ValueIdx
import Idealize.ShloMosaic.Lib.ValueLayout
import Idealize.ShloMosaic.Lib.Pipeline.Value

set_option maxRecDepth 16384

noncomputable section

namespace Cert.KernelIdeal.Tail

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem
open Idealize.ShloMosaic.Pipeline (Dat Cfg)

variable (m : (ℓ : Loc nD τ sig) → Buf (Elt Ideal) ℓ)

/-! # The three results after the closing transposes

The launch leaves its three output arrays with the time steps on the last axis; three transposes put time on the
leading axis. Each result, read at an index, is the launch's output array at the index with the time coordinate
moved back to the end. -/

/-- The pre-gate result at (time, head) is the launch's fourth array at (head, time). -/
theorem tail_v19 (D : (p : Fin 1) → (c : Dev nD) → Dat τ (Elt Ideal) Unit ℕ (UR sig nD τ) ℕ (cfgs p) c) (c : Dev nD)
    (T : Fin 8192) (o : Fin 4) :
    (Pipeline.afterTail₀ cfgs D 0 (V0 m) [hostOps1] c main_v19 : S8192x4.Idx → EReal) (ix2 T o)
      = ((D 0 c).arrAt 4 cfg0.N : S4x8192.Idx → EReal) (ix2 o T) := by
  unfold Pipeline.afterTail₀
  show StableHlo.after hostOps1 _ (Proc.devRef .tc main_v19) (ix2 T o) = _
  after_results
  refine (transpose_ix2_apply _ transposes_S4x8192_S8192x4_1_0 T o).trans ?_
  exact congrFun (Pipeline.withArrays_arr spec0 launch0.win.arr_inj c _ _ 4) (ix2 o T)

/-- The post-gate result at (time, head) is the launch's fifth array at (head, time). -/
theorem tail_v20 (D : (p : Fin 1) → (c : Dev nD) → Dat τ (Elt Ideal) Unit ℕ (UR sig nD τ) ℕ (cfgs p) c) (c : Dev nD)
    (T : Fin 8192) (o : Fin 4) :
    (Pipeline.afterTail₀ cfgs D 0 (V0 m) [hostOps1] c main_v20 : S8192x4.Idx → EReal) (ix2 T o)
      = ((D 0 c).arrAt 5 cfg0.N : S4x8192.Idx → EReal) (ix2 o T) := by
  unfold Pipeline.afterTail₀
  show StableHlo.after hostOps1 _ (Proc.devRef .tc main_v20) (ix2 T o) = _
  after_results
  refine (transpose_ix2_apply _ transposes_S4x8192_S8192x4_1_0 T o).trans ?_
  exact congrFun (Pipeline.withArrays_arr spec0 launch0.win.arr_inj c _ _ 5) (ix2 o T)

/-- The residual result at (time, row, column) is the launch's third array at (row, column, time). -/
theorem tail_v18 (D : (p : Fin 1) → (c : Dev nD) → Dat τ (Elt Ideal) Unit ℕ (UR sig nD τ) ℕ (cfgs p) c) (c : Dev nD)
    (T : Fin 8192) (i j : Fin 4) :
    (Pipeline.afterTail₀ cfgs D 0 (V0 m) [hostOps1] c main_v18 : S8192x4x4.Idx → EReal) (ix3 T i j)
      = ((D 0 c).arrAt 3 cfg0.N : S4x4x8192.Idx → EReal) (ix3 i j T) := by
  unfold Pipeline.afterTail₀
  show StableHlo.after hostOps1 _ (Proc.devRef .tc main_v18) (ix3 T i j) = _
  after_results
  refine (transpose_apply [2, 0, 1] _ transposes_S4x4x8192_S8192x4x4_2_0_1 (ix3 T i j) (ix3 i j T) fun b => ?_).trans ?_
  · match b with
    | ⟨0, _⟩ => rfl
    | ⟨1, _⟩ => rfl
    | ⟨2, _⟩ => rfl
  exact congrFun (Pipeline.withArrays_arr spec0 launch0.win.arr_inj c _ _ 3) (ix3 i j T)

end Cert.KernelIdeal.Tail
-- ==== Proof.KRun.lean ====
/-
  The run of the idealized kernel program with its three results named: each result buffer ends at what the three closing
  transposes make of the launch's output arrays, and the ten arguments end as they began.
-/
import proofs.«112085_j43757126811708_2_alg».proof.Proof.KernelIdealRun

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a result buffer holds after the run: the transposes applied to the memory the launch leaves. -/
abbrev resultAt (c : Dev nD) (b : Ref sig .tc) : Buf (Elt F) ((c : Thread nD τ).loc b) :=
  Pipeline.afterTail₀ cfgs (dats m) 0 (V0 m) [hostOps1] c b

theorem run_results : θ_run defs (onTc (τ := τ) (main (F := F))) ⟨m, fun _ => 0, ρ⟩ (fun r => ∀ c : Dev nD,
      r.2.mem ((c.tc : Thread nD τ).loc main_v18) = resultAt m c main_v18
      ∧ r.2.mem ((c.tc : Thread nD τ).loc main_v19) = resultAt m c main_v19
      ∧ r.2.mem ((c.tc : Thread nD τ).loc main_v20) = resultAt m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v18 (Pipeline.mem_restRefs_of main_v18 (by decide) (by decide)),
      (h c).2 main_v19 (Pipeline.mem_restRefs_of main_v19 (by decide) (by decide)),
      (h c).2 main_v20 (Pipeline.mem_restRefs_of main_v20 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.Hand

end
-- ==== Proof.KFinal.lean ====
import proofs.«112085_j43757126811708_2_alg».proof.Proof.KValue
import proofs.«112085_j43757126811708_2_alg».proof.Proof.KTail
import proofs.«112085_j43757126811708_2_alg».proof.Proof.KRun

set_option maxRecDepth 16384

noncomputable section

/-! # The kernel program's three results in terms of its arguments

Each result, read at an index, is a function of the stream, of one weight matrix scaled by its gate's factor, and of
one bias: at time step `T` and head `o` the pre-activation is the row form of Law.lean on the step's four stream rows,
the head's four weight rows and its bias. The pre gate is its logistic, the post gate twice its logistic, the residual
matrix the twenty normalization rounds of its exponential over the sixteen residual heads read as a 4 × 4 matrix.

The combined weights and the combined bias row are built by the host lines ahead of the launch; what they hold, slice
by slice, in terms of the arguments is taken here as a hypothesis of each theorem that needs it. -/

namespace Cert.KernelIdeal.Final

open Cert.KernelIdeal Cert.KernelIdeal.Gen Cert.KernelIdeal.Hand Cert.KernelIdeal.Value
open Idealize.ShloMosaic Idealize.ShloMosaic.TcCoe Idealize.ShloMosaic.ValueIdx Idealize.SL.Sem

variable (m : (ℓ : Loc nD τ sig) → Buf (Elt Ideal) ℓ) (c : Dev nD)

/-- The ten argument arrays as launched. -/
abbrev A0 : S4x8192x2048.Idx → EReal := m ((c : Thread nD τ).loc main_arg0)
abbrev A1 : S4x8192.Idx → EReal := m ((c : Thread nD τ).loc main_arg1)
abbrev A2 : S4x8192.Idx → EReal := m ((c : Thread nD τ).loc main_arg2)
abbrev A3 : S16x8192.Idx → EReal := m ((c : Thread nD τ).loc main_arg3)
abbrev A4 : S4.Idx → EReal := m ((c : Thread nD τ).loc main_arg4)
abbrev A5 : S4.Idx → EReal := m ((c : Thread nD τ).loc main_arg5)
abbrev A6 : S4x4.Idx → EReal := m ((c : Thread nD τ).loc main_arg6)
abbrev A7 : S_.Idx → EReal := m ((c : Thread nD τ).loc main_arg7)
abbrev A8 : S_.Idx → EReal := m ((c : Thread nD τ).loc main_arg8)
abbrev A9 : S_.Idx → EReal := m ((c : Thread nD τ).loc main_arg9)

/-- The row form depends only on its three operands. -/
theorem zRow_congr {xs xs' ws ws' : Fin 4 → Fin 2048 → EReal} {b b' : EReal} (hx : xs = xs') (hw : ws = ws') (hb : b = b') :
    Cert.Law.zRow xs ws b = Cert.Law.zRow xs' ws' b' := by
  subst hx hw hb; rfl

/-- The stream is found by the launch as it was launched. -/
theorem X_rows (T : Fin 8192) : (fun (s : Fin 4) (k : Fin 2048) => X m c (ix3 s T k)) = fun s k => A0 m c (ix3 s T k) :=
  funext fun s => funext fun k => congrFun (V_main_arg0 m c) (ix3 s T k)

/-- The pre gate at (time, head): the logistic of the pre-activation of head `o`. -/
theorem v19_at
    (hwp : ∀ (s : Fin 4) (k : Fin 2048) (o : Fin 4),
      (V m c main_v15 : S4x2048x24.Idx → EReal) (ix3 s k ⟨o.val, by have := o.isLt; omega⟩)
        = A1 m c (ix2 o ⟨s.val * 2048 + k.val, by have := s.isLt; have := k.isLt; omega⟩) * A7 m c ix0)
    (hbp : ∀ o : Fin 4, (V m c main_v16 : S1x24.Idx → EReal) (ix2 (0 : Fin 1) ⟨o.val, by have := o.isLt; omega⟩) = A4 m c (ix1 o))
    (T : Fin 8192) (o : Fin 4) :
    (resultAt m c main_v19 : S8192x4.Idx → EReal) (ix2 T o)
      = Ideal.logistic (Cert.Law.zRow (fun s k => A0 m c (ix3 s T k))
          (fun s k => A1 m c (ix2 o ⟨s.val * 2048 + k.val, by have := s.isLt; have := k.isLt; omega⟩) * A7 m c ix0) (A4 m c (ix1 o))) := by
  refine (Cert.KernelIdeal.Tail.tail_v19 m (dats m) c T o).trans ((congrFun (final4 m c) (ix2 o T)).trans ?_)
  show Ideal.logistic (z m c T ⟨o.val, _⟩) = _
  unfold z
  exact congrArg Ideal.logistic (zRow_congr (X_rows m c T) (funext fun s => funext fun k => hwp s k o) (hbp o))

/-- The post gate at (time, head): twice the logistic of the pre-activation of head `4 + o`. -/
theorem v20_at
    (hwq : ∀ (s : Fin 4) (k : Fin 2048) (o : Fin 4),
      (V m c main_v15 : S4x2048x24.Idx → EReal) (ix3 s k ⟨4 + o.val, by have := o.isLt; omega⟩)
        = A2 m c (ix2 o ⟨s.val * 2048 + k.val, by have := s.isLt; have := k.isLt; omega⟩) * A8 m c ix0)
    (hbq : ∀ o : Fin 4, (V m c main_v16 : S1x24.Idx → EReal) (ix2 (0 : Fin 1) ⟨4 + o.val, by have := o.isLt; omega⟩) = A5 m c (ix1 o))
    (T : Fin 8192) (o : Fin 4) :
    (resultAt m c main_v20 : S8192x4.Idx → EReal) (ix2 T o)
      = Ideal.ofBits .f32 0x40000000#32 * Ideal.logistic (Cert.Law.zRow (fun s k => A0 m c (ix3 s T k))
          (fun s k => A2 m c (ix2 o ⟨s.val * 2048 + k.val, by have := s.isLt; have := k.isLt; omega⟩) * A8 m c ix0) (A5 m c (ix1 o))) := by
  refine (Cert.KernelIdeal.Tail.tail_v20 m (dats m) c T o).trans ((congrFun (final5 m c) (ix2 o T)).trans ?_)
  show Ideal.ofBits .f32 0x40000000#32 * Ideal.logistic (z m c T ⟨4 + o.val, _⟩) = _
  unfold z
  exact congrArg (Ideal.ofBits .f32 0x40000000#32 * ·) (congrArg Ideal.logistic
    (zRow_congr (X_rows m c T) (funext fun s => funext fun k => hwq s k o) (hbq o)))

/-- The residual matrix at (time, row, column): twenty normalization rounds of the exponentials of the pre-activations
    of heads `8 + 4a + e`. -/
theorem v18_at
    (hwr : ∀ (s : Fin 4) (k : Fin 2048) (o : Fin 16),
      (V m c main_v15 : S4x2048x24.Idx → EReal) (ix3 s k ⟨8 + o.val, by have := o.isLt; omega⟩)
        = A3 m c (ix2 o ⟨s.val * 2048 + k.val, by have := s.isLt; have := k.isLt; omega⟩) * A9 m c ix0)
    (hbr : ∀ i j : Fin 4, (V m c main_v16 : S1x24.Idx → EReal) (ix2 (0 : Fin 1) ⟨8 + 4 * i.val + j.val, by have := i.isLt; have := j.isLt; omega⟩)
        = A6 m c (ix2 i j))
    (T : Fin 8192) (i j : Fin 4) :
    (resultAt m c main_v18 : S8192x4x4.Idx → EReal) (ix3 T i j)
      = Cert.Sinkhorn.sink (fun a e => Ideal.exp (Cert.Law.zRow (fun s k => A0 m c (ix3 s T k))
          (fun s k => A3 m c (ix2 (⟨4 * a.val + e.val, by have := a.isLt; have := e.isLt; omega⟩ : Fin 16)
            ⟨s.val * 2048 + k.val, by have := s.isLt; have := k.isLt; omega⟩) * A9 m c ix0) (A6 m c (ix2 a e)))) i j := by
  refine (Cert.KernelIdeal.Tail.tail_v18 m (dats m) c T i j).trans ((congrFun (final3 m c) (ix3 i j T)).trans ?_)
  show Cert.Sinkhorn.sink (fun a e => Ideal.exp (z m c T ⟨8 + 4 * a.val + e.val, _⟩)) i j = _
  refine congrFun (congrFun (congrArg Cert.Sinkhorn.sink (funext fun a => funext fun e => ?_)) i) j
  have ha := a.isLt; have he := e.isLt
  unfold z
  refine congrArg Ideal.exp (zRow_congr (X_rows m c T) (funext fun s => funext fun k => ?_) (hbr a e))
  have e1 : (⟨8 + 4 * a.val + e.val, by omega⟩ : Fin 24) = ⟨8 + (⟨4 * a.val + e.val, by omega⟩ : Fin 16).val, by show 8 + (4 * a.val + e.val) < 24; omega⟩ :=
    Fin.ext (by show 8 + 4 * a.val + e.val = 8 + (4 * a.val + e.val); omega)
  exact (congrArg (fun q => Wc m c (ix3 s k q)) e1).trans (hwr s k ⟨4 * a.val + e.val, by omega⟩)

end Cert.KernelIdeal.Final
-- ==== Proof.KPrefix.lean ====
import proofs.«112085_j43757126811708_2_alg».proof.Proof.KernelIdealRun
import Idealize.ShloMosaic.Lib.StableHlo.Run
import Idealize.ShloMosaic.Lib.ValueIdx
import Idealize.ShloMosaic.Lib.ValueLayout
import Idealize.ShloMosaic.Lib.Pipeline.Value

/-!
  What the kernel program's seventeen host operations before the launch leave in the combined weight tensor and
  the combined bias row, read at an index.

  Each weight matrix `W : [n, 8192]` is reshaped to `[n, 4, 2048]` (column `2048·s + k` goes to `(·, s, k)`),
  transposed to `[4, 2048, n]` and multiplied by its scalar; the three results are laid side by side along the last
  axis. So
    weights[s, k, o] = W_pre[o, 2048·s + k] · α_pre          for o < 4,
                       W_post[o − 4, 2048·s + k] · α_post    for 4 ≤ o < 8,
                       W_res[o − 8, 2048·s + k] · α_res      for 8 ≤ o < 24,
  and the bias row is the two bias vectors followed by the flattened 4×4 bias matrix:
    bias[0, o] = b_pre[o], b_post[o − 4], b_res[(o − 8) / 4, (o − 8) % 4].
-/

set_option maxRecDepth 16384

noncomputable section

namespace Cert.KernelIdeal.Prefix

open Cert.KernelIdeal Cert.KernelIdeal.Gen Cert.KernelIdeal.Hand Idealize.ShloMosaic Idealize.ShloMosaic.ValueIdx
open Idealize.SL.Sem

/-! ## An n-ary operation over three literal references

The result of an n-ary host operation over the literal family `![x, a, b]` reads each operand's contents at
its own reference (the family applied to the literals 0, 1, 2), so that the operands' own results can be
rewritten in turn. -/

section Nary3

open Idealize.ShloMosaic.StableHlo

variable {nD' : Nat} {τ' : Topo} {sig' : RefSig} {Val : EltTy → Type} {x a b y : Ref sig' .tc}

theorem nary3_result
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

end Nary3

open Idealize.ShloMosaic.StableHlo in
/-- Rewrites `after ops V (Proc.devRef .tc r)` for a literal list of host operations to the operations' functions
    applied to the start contents, a three-reference n-ary operation read operand by operand. -/
local macro "after_results3" : tactic =>
  `(tactic| (simp only [after_cons, after_nil]
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

variable (m : (ℓ : Loc nD τ sig) → Buf (Elt Ideal) ℓ) (c : Dev nD)

/-! ## The arguments and the two combined arrays -/

/-- Argument 1 (the first weight matrix) on device `c`, as an array of extended reals. -/
abbrev A1 : S4x8192.Idx → EReal := m ((c.tc : Thread nD τ).loc main_arg1)
/-- Argument 2 (the second weight matrix) on device `c`, as an array of extended reals. -/
abbrev A2 : S4x8192.Idx → EReal := m ((c.tc : Thread nD τ).loc main_arg2)
/-- Argument 3 (the third weight matrix) on device `c`, as an array of extended reals. -/
abbrev A3 : S16x8192.Idx → EReal := m ((c.tc : Thread nD τ).loc main_arg3)
/-- Argument 4 (the first bias vector) on device `c`, as an array of extended reals. -/
abbrev A4 : S4.Idx → EReal := m ((c.tc : Thread nD τ).loc main_arg4)
/-- Argument 5 (the second bias vector) on device `c`, as an array of extended reals. -/
abbrev A5 : S4.Idx → EReal := m ((c.tc : Thread nD τ).loc main_arg5)
/-- Argument 6 (the bias matrix) on device `c`, as an array of extended reals. -/
abbrev A6 : S4x4.Idx → EReal := m ((c.tc : Thread nD τ).loc main_arg6)
/-- Argument 7 (the first scalar) on device `c`, as an array of extended reals. -/
abbrev A7 : S_.Idx → EReal := m ((c.tc : Thread nD τ).loc main_arg7)
/-- Argument 8 (the second scalar) on device `c`, as an array of extended reals. -/
abbrev A8 : S_.Idx → EReal := m ((c.tc : Thread nD τ).loc main_arg8)
/-- Argument 9 (the third scalar) on device `c`, as an array of extended reals. -/
abbrev A9 : S_.Idx → EReal := m ((c.tc : Thread nD τ).loc main_arg9)

/-- A weight matrix `W : [4, 8192]` reshaped to `[4, 4, 2048]` (column `2048·s + k` goes to `(·, s, k)`), transposed to
    `[4, 2048, 4]` and multiplied entrywise by the broadcast scalar `α`. -/
def scaled4 (W : S4x8192.Idx → EReal) (α : S_.Idx → EReal) : S4x2048x4.Idx → EReal :=
  mulf (F := Ideal) (φ := .f32)
    (transpose S4x2048x4 [1, 2, 0] (shapeCast S4x4x2048 W shapeCasts_S4x8192_S4x4x2048) transposes_S4x4x2048_S4x2048x4_1_2_0)
    (broadcastInDim S4x2048x4 ![] bcast_S_S4x2048x4 α)

/-- Its entry `(s, k, o)` is `W[o, 2048·s + k] · α`. -/
theorem scaled4_apply (W : S4x8192.Idx → EReal) (α : S_.Idx → EReal) (s : Fin 4) (k : Fin 2048) (o : Fin 4) :
    scaled4 W α (ix3 s k o) = W (ix2 o ⟨s.val * 2048 + k.val, by omega⟩) * α ix0 := by
  have h1 : transpose S4x2048x4 [1, 2, 0] (shapeCast S4x4x2048 W shapeCasts_S4x8192_S4x4x2048) transposes_S4x4x2048_S4x2048x4_1_2_0 (ix3 s k o)
      = W (ix2 o ⟨s.val * 2048 + k.val, by omega⟩) := by
    refine (transpose_apply [1, 2, 0] _ transposes_S4x4x2048_S4x2048x4_1_2_0 (ix3 s k o) (ix3 o s k) ?_).trans ?_
    · intro b
      match b with
      | ⟨0, _⟩ => rfl
      | ⟨1, _⟩ => rfl
      | ⟨2, _⟩ => rfl
    · refine shapeCast_apply W shapeCasts_S4x8192_S4x4x2048 (ix3 o s k) (ix2 o ⟨s.val * 2048 + k.val, by omega⟩) ?_
      rw [Shape.rowMajor_val_two, Shape.rowMajor_val_three]
      show o.val * 8192 + (s.val * 2048 + k.val) = (o.val * 4 + s.val) * 2048 + k.val
      omega
  have h2 : broadcastInDim S4x2048x4 ![] bcast_S_S4x2048x4 α (ix3 s k o) = α ix0 :=
    broadcastInDim_apply ![] bcast_S_S4x2048x4 α (ix3 s k o) ix0 (fun a => a.elim0)
  exact congrArg₂ (· * ·) h1 h2

/-- A weight matrix `W : [16, 8192]` reshaped to `[16, 4, 2048]` (column `2048·s + k` goes to `(·, s, k)`), transposed to
    `[4, 2048, 16]` and multiplied entrywise by the broadcast scalar `α`. -/
def scaled16 (W : S16x8192.Idx → EReal) (α : S_.Idx → EReal) : S4x2048x16.Idx → EReal :=
  mulf (F := Ideal) (φ := .f32)
    (transpose S4x2048x16 [1, 2, 0] (shapeCast S16x4x2048 W shapeCasts_S16x8192_S16x4x2048) transposes_S16x4x2048_S4x2048x16_1_2_0)
    (broadcastInDim S4x2048x16 ![] bcast_S_S4x2048x16 α)

/-- Its entry `(s, k, o)` is `W[o, 2048·s + k] · α`. -/
theorem scaled16_apply (W : S16x8192.Idx → EReal) (α : S_.Idx → EReal) (s : Fin 4) (k : Fin 2048) (o : Fin 16) :
    scaled16 W α (ix3 s k o) = W (ix2 o ⟨s.val * 2048 + k.val, by omega⟩) * α ix0 := by
  have h1 : transpose S4x2048x16 [1, 2, 0] (shapeCast S16x4x2048 W shapeCasts_S16x8192_S16x4x2048) transposes_S16x4x2048_S4x2048x16_1_2_0 (ix3 s k o)
      = W (ix2 o ⟨s.val * 2048 + k.val, by omega⟩) := by
    refine (transpose_apply [1, 2, 0] _ transposes_S16x4x2048_S4x2048x16_1_2_0 (ix3 s k o) (ix3 o s k) ?_).trans ?_
    · intro b
      match b with
      | ⟨0, _⟩ => rfl
      | ⟨1, _⟩ => rfl
      | ⟨2, _⟩ => rfl
    · refine shapeCast_apply W shapeCasts_S16x8192_S16x4x2048 (ix3 o s k) (ix2 o ⟨s.val * 2048 + k.val, by omega⟩) ?_
      rw [Shape.rowMajor_val_two, Shape.rowMajor_val_three]
      show o.val * 8192 + (s.val * 2048 + k.val) = (o.val * 4 + s.val) * 2048 + k.val
      omega
  have h2 : broadcastInDim S4x2048x16 ![] bcast_S_S4x2048x16 α (ix3 s k o) = α ix0 :=
    broadcastInDim_apply ![] bcast_S_S4x2048x16 α (ix3 s k o) ix0 (fun a => a.elim0)
  exact congrArg₂ (· * ·) h1 h2

/-- The combined weight tensor: the three scaled pieces laid side by side along the last axis (4 + 4 + 16 = 24
    columns); the narrowing to bf16 does nothing at the idealized floats. -/
def weights : S4x2048x24.Idx → EReal :=
  truncf (F := Ideal) (φ := .f32) .bf16
    (concatenate S4x2048x24 2
      [⟨S4x2048x4, scaled4 (A1 m c) (A7 m c)⟩, ⟨S4x2048x4, scaled4 (A2 m c) (A8 m c)⟩, ⟨S4x2048x16, scaled16 (A3 m c) (A9 m c)⟩]
      concatenates_S4x2048x4_S4x2048x4_S4x2048x16_S4x2048x24_d2)
    bitsLt_bf16_f32

/-- The combined bias row: the two bias vectors and the flattened 4×4 bias matrix laid end to end (4 + 4 + 16 = 24
    entries), as a 1×24 array. -/
def bias : S1x24.Idx → EReal :=
  shapeCast S1x24
    (concatenate S24 0
      [⟨S4, A4 m c⟩, ⟨S4, A5 m c⟩, ⟨S16, shapeCast S16 (A6 m c) shapeCasts_S4x4_S16⟩]
      concatenates_S4_S4_S16_S24_d0)
    shapeCasts_S24_S1x24

/-- What the host lines before the launch leave in the combined weight tensor. -/
theorem v15_eq : (V m c main_v15 : S4x2048x24.Idx → EReal) = weights m c := by
  show StableHlo.after hostOps0 (fun b => m (c, b)) (Proc.devRef .tc main_v15) = _
  after_results3
  rfl

/-- What the host lines before the launch leave in the combined bias row. -/
theorem v16_eq : (V m c main_v16 : S1x24.Idx → EReal) = bias m c := by
  show StableHlo.after hostOps0 (fun b => m (c, b)) (Proc.devRef .tc main_v16) = _
  after_results3
  rfl

/-! ## The combined weight tensor read at an index -/

/-- Columns 0–3: `weights[s, k, o] = W_pre[o, 2048·s + k] · α_pre`. -/
theorem wc_pre (s : Fin 4) (k : Fin 2048) (o : Fin 4) :
    (V m c main_v15 : S4x2048x24.Idx → EReal) (ix3 s k ⟨o.val, by omega⟩)
      = A1 m c (ix2 o ⟨s.val * 2048 + k.val, by omega⟩) * A7 m c ix0 := by
  refine (congrFun (v15_eq m c) _).trans ?_
  unfold weights
  refine (truncf_apply (ψ := .bf16) (φ := .f32) (s := S4x2048x24) _ bitsLt_bf16_f32 _).trans ?_
  refine (concatenate_apply_piece _ _ _ (ix3 s k ⟨o.val, by omega⟩) 0 (by show (0 : ℕ) < 3; decide)
    S4x2048x4 _ (by rfl) (by rfl) 0 (by rfl) (ix3 s k o) ?_ ?_).trans (scaled4_apply _ _ s k o)
  · intro b hb
    match b, hb with
    | ⟨0, _⟩, _ => rfl
    | ⟨1, _⟩, _ => rfl
    | ⟨2, _⟩, hb => exact absurd rfl hb
  · exact Nat.zero_add _

/-- Columns 4–7: `weights[s, k, 4 + o] = W_post[o, 2048·s + k] · α_post`. -/
theorem wc_post (s : Fin 4) (k : Fin 2048) (o : Fin 4) :
    (V m c main_v15 : S4x2048x24.Idx → EReal) (ix3 s k ⟨4 + o.val, by omega⟩)
      = A2 m c (ix2 o ⟨s.val * 2048 + k.val, by omega⟩) * A8 m c ix0 := by
  refine (congrFun (v15_eq m c) _).trans ?_
  unfold weights
  refine (truncf_apply (ψ := .bf16) (φ := .f32) (s := S4x2048x24) _ bitsLt_bf16_f32 _).trans ?_
  refine (concatenate_apply_piece _ _ _ (ix3 s k ⟨4 + o.val, by omega⟩) 1 (by show (1 : ℕ) < 3; decide)
    S4x2048x4 _ (by rfl) (by rfl) 4 (by rfl) (ix3 s k o) ?_ ?_).trans (scaled4_apply _ _ s k o)
  · intro b hb
    match b, hb with
    | ⟨0, _⟩, _ => rfl
    | ⟨1, _⟩, _ => rfl
    | ⟨2, _⟩, hb => exact absurd rfl hb
  · rfl

/-- Columns 8–23: `weights[s, k, 8 + o] = W_res[o, 2048·s + k] · α_res`. -/
theorem wc_res (s : Fin 4) (k : Fin 2048) (o : Fin 16) :
    (V m c main_v15 : S4x2048x24.Idx → EReal) (ix3 s k ⟨8 + o.val, by omega⟩)
      = A3 m c (ix2 o ⟨s.val * 2048 + k.val, by omega⟩) * A9 m c ix0 := by
  refine (congrFun (v15_eq m c) _).trans ?_
  unfold weights
  refine (truncf_apply (ψ := .bf16) (φ := .f32) (s := S4x2048x24) _ bitsLt_bf16_f32 _).trans ?_
  refine (concatenate_apply_piece _ _ _ (ix3 s k ⟨8 + o.val, by omega⟩) 2 (by show (2 : ℕ) < 3; decide)
    S4x2048x16 _ (by rfl) (by rfl) 8 (by rfl) (ix3 s k o) ?_ ?_).trans (scaled16_apply _ _ s k o)
  · intro b hb
    match b, hb with
    | ⟨0, _⟩, _ => rfl
    | ⟨1, _⟩, _ => rfl
    | ⟨2, _⟩, hb => exact absurd rfl hb
  · rfl

/-! ## The combined bias row read at an index -/

/-- Entries 0–3: `bias[0, o] = b_pre[o]`. -/
theorem bc_pre (o : Fin 4) :
    (V m c main_v16 : S1x24.Idx → EReal) (ix2 (0 : Fin 1) ⟨o.val, by omega⟩)
      = A4 m c (ix1 o) := by
  refine (congrFun (v16_eq m c) _).trans ?_
  unfold bias
  refine (shapeCast_a_1a_apply (a := 24) _ _ (0 : Fin 1) ⟨o.val, by omega⟩).trans ?_
  refine concatenate_apply_piece _ _ _ (ix1 ⟨o.val, by omega⟩) 0 (by show (0 : ℕ) < 3; decide)
    S4 _ (by rfl) (by rfl) 0 (by rfl) (ix1 o) ?_ ?_
  · intro b hb
    match b, hb with
    | ⟨0, _⟩, hb => exact absurd rfl hb
  · exact Nat.zero_add _

/-- Entries 4–7: `bias[0, 4 + o] = b_post[o]`. -/
theorem bc_post (o : Fin 4) :
    (V m c main_v16 : S1x24.Idx → EReal) (ix2 (0 : Fin 1) ⟨4 + o.val, by omega⟩)
      = A5 m c (ix1 o) := by
  refine (congrFun (v16_eq m c) _).trans ?_
  unfold bias
  refine (shapeCast_a_1a_apply (a := 24) _ _ (0 : Fin 1) ⟨4 + o.val, by omega⟩).trans ?_
  refine concatenate_apply_piece _ _ _ (ix1 ⟨4 + o.val, by omega⟩) 1 (by show (1 : ℕ) < 3; decide)
    S4 _ (by rfl) (by rfl) 4 (by rfl) (ix1 o) ?_ ?_
  · intro b hb
    match b, hb with
    | ⟨0, _⟩, hb => exact absurd rfl hb
  · rfl

/-- Entries 8–23: `bias[0, 8 + 4·i + j] = b_res[i, j]`. -/
theorem bc_res (i j : Fin 4) :
    (V m c main_v16 : S1x24.Idx → EReal) (ix2 (0 : Fin 1) ⟨8 + 4 * i.val + j.val, by omega⟩)
      = A6 m c (ix2 i j) := by
  refine (congrFun (v16_eq m c) _).trans ?_
  unfold bias
  refine (shapeCast_a_1a_apply (a := 24) _ _ (0 : Fin 1) ⟨8 + 4 * i.val + j.val, by omega⟩).trans ?_
  refine (concatenate_apply_piece _ _ _ (ix1 ⟨8 + 4 * i.val + j.val, by omega⟩) 2 (by show (2 : ℕ) < 3; decide)
    S16 _ (by rfl) (by rfl) 8 (by rfl) (ix1 ⟨4 * i.val + j.val, by omega⟩) ?_ ?_).trans ?_
  · intro b hb
    match b, hb with
    | ⟨0, _⟩, hb => exact absurd rfl hb
  · show 8 + (4 * i.val + j.val) = 8 + 4 * i.val + j.val
    omega
  · refine shapeCast_apply _ shapeCasts_S4x4_S16 (ix1 ⟨4 * i.val + j.val, by omega⟩) (ix2 i j) ?_
    rw [Shape.rowMajor_val_two, Shape.rowMajor_val_one]
    show i.val * 4 + j.val = 4 * i.val + j.val
    omega

end Cert.KernelIdeal.Prefix

end
-- ==== Proof.FiniteArgs.lean ====
import proofs.«112085_j43757126811708_2_alg».proof.Defs
import proofs.«112085_j43757126811708_2_alg».proof.Proof.Gen.Pre_finite_inputs
import Idealize.ShloMosaic.Lib.ReduceAll
import Idealize.ShloMosaic.Lib.ValueIdx
import Idealize.ShloMosaic.PureOps.Ideal.Laws

/-!
  From the precondition to "every entry of the float arguments is a real number".

  The precondition says that, on every device, the conjunction over the ten arguments of
  "all entries x satisfy |x| < +∞" evaluates to the one-bit word 1. At the idealized floats an
  entry is an extended real, |x| is max x (-x) and the constant 0x7F800000 denotes ⊤, so an entry
  with |x| < ⊤ is neither ⊤ nor ⊥: it is (the coercion of) a real number.
-/

namespace Cert.KernelIdeal.Finite

open Idealize.ShloMosaic Idealize.SL.Sem

/-- An extended real whose absolute value compares strictly below the f32 pattern of +∞ is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  induction x using EReal.rec with
  | bot => simp at h'
  | coe r => exact ⟨r, rfl⟩
  | top => simp at h'

/-- The rank-0 shape has one index. -/
instance : Subsingleton Cert.Pre_finite_inputs.S_.Idx := ⟨fun a b => funext fun d => d.elim0⟩

/-- On one device: the nine conjunctions split, each all-reduction read at an arbitrary index, and the
    element fact turned into a real number; for the seven arguments the law uses. -/
private theorem finite_all (m : (ℓ : Loc Cert.KernelIdeal.nD Cert.KernelIdeal.τ Cert.KernelIdeal.sig) → Buf (Elt Ideal) ℓ)
    (hP : Cert.Pre_KernelIdeal (hPre_finite_inputs := Cert.Pre_finite_inputs.Gen.facts) m)
    (c : Dev Cert.KernelIdeal.nD) :
    (∀ i : Cert.KernelIdeal.S4x8192x2048.Idx, ∃ r : ℝ, (m ((c.tc : Thread Cert.KernelIdeal.nD Cert.KernelIdeal.τ).loc Cert.KernelIdeal.main_arg0) : Cert.KernelIdeal.S4x8192x2048.Idx → EReal) i = (r : EReal)) ∧
    (∀ i : Cert.KernelIdeal.S4x8192.Idx, ∃ r : ℝ, (m ((c.tc : Thread Cert.KernelIdeal.nD Cert.KernelIdeal.τ).loc Cert.KernelIdeal.main_arg1) : Cert.KernelIdeal.S4x8192.Idx → EReal) i = (r : EReal)) ∧
    (∀ i : Cert.KernelIdeal.S4x8192.Idx, ∃ r : ℝ, (m ((c.tc : Thread Cert.KernelIdeal.nD Cert.KernelIdeal.τ).loc Cert.KernelIdeal.main_arg2) : Cert.KernelIdeal.S4x8192.Idx → EReal) i = (r : EReal)) ∧
    (∀ i : Cert.KernelIdeal.S16x8192.Idx, ∃ r : ℝ, (m ((c.tc : Thread Cert.KernelIdeal.nD Cert.KernelIdeal.τ).loc Cert.KernelIdeal.main_arg3) : Cert.KernelIdeal.S16x8192.Idx → EReal) i = (r : EReal)) ∧
    (∀ i : Cert.KernelIdeal.S_.Idx, ∃ r : ℝ, (m ((c.tc : Thread Cert.KernelIdeal.nD Cert.KernelIdeal.τ).loc Cert.KernelIdeal.main_arg7) : Cert.KernelIdeal.S_.Idx → EReal) i = (r : EReal)) ∧
    (∀ i : Cert.KernelIdeal.S_.Idx, ∃ r : ℝ, (m ((c.tc : Thread Cert.KernelIdeal.nD Cert.KernelIdeal.τ).loc Cert.KernelIdeal.main_arg8) : Cert.KernelIdeal.S_.Idx → EReal) i = (r : EReal)) ∧
    (∀ i : Cert.KernelIdeal.S_.Idx, ∃ r : ℝ, (m ((c.tc : Thread Cert.KernelIdeal.nD Cert.KernelIdeal.τ).loc Cert.KernelIdeal.main_arg9) : Cert.KernelIdeal.S_.Idx → EReal) i = (r : EReal)) := by
  have h := congrFun (hP c) ValueIdx.ix0
  dsimp only [Cert.Pre_finite_inputs.fn, Cert.Pre_finite_inputs.fn_part1, Cert.Pre_finite_inputs.fn_part2] at h
  obtain ⟨h, h9⟩ := IntOp.andi_eq_one.1 h
  obtain ⟨h, h8⟩ := IntOp.andi_eq_one.1 h
  obtain ⟨h, h7⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_abs_lt_inf _ (Host.reduce_andi_all _ _ _ _ _ h0 i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i),
    fun i => real_of_abs_lt_inf _ (Host.reduce_andi_all _ _ _ _ _ h7 i),
    fun i => real_of_abs_lt_inf _ (Host.reduce_andi_all _ _ _ _ _ h8 i),
    fun i => real_of_abs_lt_inf _ (Host.reduce_andi_all _ _ _ _ _ h9 i)⟩

/-- Every entry of argument 0 (the stream) is a real number. -/
theorem finite_arg0 (m : (ℓ : Loc Cert.KernelIdeal.nD Cert.KernelIdeal.τ Cert.KernelIdeal.sig) → Buf (Elt Ideal) ℓ)
    (hP : Cert.Pre_KernelIdeal (hPre_finite_inputs := Cert.Pre_finite_inputs.Gen.facts) m)
    (c : Dev Cert.KernelIdeal.nD) (i : Cert.KernelIdeal.S4x8192x2048.Idx) :
    ∃ r : ℝ, (m ((c.tc : Thread Cert.KernelIdeal.nD Cert.KernelIdeal.τ).loc Cert.KernelIdeal.main_arg0) : Cert.KernelIdeal.S4x8192x2048.Idx → EReal) i = (r : EReal) :=
  (finite_all m hP c).1 i

/-- Every entry of argument 1 (the first weight matrix) is a real number. -/
theorem finite_arg1 (m : (ℓ : Loc Cert.KernelIdeal.nD Cert.KernelIdeal.τ Cert.KernelIdeal.sig) → Buf (Elt Ideal) ℓ)
    (hP : Cert.Pre_KernelIdeal (hPre_finite_inputs := Cert.Pre_finite_inputs.Gen.facts) m)
    (c : Dev Cert.KernelIdeal.nD) (i : Cert.KernelIdeal.S4x8192.Idx) :
    ∃ r : ℝ, (m ((c.tc : Thread Cert.KernelIdeal.nD Cert.KernelIdeal.τ).loc Cert.KernelIdeal.main_arg1) : Cert.KernelIdeal.S4x8192.Idx → EReal) i = (r : EReal) :=
  (finite_all m hP c).2.1 i

/-- Every entry of argument 2 (the second weight matrix) is a real number. -/
theorem finite_arg2 (m : (ℓ : Loc Cert.KernelIdeal.nD Cert.KernelIdeal.τ Cert.KernelIdeal.sig) → Buf (Elt Ideal) ℓ)
    (hP : Cert.Pre_KernelIdeal (hPre_finite_inputs := Cert.Pre_finite_inputs.Gen.facts) m)
    (c : Dev Cert.KernelIdeal.nD) (i : Cert.KernelIdeal.S4x8192.Idx) :
    ∃ r : ℝ, (m ((c.tc : Thread Cert.KernelIdeal.nD Cert.KernelIdeal.τ).loc Cert.KernelIdeal.main_arg2) : Cert.KernelIdeal.S4x8192.Idx → EReal) i = (r : EReal) :=
  (finite_all m hP c).2.2.1 i

/-- Every entry of argument 3 (the third weight matrix) is a real number. -/
theorem finite_arg3 (m : (ℓ : Loc Cert.KernelIdeal.nD Cert.KernelIdeal.τ Cert.KernelIdeal.sig) → Buf (Elt Ideal) ℓ)
    (hP : Cert.Pre_KernelIdeal (hPre_finite_inputs := Cert.Pre_finite_inputs.Gen.facts) m)
    (c : Dev Cert.KernelIdeal.nD) (i : Cert.KernelIdeal.S16x8192.Idx) :
    ∃ r : ℝ, (m ((c.tc : Thread Cert.KernelIdeal.nD Cert.KernelIdeal.τ).loc Cert.KernelIdeal.main_arg3) : Cert.KernelIdeal.S16x8192.Idx → EReal) i = (r : EReal) :=
  (finite_all m hP c).2.2.2.1 i

/-- Every entry of argument 7 (the first scalar) is a real number. -/
theorem finite_arg7 (m : (ℓ : Loc Cert.KernelIdeal.nD Cert.KernelIdeal.τ Cert.KernelIdeal.sig) → Buf (Elt Ideal) ℓ)
    (hP : Cert.Pre_KernelIdeal (hPre_finite_inputs := Cert.Pre_finite_inputs.Gen.facts) m)
    (c : Dev Cert.KernelIdeal.nD) (i : Cert.KernelIdeal.S_.Idx) :
    ∃ r : ℝ, (m ((c.tc : Thread Cert.KernelIdeal.nD Cert.KernelIdeal.τ).loc Cert.KernelIdeal.main_arg7) : Cert.KernelIdeal.S_.Idx → EReal) i = (r : EReal) :=
  (finite_all m hP c).2.2.2.2.1 i

/-- Every entry of argument 8 (the second scalar) is a real number. -/
theorem finite_arg8 (m : (ℓ : Loc Cert.KernelIdeal.nD Cert.KernelIdeal.τ Cert.KernelIdeal.sig) → Buf (Elt Ideal) ℓ)
    (hP : Cert.Pre_KernelIdeal (hPre_finite_inputs := Cert.Pre_finite_inputs.Gen.facts) m)
    (c : Dev Cert.KernelIdeal.nD) (i : Cert.KernelIdeal.S_.Idx) :
    ∃ r : ℝ, (m ((c.tc : Thread Cert.KernelIdeal.nD Cert.KernelIdeal.τ).loc Cert.KernelIdeal.main_arg8) : Cert.KernelIdeal.S_.Idx → EReal) i = (r : EReal) :=
  (finite_all m hP c).2.2.2.2.2.1 i

/-- Every entry of argument 9 (the third scalar) is a real number. -/
theorem finite_arg9 (m : (ℓ : Loc Cert.KernelIdeal.nD Cert.KernelIdeal.τ Cert.KernelIdeal.sig) → Buf (Elt Ideal) ℓ)
    (hP : Cert.Pre_KernelIdeal (hPre_finite_inputs := Cert.Pre_finite_inputs.Gen.facts) m)
    (c : Dev Cert.KernelIdeal.nD) (i : Cert.KernelIdeal.S_.Idx) :
    ∃ r : ℝ, (m ((c.tc : Thread Cert.KernelIdeal.nD Cert.KernelIdeal.τ).loc Cert.KernelIdeal.main_arg9) : Cert.KernelIdeal.S_.Idx → EReal) i = (r : EReal) :=
  (finite_all m hP c).2.2.2.2.2.2 i

end Cert.KernelIdeal.Finite
-- ==== Proof.LawBridge.lean ====
/-
  The two programs' pre-activations are one number (see Law.lean for the statement in words).
-/
import proofs.«112085_j43757126811708_2_alg».proof.Proof.Law

noncomputable section

namespace Cert.Law

open Idealize.ShloMosaic

/-- The inverse root of a positive real is a real. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- A time step's row of 8192 numbers from its four stream rows. -/
def rowOf (xs : Fin 4 → Fin 2048 → ℝ) : Fin 8192 → ℝ :=
  fun j => xs ⟨j.val / 2048, by have := j.isLt; omega⟩ ⟨j.val % 2048, Nat.mod_lt _ (by norm_num)⟩

theorem rowOf_apply (xs : Fin 4 → Fin 2048 → ℝ) (s : Fin 4) (k : Fin 2048) :
    rowOf xs ⟨s.val * 2048 + k.val, by have := s.isLt; have := k.isLt; omega⟩ = xs s k := by
  have hs := s.isLt; have hk := k.isLt
  exact congrArg₂ xs (Fin.ext (show (s.val * 2048 + k.val) / 2048 = s.val by omega))
    (Fin.ext (show (s.val * 2048 + k.val) % 2048 = k.val by omega))

/-- Four stream sums of products, added to a zero start, are the sum over the whole row. -/
theorem four_streams (a b : Fin 4 → Fin 2048 → ℝ) (f : Fin 8192 → ℝ)
    (hf : ∀ s k, a s k * b s k = f ⟨s.val * 2048 + k.val, by have := s.isLt; have := k.isLt; omega⟩) :
    ((((Ideal.ofBits .f32 0x00000000#32 + ∑ k, (a 0 k : EReal) * (b 0 k : EReal)) + ∑ k, (a 1 k : EReal) * (b 1 k : EReal))
        + ∑ k, (a 2 k : EReal) * (b 2 k : EReal)) + ∑ k, (a 3 k : EReal) * (b 3 k : EReal)) = ((∑ j, f j : ℝ) : EReal) := by
  have hc : ∀ s : Fin 4, (∑ k, (a s k : EReal) * (b s k : EReal)) = ((∑ k, a s k * b s k : ℝ) : EReal) := fun s => by
    rw [coe_sum]; exact Finset.sum_congr rfl fun k _ => (EReal.coe_mul _ _).symm
  rw [hc 0, hc 1, hc 2, hc 3, Ideal.ofBits_zero_f32, zero_add, ← EReal.coe_add, ← EReal.coe_add, ← EReal.coe_add, sum_split f,
    Fin.sum_univ_four]
  simp only [hf]

/-- The kernel's pre-activation over real data. -/
theorem zRow_coe (a b : Fin 4 → Fin 2048 → ℝ) (bo : EReal) (fm fs : Fin 8192 → ℝ)
    (hm : ∀ s k, a s k * b s k = fm ⟨s.val * 2048 + k.val, by have := s.isLt; have := k.isLt; omega⟩)
    (hs : ∀ s k, a s k * a s k = fs ⟨s.val * 2048 + k.val, by have := s.isLt; have := k.isLt; omega⟩)
    (e : ℝ) (hE : Ideal.ofBits .f32 0x322BCC77#32 = (e : EReal)) :
    zRow (fun s k => (a s k : EReal)) (fun s k => (b s k : EReal)) bo
      = ((∑ j, fm j : ℝ) : EReal) * Ideal.rsqrt (((∑ j, fs j) * (1 / 8192) + e : ℝ) : EReal) + bo := by
  unfold zRow
  rw [four_streams a b fm hm, four_streams a a fs hs, ofBits_inv8192, hE, ← EReal.coe_mul, ← EReal.coe_add]

theorem bridge (xs : Fin 4 → Fin 2048 → ℝ) (W : Fin 8192 → ℝ) (α : ℝ) (bo : EReal) :
    zRow (fun s k => (xs s k : EReal))
        (fun s k => (W ⟨s.val * 2048 + k.val, by have := s.isLt; have := k.isLt; omega⟩ : EReal) * (α : EReal)) bo
      = (α : EReal) * (∑ j : Fin 8192,
            ((rowOf xs j : EReal)
              * Ideal.rsqrt (Ideal.div (0 + ∑ i : Fin 8192, (rowOf xs i : EReal) * (rowOf xs i : EReal))
                  (Ideal.ofBits .f32 0x46000000#32) + Ideal.ofBits .f32 0x322BCC77#32))
            * (W j : EReal)) + bo := by
  obtain ⟨e, he, hE⟩ := eps_pos
  have hS0 : 0 ≤ ∑ j, rowOf xs j * rowOf xs j := Finset.sum_nonneg fun j _ => mul_self_nonneg _
  have hv : 0 < (∑ j, rowOf xs j * rowOf xs j) * (1 / 8192) + e := by positivity
  have hrad_ref : Ideal.div (0 + ∑ i : Fin 8192, (rowOf xs i : EReal) * (rowOf xs i : EReal)) (Ideal.ofBits .f32 0x46000000#32)
      + Ideal.ofBits .f32 0x322BCC77#32 = (((∑ j, rowOf xs j * rowOf xs j) * (1 / 8192) + e : ℝ) : EReal) := by
    rw [zero_add, ofBits_8192, Ideal.div_coe (by norm_num : (8192 : ℝ) ≠ 0), hE,
      show (∑ i : Fin 8192, (rowOf xs i : EReal) * (rowOf xs i : EReal)) = ((∑ j, rowOf xs j * rowOf xs j : ℝ) : EReal) from by
        rw [coe_sum]; exact Finset.sum_congr rfl fun k _ => (EReal.coe_mul _ _).symm,
      ← EReal.coe_mul, ← EReal.coe_add]
  simp only [← EReal.coe_mul]
  rw [zRow_coe xs (fun s k => W ⟨s.val * 2048 + k.val, by have := s.isLt; have := k.isLt; omega⟩ * α) bo
      (fun j => rowOf xs j * (W j * α)) (fun j => rowOf xs j * rowOf xs j)
      (fun s k => by rw [rowOf_apply]) (fun s k => by rw [rowOf_apply]) e hE]
  simp only [← EReal.coe_mul] at hrad_ref
  rw [hrad_ref, rsqrt_pos hv]
  simp only [← EReal.coe_mul]
  rw [← coe_sum, ← EReal.coe_mul]
  congr 2
  rw [Finset.sum_mul, Finset.mul_sum]
  exact Finset.sum_congr rfl fun j _ => by ring

end Cert.Law

end
-- ==== Proof.RefRead.lean ====
/-
  The reference program's two gate results and the matrix fed to its normalization rounds, read at an index, over the
  extended reals.

  The stream `X[s, T, k]` (4 streams, 8192 times, 2048 features) is laid out, per time `T`, as one row of 8192 entries:
  `x[T, j] = X[j / 2048, T, j % 2048]` (`xr`). Each row is scaled by `r[T] = rsqrt ((0 + ∑ j, x[T, j] * x[T, j]) / 8192 + ε)`
  (`rR`; the leading `0 +` is the reduction's start value, and the two constants stay bit patterns), and the scaled rows
  are multiplied against the transpose of a weight matrix `W` with `n` rows:
  `d[T, o] = ∑ j : Fin 8192, (x[T, j] * r[T]) * W[o, j]` (`dR`). Then

    first gate   (T, o)    = 1 / (1 + exp (-(α * d[T, o] + b[o])))                  (`pre_apply`)
    second gate  (T, o)    = 2 * (1 / (1 + exp (-(α' * d'[T, o] + b'[o]))))           (`post_apply`)
    the matrix   (T, i, j) = exp (α'' * d''[T, 4 * i + j] + b''[i, j])               (`res48_apply`)

  with `1` and `2` kept as bit patterns and division, exponential and reciprocal square root the ideal instance's. Every
  index is built from literal `Fin 8192`, `Fin 2048`, `Fin 16`, `Fin 4` coordinates. Each layout step (transpose, reshape,
  broadcast) is read at an index the proof names, with one arithmetic fact per axis; the product is re-indexed from its
  one-axis contraction index to `Fin 8192`.
-/
import proofs.«112085_j43757126811708_2_alg».proof.Proof.Gen.ReferenceIdeal.Run
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

def xr (X : S4x8192x2048.Idx → EReal) (T j : Fin 8192) : EReal :=
  X (ix3 (⟨j.val / 2048, by omega⟩ : Fin 4) T (⟨j.val % 2048, by omega⟩ : Fin 2048))

def rR (X : S4x8192x2048.Idx → EReal) (T : Fin 8192) : EReal :=
  Ideal.rsqrt (Ideal.div (0 + ∑ j : Fin 8192, xr X T j * xr X T j) (Ideal.ofBits .f32 0x46000000#32)
    + Ideal.ofBits .f32 0x322BCC77#32)

def dR {n : Nat} (X : S4x8192x2048.Idx → EReal) (W : (⟨2, ![n, 8192]⟩ : Shape).Idx → EReal) (T : Fin 8192) (o : Fin n) : EReal :=
  ∑ j : Fin 8192, (xr X T j * rR X T) * W (ix2 o j)

theorem res1_apply (V0 : Valuation τ sig (Elt Ideal)) (T j : Fin 8192) :
    res_main_v1 V0 (ix2 T j) = xr (V0 (Proc.devRef .tc main_arg0)) T j := by
  unfold res_main_v1 xr
  refine (shapeCast_apply _ _ (ix2 T j)
    (ix3 T (⟨j.val / 2048, by omega⟩ : Fin 4) (⟨j.val % 2048, by omega⟩ : Fin 2048)) ?_).trans ?_
  · rw [Shape.rowMajor_val_three, Shape.rowMajor_val_two]
    show (T.val * 4 + j.val / 2048) * 2048 + j.val % 2048 = T.val * 8192 + j.val
    omega
  · refine transpose_apply _ _ _ _ _ ?_
    intro b
    match b with
    | ⟨0, _⟩ => rfl
    | ⟨1, _⟩ => rfl
    | ⟨2, _⟩ => rfl

/-! ## The host's pointwise operations at an index (definitional) -/

theorem hRsqrt_at {s : Shape} {φ : FTy} (a : FVec Ideal s φ) (i : s.Idx) : Host.rsqrt a i = Ideal.rsqrt (a i) := rfl
theorem hExp_at {s : Shape} {φ : FTy} (a : FVec Ideal s φ) (i : s.Idx) : Host.exp a i = Ideal.exp (a i) := rfl
theorem hNegf_at {s : Shape} {φ : FTy} (a : FVec Ideal s φ) (i : s.Idx) : Host.negf a i = -(a i) := rfl
theorem hDivf_at {s : Shape} {φ : FTy} (a b : FVec Ideal s φ) (i : s.Idx) : Host.divf a b i = Ideal.div (a i) (b i) := rfl

/-- The row's sum of squares: the host reduction over the second axis from the zero start value. -/
theorem ss_apply (V0 : Valuation τ sig (Elt Ideal)) (T : Fin 8192) :
    Host.reduceAdd (mulf (res_main_v1 V0) (res_main_v1 V0)) (constant S_ .f32 0x00000000#32)
        reducesTo_S8192x8192_S8192_d1 h_S_ (ix1 T)
      = 0 + ∑ j : Fin 8192, xr (V0 (Proc.devRef .tc main_arg0)) T j * xr (V0 (Proc.devRef .tc main_arg0)) T j := by
  have h : S8192x8192.Reduces [1] S8192 := by decide
  show Ideal.hostReduceAdd reducesTo_S8192x8192_S8192_d1 (mulf (res_main_v1 V0) (res_main_v1 V0))
      (Ideal.ofBits .f32 0x00000000#32) (ix1 T) = _
  refine (Ideal.hostReduceAdd_single reducesTo_S8192x8192_S8192_d1 h _ _ (ix1 T)).trans ?_
  rw [Ideal.ofBits_zero_f32]
  refine congrArg (0 + ·) ?_
  show ∑ k : Fin 8192, mulf (res_main_v1 V0) (res_main_v1 V0) (h.lift (ix1 T) k) = _
  refine Finset.sum_congr rfl fun k _ => ?_
  have hk : h.lift (ix1 T) k = ix2 T k := by
    funext c
    apply Fin.ext
    match c with
    | ⟨0, _⟩ => rfl
    | ⟨1, _⟩ => rfl
  rw [hk, mulf_apply, res1_apply]

/-- The normalizing factor of row `T`, as the reference computes it in a column of width one. -/
theorem v9_apply (V0 : Valuation τ sig (Elt Ideal)) (T : Fin 8192) (z : Fin 1) :
    Host.rsqrt (addf (Host.divf (broadcastInDim S8192x1 ![0] bcast_S8192_S8192x1_0
        (Host.reduceAdd (mulf (res_main_v1 V0) (res_main_v1 V0)) (constant S_ .f32 0x00000000#32)
          reducesTo_S8192x8192_S8192_d1 h_S_))
        (broadcastInDim S8192x1 ![] bcast_S_S8192x1 (constant S_ .f32 0x46000000#32)))
        (broadcastInDim S8192x1 ![] bcast_S_S8192x1 (constant S_ .f32 0x322BCC77#32))) (ix2 T z)
      = rR (V0 (Proc.devRef .tc main_arg0)) T := by
  have e1 : broadcastInDim S8192x1 ![0] bcast_S8192_S8192x1_0
      (Host.reduceAdd (mulf (res_main_v1 V0) (res_main_v1 V0)) (constant (F := Ideal) S_ .f32 0x00000000#32)
        reducesTo_S8192x8192_S8192_d1 h_S_) (ix2 T z)
      = 0 + ∑ j : Fin 8192, xr (V0 (Proc.devRef .tc main_arg0)) T j * xr (V0 (Proc.devRef .tc main_arg0)) T j :=
    (broadcastInDim_apply _ _ _ (ix2 T z) (ix1 T) (fun a => match a with | ⟨0, _⟩ => rfl)).trans (ss_apply V0 T)
  have e2 : ∀ b : BitVec 32, broadcastInDim S8192x1 ![] bcast_S_S8192x1 (constant (F := Ideal) S_ .f32 b) (ix2 T z)
      = Ideal.ofBits .f32 b := fun b =>
    broadcastInDim_apply _ _ _ (ix2 T z) ix0 (fun a => a.elim0)
  rw [hRsqrt_at, addf_apply, hDivf_at, e1, e2, e2]
  rfl

/-- The normalized row: the common operand of the three products. -/
theorem res11_apply (V0 : Valuation τ sig (Elt Ideal)) (T j : Fin 8192) :
    res_main_v11 V0 (ix2 T j)
      = xr (V0 (Proc.devRef .tc main_arg0)) T j * rR (V0 (Proc.devRef .tc main_arg0)) T := by
  unfold res_main_v11
  rw [mulf_apply, res1_apply]
  refine congrArg (xr (V0 (Proc.devRef .tc main_arg0)) T j * ·) ?_
  refine (broadcastInDim_apply _ _ _ (ix2 T j) (ix2 T (0 : Fin 1)) (fun a => ?_)).trans (v9_apply V0 T 0)
  match a with
  | ⟨0, _⟩ => rfl
  | ⟨1, _⟩ => rfl

/-! ## An ordinary matrix product read at an index -/

/-- The dimension numbers of an ordinary `R × n` by `n × k` product (left operand contracted on its second axis, right
    operand on its first, no batch axis), for any proof that they are well formed. -/
abbrev pdims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem pdims_contr_rank {R n k : Nat} (wf) : (pdims R n k wf).contr.rank = 1 := rfl

theorem pdims_contr_size {R n k : Nat} (wf) :
    (pdims R n k wf).contr.size ⟨0, by rw [pdims_contr_rank]; exact Nat.one_pos⟩ = n := rfl

/-- The contraction index of such a product is one coordinate in `Fin n`. -/
abbrev pcontr {R n k : Nat} (wf) : (pdims R n k wf).contr.Idx ≃ Fin n :=
  contrEquiv1 (pdims R n k wf) n (pdims_contr_rank wf) (pdims_contr_size wf)

/-- The left operand's index at output `(q, o)` and contraction coordinate `c` is `(q, c)`. -/
theorem pdims_lhsIdx {R n k : Nat} (wf) (q : Fin R) (o : Fin k) (c : Fin n) :
    (pdims R n k wf).lhsIdx (ix2 q o) ((pcontr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (pdims R n k wf).lhsBatch from List.not_mem_nil),
      dif_pos (show (⟨0, h0⟩ : Fin (⟨2, ![R, n]⟩ : Shape).rank) ∈ (pdims R n k wf).lhsNonContracting from
        List.mem_singleton.mpr rfl)]
    rfl
  | ⟨1, h1⟩ =>
    exact ((pdims R n k wf).lhsIdx_val_of_single (cl := ⟨1, h1⟩) rfl _ _).trans
      (contrEquiv1_symm_val (pdims R n k wf) n (pdims_contr_rank wf) (pdims_contr_size wf) c)

/-- The right operand's index there is `(c, o)`. -/
theorem pdims_rhsIdx {R n k : Nat} (wf) (q : Fin R) (o : Fin k) (c : Fin n) :
    (pdims R n k wf).rhsIdx (ix2 q o) ((pcontr wf).symm c) = ix2 c o := by
  funext a
  apply Fin.ext
  match a with
  | ⟨0, h0⟩ =>
    exact ((pdims R n k wf).rhsIdx_val_of_single (cr := ⟨0, h0⟩) rfl _ _).trans
      (contrEquiv1_symm_val (pdims R n k wf) n (pdims_contr_rank wf) (pdims_contr_size wf) c)
  | ⟨1, h1⟩ =>
    unfold DotDims.rhsIdx
    rw [dif_neg (show ¬(⟨1, h1⟩ : Fin (⟨2, ![n, k]⟩ : Shape).rank) ∈ (pdims R n k wf).rhsBatch from List.not_mem_nil),
      dif_pos (show (⟨1, h1⟩ : Fin (⟨2, ![n, k]⟩ : Shape).rank) ∈ (pdims R n k wf).rhsNonContracting from
        List.mem_singleton.mpr rfl)]
    rfl

/-- The host's product with these dimension numbers, at `(q, o)`: the sum over the shared axis. -/
theorem pdot_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    Host.dotGeneral (pdims R n k wf) prec A B (ix2 q o) = ∑ c : Fin n, A (ix2 q c) * B (ix2 c o) := by
  show FloatOps.dotGeneral _ prec _ A B (ix2 q o) = _
  rw [Ideal.dotGeneral_apply, ← Equiv.sum_comp (pcontr wf).symm]
  refine Finset.sum_congr rfl fun c _ => ?_
  rw [pdims_lhsIdx, pdims_rhsIdx]

/-- The normalized rows against the transpose of a weight matrix with `n` rows: at `(T, o)` the sum over the
    8192 features of the normalized entry times the weight's entry `(o, j)`. -/
theorem dotW_apply {n : Nat} (wf : DotDims.WF (⟨2, ![8192, 8192]⟩ : Shape) ⟨2, ![8192, n]⟩ ⟨2, ![8192, n]⟩ [1] [0] [0] [1] [] [])
    (ht : (⟨2, ![n, 8192]⟩ : Shape).Transposes [1, 0] ⟨2, ![8192, n]⟩)
    (V0 : Valuation τ sig (Elt Ideal)) (W : (⟨2, ![n, 8192]⟩ : Shape).Idx → EReal) (T : Fin 8192) (o : Fin n) :
    Host.dotGeneral (pdims 8192 8192 n wf) none (res_main_v11 V0)
        (transpose (⟨2, ![8192, n]⟩ : Shape) [1, 0] W ht : FVec Ideal (⟨2, ![8192, n]⟩ : Shape) .f32) (ix2 T o)
      = dR (V0 (Proc.devRef .tc main_arg0)) W T o := by
  refine (pdot_apply wf none _ _ T o).trans ?_
  unfold dR
  refine Finset.sum_congr rfl fun c _ => ?_
  rw [res11_apply]
  refine congrArg (xr (V0 (Proc.devRef .tc main_arg0)) T c * rR (V0 (Proc.devRef .tc main_arg0)) T * ·) ?_
  exact transpose_apply _ _ _ (ix2 c o) (ix2 o c) (fun b => match b with | ⟨0, _⟩ => rfl | ⟨1, _⟩ => rfl)

/-! ## Broadcasts read at an index -/

/-- A scalar broadcast to any shape reads the scalar. -/
theorem bscal_at {t : Shape} {α : Type} (h : S_.BroadcastsInDim t ![]) (a : S_.Idx → α) (j : t.Idx) :
    broadcastInDim t ![] h a j = a ix0 :=
  broadcastInDim_apply _ _ _ j ix0 (fun a => a.elim0)

/-- A per-head bias, broadcast over the rows, reads the head's entry. -/
theorem bias4_at {α : Type} (b : S4.Idx → α) (T : Fin 8192) (o : Fin 4) :
    broadcastInDim S8192x4 ![0, 1] bcast_S1x4_S8192x4_0_1 (broadcastInDim S1x4 ![1] bcast_S4_S1x4_1 b) (ix2 T o)
      = b (ix1 o) :=
  (broadcastInDim_apply _ _ _ (ix2 T o) (ix2 (0 : Fin 1) o)
      (fun a => match a with | ⟨0, _⟩ => rfl | ⟨1, _⟩ => rfl)).trans
    (broadcastInDim_apply _ _ _ (ix2 (0 : Fin 1) o) (ix1 o) (fun a => match a with | ⟨0, _⟩ => rfl))

/-- A 4 × 4 bias, broadcast over the rows, reads its entry. -/
theorem bias44_at {α : Type} (b : S4x4.Idx → α) (T : Fin 8192) (i j : Fin 4) :
    broadcastInDim S8192x4x4 ![0, 1, 2] bcast_S1x4x4_S8192x4x4_0_1_2
        (broadcastInDim S1x4x4 ![1, 2] bcast_S4x4_S1x4x4_1_2 b) (ix3 T i j)
      = b (ix2 i j) :=
  (broadcastInDim_apply _ _ _ (ix3 T i j) (ix3 (0 : Fin 1) i j)
      (fun a => match a with | ⟨0, _⟩ => rfl | ⟨1, _⟩ => rfl | ⟨2, _⟩ => rfl)).trans
    (broadcastInDim_apply _ _ _ (ix3 (0 : Fin 1) i j) (ix2 i j)
      (fun a => match a with | ⟨0, _⟩ => rfl | ⟨1, _⟩ => rfl))

/-! ## The two gates and the matrix fed to the normalization rounds -/

/-- Product and sum at the extended reals with both operands' type fixed, for operands whose type only unfolds to it. -/
local notation:70 a:70 " *ᵉ " b:71 => @HMul.hMul EReal EReal EReal instHMul a b
local notation:65 a:65 " +ᵉ " b:66 => @HAdd.hAdd EReal EReal EReal instHAdd a b

/-- A gate before its final scaling: one over one plus the exponential of minus the scaled product plus the bias. -/
theorem gate_apply (V0 : Valuation τ sig (Elt Ideal)) (α : FVec Ideal S_ .f32) (W : FVec Ideal S4x8192 .f32)
    (b : FVec Ideal S4 .f32) (T : Fin 8192) (o : Fin 4) :
    Host.divf (broadcastInDim S8192x4 ![] bcast_S_S8192x4 (constant S_ .f32 0x3F800000#32)) (addf (broadcastInDim S8192x4 ![] bcast_S_S8192x4 (constant S_ .f32 0x3F800000#32)) (Host.exp (Host.negf (addf (mulf (broadcastInDim S8192x4 ![] bcast_S_S8192x4 α) (Host.dotGeneral (φ₁ := .f32) (φ₂ := .f32) dot_S8192x8192_S8192x4_S8192x4_1_0_0_1_n_n none (res_main_v11 V0) (transpose S8192x4 [1, 0] W transposes_S4x8192_S8192x4_1_0))) (broadcastInDim S8192x4 ![0, 1] bcast_S1x4_S8192x4_0_1 (broadcastInDim S1x4 ![1] bcast_S4_S1x4_1 b)))))) (ix2 T o)
      = Ideal.div (Ideal.ofBits .f32 0x3F800000#32) (Ideal.ofBits .f32 0x3F800000#32
          + Ideal.exp (-(α ix0 * dR (V0 (Proc.devRef .tc main_arg0)) W T o + b (ix1 o)))) := by
  rw [hDivf_at, addf_apply, hExp_at, hNegf_at, addf_apply, mulf_apply, bias4_at]
  rw [bscal_at, bscal_at]
  exact congrArg (fun d => Ideal.div (Ideal.ofBits .f32 0x3F800000#32) (Ideal.ofBits .f32 0x3F800000#32
      + Ideal.exp (-(α ix0 * d + b (ix1 o)))))
    (dotW_apply dot_S8192x8192_S8192x4_S8192x4_1_0_0_1_n_n_wf transposes_S4x8192_S8192x4_1_0 V0 W T o)

theorem pre_apply (V0 : Valuation τ sig (Elt Ideal)) (T : Fin 8192) (o : Fin 4) :
    Host.divf (broadcastInDim S8192x4 ![] bcast_S_S8192x4 (constant S_ .f32 0x3F800000#32)) (addf (broadcastInDim S8192x4 ![] bcast_S_S8192x4 (constant S_ .f32 0x3F800000#32)) (Host.exp (Host.negf (addf (mulf (broadcastInDim S8192x4 ![] bcast_S_S8192x4 (V0 (Proc.devRef .tc main_arg7))) (Host.dotGeneral (φ₁ := .f32) (φ₂ := .f32) dot_S8192x8192_S8192x4_S8192x4_1_0_0_1_n_n none (res_main_v11 V0) (transpose S8192x4 [1, 0] (V0 (Proc.devRef .tc main_arg1)) transposes_S4x8192_S8192x4_1_0))) (broadcastInDim S8192x4 ![0, 1] bcast_S1x4_S8192x4_0_1 (broadcastInDim S1x4 ![1] bcast_S4_S1x4_1 (V0 (Proc.devRef .tc main_arg4)))))))) (ix2 T o)
      = Ideal.div (Ideal.ofBits .f32 0x3F800000#32) (Ideal.ofBits .f32 0x3F800000#32
          + Ideal.exp (-(V0 (Proc.devRef .tc main_arg7) ix0
              *ᵉ dR (V0 (Proc.devRef .tc main_arg0)) (V0 (Proc.devRef .tc main_arg1)) T o
            +ᵉ V0 (Proc.devRef .tc main_arg4) (ix1 o)))) :=
  gate_apply V0 (V0 (Proc.devRef .tc main_arg7)) (V0 (Proc.devRef .tc main_arg1)) (V0 (Proc.devRef .tc main_arg4)) T o

theorem post_apply (V0 : Valuation τ sig (Elt Ideal)) (T : Fin 8192) (o : Fin 4) :
    mulf (broadcastInDim S8192x4 ![] bcast_S_S8192x4 (constant S_ .f32 0x40000000#32)) (Host.divf (broadcastInDim S8192x4 ![] bcast_S_S8192x4 (constant S_ .f32 0x3F800000#32)) (addf (broadcastInDim S8192x4 ![] bcast_S_S8192x4 (constant S_ .f32 0x3F800000#32)) (Host.exp (Host.negf (addf (mulf (broadcastInDim S8192x4 ![] bcast_S_S8192x4 (V0 (Proc.devRef .tc main_arg8))) (Host.dotGeneral (φ₁ := .f32) (φ₂ := .f32) dot_S8192x8192_S8192x4_S8192x4_1_0_0_1_n_n none (res_main_v11 V0) (transpose S8192x4 [1, 0] (V0 (Proc.devRef .tc main_arg2)) transposes_S4x8192_S8192x4_1_0))) (broadcastInDim S8192x4 ![0, 1] bcast_S1x4_S8192x4_0_1 (broadcastInDim S1x4 ![1] bcast_S4_S1x4_1 (V0 (Proc.devRef .tc main_arg5))))))))) (ix2 T o)
      = Ideal.ofBits .f32 0x40000000#32
          * Ideal.div (Ideal.ofBits .f32 0x3F800000#32) (Ideal.ofBits .f32 0x3F800000#32
            + Ideal.exp (-(V0 (Proc.devRef .tc main_arg8) ix0
                *ᵉ dR (V0 (Proc.devRef .tc main_arg0)) (V0 (Proc.devRef .tc main_arg2)) T o
              +ᵉ V0 (Proc.devRef .tc main_arg5) (ix1 o)))) := by
  rw [mulf_apply, bscal_at]
  exact congrArg (Ideal.ofBits .f32 0x40000000#32 * ·)
    (gate_apply V0 (V0 (Proc.devRef .tc main_arg8)) (V0 (Proc.devRef .tc main_arg2)) (V0 (Proc.devRef .tc main_arg5)) T o)

theorem res48_apply (V0 : Valuation τ sig (Elt Ideal)) (T : Fin 8192) (i j : Fin 4) :
    res_main_v48 V0 (ix3 T i j)
      = Ideal.exp (V0 (Proc.devRef .tc main_arg9) ix0
          *ᵉ dR (V0 (Proc.devRef .tc main_arg0)) (V0 (Proc.devRef .tc main_arg3)) T (⟨4 * i.val + j.val, by omega⟩ : Fin 16)
        +ᵉ V0 (Proc.devRef .tc main_arg6) (ix2 i j)) := by
  unfold res_main_v48
  rw [hExp_at, addf_apply, mulf_apply, bias44_at, bscal_at]
  refine congrArg (fun d : EReal => Ideal.exp (V0 (Proc.devRef .tc main_arg9) ix0 *ᵉ d
    +ᵉ V0 (Proc.devRef .tc main_arg6) (ix2 i j))) ?_
  refine (shapeCast_apply _ _ (ix3 T i j) (ix2 T (⟨4 * i.val + j.val, by omega⟩ : Fin 16)) ?_).trans ?_
  · rw [Shape.rowMajor_val_two, Shape.rowMajor_val_three]
    show T.val * 16 + (4 * i.val + j.val) = (T.val * 4 + i.val) * 4 + j.val
    omega
  · exact dotW_apply dot_S8192x8192_S8192x16_S8192x16_1_0_0_1_n_n_wf transposes_S16x8192_S8192x16_1_0 V0
      (V0 (Proc.devRef .tc main_arg3)) T _

end Cert.ReferenceIdeal.RefRead

end
-- ==== Proof.BridgeGen.lean ====
/-
  The kernel's pre-activation of one head at one time step equals the reference's, for finite data.

  The kernel holds a time step's row of 8192 numbers as four stream rows of 2048 (`j = 2048 * s + k`) and forms
  `(Σ_s Σ_k x[s, k] * (W[o, 2048 * s + k] * α)) * rsqrt (ss * 2⁻¹³ + ε) + b`; the reference forms
  `α * Σ_j (x[j] * rsqrt (ss / 8192 + ε)) * W[o, j] + b`. When every entry of the stream and of the weight matrix, and the
  scale `α`, are real numbers, the real witnesses are chosen, both sides are stated over them, and the identity is the one
  proved over real rows: the row read out of the stream at time `T` is the row assembled from the four stream rows, entry
  by entry (the index bounds differ only as proofs).
-/
import proofs.«112085_j43757126811708_2_alg».proof.Proof.LawBridge
import proofs.«112085_j43757126811708_2_alg».proof.Proof.RefRead

noncomputable section

namespace Cert.Bridge

open Idealize.ShloMosaic Idealize.ShloMosaic.ValueIdx Cert.ReferenceIdeal.RefRead

theorem bridge_gen {n : Nat} (X : (⟨3, ![4, 8192, 2048]⟩ : Shape).Idx → EReal)
    (W : (⟨2, ![n, 8192]⟩ : Shape).Idx → EReal) (α b : EReal)
    (hX : ∀ i, ∃ r : ℝ, X i = (r : EReal)) (hW : ∀ i, ∃ r : ℝ, W i = (r : EReal)) (hα : ∃ r : ℝ, α = (r : EReal))
    (T : Fin 8192) (o : Fin n) :
    Cert.Law.zRow (fun s k => X (ix3 s T k))
        (fun s k => W (ix2 o ⟨s.val * 2048 + k.val, by have := s.isLt; have := k.isLt; omega⟩) * α) b
      = α * dR X W T o + b := by
  choose xR hxR using hX
  choose wR hwR using hW
  obtain ⟨αR, rfl⟩ := hα
  obtain rfl : X = fun i => (xR i : EReal) := funext hxR
  obtain rfl : W = fun i => (wR i : EReal) := funext hwR
  refine (Cert.Law.bridge (fun s k => xR (ix3 s T k)) (fun j => wR (ix2 o j)) αR b).trans ?_
  rfl

end Cert.Bridge

end
-- ==== Proof.Final.lean ====
/-
  The two idealized programs end with equal results.

  Kernel side: each result at an index is a function of the argument arrays through the pre-activation in the kernel's
  arrangement.  Reference side: each result at an index is the same function through the pre-activation in the
  reference's arrangement, and for the residual matrix the twenty rounds read off its layout.  The two pre-activations
  are one number for finite inputs, the logistic is 1/(1 + e^(-y)) on both sides, and the normalization rounds are one
  function of the 4×4 matrix of exponentials.
-/
import proofs.«112085_j43757126811708_2_alg».proof.Proof.KFinal
import proofs.«112085_j43757126811708_2_alg».proof.Proof.KPrefix
import proofs.«112085_j43757126811708_2_alg».proof.Proof.FiniteArgs
import proofs.«112085_j43757126811708_2_alg».proof.Proof.BridgeGen

set_option maxRecDepth 16384

noncomputable section

namespace Cert.Final

open Idealize.ShloMosaic Idealize.ShloMosaic.TcCoe Idealize.ShloMosaic.ValueIdx Idealize.SL.Sem
open Cert.KernelIdeal.Final Cert.KernelIdeal.Hand Cert.KernelIdeal.Finite
open Cert.ReferenceIdeal.RefRead

/-- The literal 1.0 is the real one. -/
theorem ofBits_one : Ideal.ofBits .f32 0x3F800000#32 = 1 := by
  simp [Ideal.ofBits, Ideal.ieee, -EReal.coe_mul]; norm_num

/-- The reference's spelling of the logistic. -/
theorem gate_eq (y : EReal) :
    Ideal.div (Ideal.ofBits .f32 0x3F800000#32) (Ideal.ofBits .f32 0x3F800000#32 + Ideal.exp (-y)) = Ideal.logistic y := by
  rw [ofBits_one]; rfl

section
variable (m : (ℓ : Loc Cert.KernelIdeal.nD Cert.KernelIdeal.τ Cert.KernelIdeal.sig) → Buf (Elt Ideal) ℓ)
  (hP : Cert.Pre_KernelIdeal (hPre_finite_inputs := Cert.Pre_finite_inputs.Gen.facts) m)
  (c : Dev Cert.KernelIdeal.nD)

include hP

/-- The pre gate: the reference's value at time step `T`, head `o`, is the kernel program's. -/
theorem pre_core (T : Fin 8192) (o : Fin 4) :
    Ideal.div (Ideal.ofBits .f32 0x3F800000#32) (Ideal.ofBits .f32 0x3F800000#32
        + Ideal.exp (-(A7 m c ix0 * dR (A0 m c) (A1 m c) T o + A4 m c (ix1 o))))
      = (resultAt m c Cert.KernelIdeal.main_v19 : Cert.KernelIdeal.S8192x4.Idx → EReal) (ix2 T o) := by
  rw [v19_at m c (Cert.KernelIdeal.Prefix.wc_pre m c) (Cert.KernelIdeal.Prefix.bc_pre m c) T o, gate_eq]
  exact congrArg Ideal.logistic (Cert.Bridge.bridge_gen (A0 m c) (A1 m c) (A7 m c ix0) (A4 m c (ix1 o))
    (finite_arg0 m hP c) (finite_arg1 m hP c) (finite_arg7 m hP c ix0) T o).symm

/-- The post gate. -/
theorem post_core (T : Fin 8192) (o : Fin 4) :
    Ideal.ofBits .f32 0x40000000#32 * Ideal.div (Ideal.ofBits .f32 0x3F800000#32) (Ideal.ofBits .f32 0x3F800000#32
        + Ideal.exp (-(A8 m c ix0 * dR (A0 m c) (A2 m c) T o + A5 m c (ix1 o))))
      = (resultAt m c Cert.KernelIdeal.main_v20 : Cert.KernelIdeal.S8192x4.Idx → EReal) (ix2 T o) := by
  rw [v20_at m c (Cert.KernelIdeal.Prefix.wc_post m c) (Cert.KernelIdeal.Prefix.bc_post m c) T o, gate_eq]
  exact congrArg (Ideal.ofBits .f32 0x40000000#32 * Ideal.logistic ·) (Cert.Bridge.bridge_gen (A0 m c) (A2 m c) (A8 m c ix0) (A5 m c (ix1 o))
    (finite_arg0 m hP c) (finite_arg2 m hP c) (finite_arg8 m hP c ix0) T o).symm

/-- The residual matrix. -/
theorem res_core (T : Fin 8192) (i j : Fin 4) :
    Cert.Sinkhorn.sink (fun a e => Ideal.exp (A9 m c ix0 * dR (A0 m c) (A3 m c) T (⟨4 * a.val + e.val, by have := a.isLt; have := e.isLt; omega⟩ : Fin 16)
        + A6 m c (ix2 a e))) i j
      = (resultAt m c Cert.KernelIdeal.main_v18 : Cert.KernelIdeal.S8192x4x4.Idx → EReal) (ix3 T i j) := by
  rw [v18_at m c (Cert.KernelIdeal.Prefix.wc_res m c) (Cert.KernelIdeal.Prefix.bc_res m c) T i j]
  refine congrFun (congrFun (congrArg Cert.Sinkhorn.sink (funext fun a => funext fun e => congrArg Ideal.exp ?_)) i) j
  exact (Cert.Bridge.bridge_gen (A0 m c) (A3 m c) (A9 m c ix0) (A6 m c (ix2 a e))
    (finite_arg0 m hP c) (finite_arg3 m hP c) (finite_arg9 m hP c ix0) T _).symm

end

/-! ## The claim -/

open Cert.ReferenceIdeal Cert.ReferenceIdeal.Value Idealize.ShloMosaic.StableHlo in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hP hagree
  refine ⟨fun c => resultAt m c Cert.KernelIdeal.main_v18, fun c => resultAt m c Cert.KernelIdeal.main_v19,
    fun c => resultAt m c Cert.KernelIdeal.main_v20, run_results (F := Ideal) m ρ, ?_⟩
  refine (θ_run Cert.ReferenceIdeal.defs _ _).mono (fun r h c => ?_) (Cert.ReferenceIdeal.Value.run (F := Ideal) m' ρ')
  obtain ⟨h208, h24, h39, hargs⟩ := h c
  obtain ⟨g0, g1, g2, g3, g4, g5, g6, g7, g8, g9⟩ := hagree c
  have e0 : (launchContents m' c (Proc.devRef .tc main_arg0) : S4x8192x2048.Idx → EReal) = A0 m c := g0
  have e1 : (launchContents m' c (Proc.devRef .tc main_arg1) : S4x8192.Idx → EReal) = A1 m c := g1
  have e2 : (launchContents m' c (Proc.devRef .tc main_arg2) : S4x8192.Idx → EReal) = A2 m c := g2
  have e3 : (launchContents m' c (Proc.devRef .tc main_arg3) : S16x8192.Idx → EReal) = A3 m c := g3
  have e4 : (launchContents m' c (Proc.devRef .tc main_arg4) : S4.Idx → EReal) = A4 m c := g4
  have e5 : (launchContents m' c (Proc.devRef .tc main_arg5) : S4.Idx → EReal) = A5 m c := g5
  have e6 : (launchContents m' c (Proc.devRef .tc main_arg6) : S4x4.Idx → EReal) = A6 m c := g6
  have e7 : (launchContents m' c (Proc.devRef .tc main_arg7) : S_.Idx → EReal) = A7 m c := g7
  have e8 : (launchContents m' c (Proc.devRef .tc main_arg8) : S_.Idx → EReal) = A8 m c := g8
  have e9 : (launchContents m' c (Proc.devRef .tc main_arg9) : S_.Idx → EReal) = A9 m c := g9
  refine ⟨h208.trans ?_, h24.trans ?_, h39.trans ?_, hargs⟩
  · refine funext fun (i : S8192x4x4.Idx) => ?_
    obtain ⟨T, a, b, rfl⟩ : ∃ (T : Fin 8192) (a b : Fin 4), i = ix3 T a b := ⟨i 0, i 1, i 2, eq_ix3 i⟩
    refine (Cert.ReferenceIdeal.Sink.ref_sink (launchContents m' c) T a b).trans ?_
    simp only [res48_apply]
    rw [e0, e3, e6, e9]
    exact res_core m hP c T a b
  · refine funext fun (i : S8192x4.Idx) => ?_
    obtain ⟨T, o, rfl⟩ : ∃ (T : Fin 8192) (o : Fin 4), i = ix2 T o := ⟨i 0, i 1, eq_ix2 i⟩
    refine (pre_apply (launchContents m' c) T o).trans ?_
    rw [e0, e1, e4, e7]
    exact pre_core m hP c T o
  · refine funext fun (i : S8192x4.Idx) => ?_
    obtain ⟨T, o, rfl⟩ : ∃ (T : Fin 8192) (o : Fin 4), i = ix2 T o := ⟨i 0, i 1, eq_ix2 i⟩
    refine (post_apply (launchContents m' c) T o).trans ?_
    rw [e0, e2, e5, e8]
    exact post_core m hP c T o

end Cert.Final

end
-- ==== Proof.lean ====
/-
  The certificate of the multi-head gating kernel against its reference.

  Both programs take a stream x[s, T, k] (4 streams, 8192 time steps, 2048 features), three weight matrices over the 8192
  concatenated features, three biases and three gate scales, and return per time step a 4×4 residual matrix made doubly
  stochastic by twenty rounds of row and column normalization of its exponential, a pre gate (a logistic) and a post gate
  (twice a logistic).  The reference normalizes each time step's row of 8192 features by its root mean square, multiplies
  by the weights, scales by α and adds the bias.  The kernel folds α into the weights beforehand, multiplies the
  unnormalized row stream by stream, and applies the root-mean-square factor to the product afterwards.  Over the extended
  reals, for finite inputs, the two agree: the finite factor r moves across the finite sum, and the quotient by 8192 is the
  product with 2⁻¹³.  The three frames: the kernel program's run is proved in KernelRun / KernelIdealRun (one launch over 32
  grid points between host lines), the reference's is its straight-line run.
-/
import proofs.«112085_j43757126811708_2_alg».proof.Defs
import proofs.«112085_j43757126811708_2_alg».proof.Proof.Gen.Kernel
import proofs.«112085_j43757126811708_2_alg».proof.Proof.Gen.KernelIdeal
import proofs.«112085_j43757126811708_2_alg».proof.Proof.Gen.ReferenceIdeal
import proofs.«112085_j43757126811708_2_alg».proof.Proof.Gen.Pre_finite_inputs
import proofs.«112085_j43757126811708_2_alg».proof.Proof.KernelRun
import proofs.«112085_j43757126811708_2_alg».proof.Proof.Final
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Final.algebraic⟩

end Cert.Proof

end
